-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S128 .f32) (main_arg7 : FVec F S128x256 .f32) (main_arg8 : FVec F S256 .f32) (main_arg9 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_v33

def fn {F : FTy → Type} [FloatOps F] (main_arg0 : FVec F S50000x64 .f32) (main_arg1 : IVec S800000 32) (main_arg2 : IVec S800000 32) (main_arg3 : FVec F S800000 .f32) (main_arg4 : FVec F S64x128 .f32) (main_arg5 : FVec F S128 .f32) (main_arg6 : FVec F S128 .f32) (main_arg7 : FVec F S128x256 .f32) (main_arg8 : FVec F S256 .f32) (main_arg9 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S50000x128 : Shape := ⟨2, ![50000, 128]⟩
abbrev S5000x64 : Shape := ⟨2, ![5000, 64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2x128 : Shape := ⟨2, ![2, 128]⟩
abbrev S50000x256 : Shape := ⟨2, ![50000, 256]⟩
abbrev S5000x256 : Shape := ⟨2, ![5000, 256]⟩
abbrev S800000x256 : Shape := ⟨2, ![800000, 256]⟩
abbrev S1x256 : Shape := ⟨2, ![1, 256]⟩
abbrev S2x256 : Shape := ⟨2, ![2, 256]⟩

abbrev nBuf : Space → Nat
  | .hbm => 72
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S2x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S800000x1, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S1x256, .f32⟩
  | .hbm, ⟨59, _⟩ => ⟨S1x256, .f32⟩
  | .hbm, ⟨60, _⟩ => ⟨S2x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S_, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S50000x256, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S2x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S2x256, .f32⟩
  | .local _ .vmem, ⟨24, _⟩ => ⟨S5000x256, .f32⟩
  | .local _ .vmem, ⟨25, _⟩ => ⟨S5000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg4_0 : Ref sig .tc := ⟨.vmem, 29, rfl⟩
abbrev cc5_stg5_0 : Ref sig .tc := ⟨.vmem, 30, rfl⟩
abbrev cc5_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem5_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30
abbrev cc5_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S5000x128_S5000x128 : S5000x128.ShapeCasts S5000x128
  reduces_S5000x128_S128 : S5000x128.Reduces [0] S128
  inb_S2x128_S1x128_0_0 : ∀ a, (![0, 0] : Fin 2 → Nat) a + S1x128.size a ≤ S2x128.size a
  h_S1x128 : 0 < S1x128.numel
  shapeCasts_S1x128_S1x128 : S1x128.ShapeCasts S1x128
  inb_S2x128_S1x128_1_0 : ∀ a, (![1, 0] : Fin 2 → Nat) a + S1x128.size a ≤ S2x128.size a
  slices_S2x128_S1x128_0_0 : S2x128.Slices ![0, 0] S1x128
  bcast_S_S1x128 : S_.BroadcastsInDim S1x128 (![] : Fin 0 → Fin S1x128.rank)
  slices_S2x128_S1x128_1_0 : S2x128.Slices ![1, 0] S1x128
  inb_S1x128_S1x128_0_0 : ∀ a, (![0, 0] : Fin 2 → Nat) a + S1x128.size a ≤ S1x128.size a
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2x256_S2x256_0_0 : ∀ a, (![0, 0] : Fin 2 → Nat) a + S2x256.size a ≤ S2x256.size a
  h_S2x256 : 0 < S2x256.numel
  shapeCasts_S5000x256_S5000x256 : S5000x256.ShapeCasts S5000x256
  reduces_S5000x256_S256 : S5000x256.Reduces [0] S256
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  slices_S2x256_S1x256_0_0 : S2x256.Slices ![0, 0] S1x256
  bcast_S_S1x256 : S_.BroadcastsInDim S1x256 (![] : Fin 0 → Fin S1x256.rank)
  slices_S2x256_S1x256_1_0 : S2x256.Slices ![1, 0] S1x256
  inb_S1x256_S1x256_0_0 : ∀ a, (![0, 0] : Fin 2 → Nat) a + S1x256.size a ≤ S1x256.size a
  broadcasts_S1x256_S5000x256 : S1x256.Broadcasts S5000x256
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x256.size a ≤ S2x256.size a
  hwx4_1 : ∀ i : grid4.Coords, EltTy.bits .f32 = 32 ∨ (Rect.block (s := S2x256) S2x256.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S50000x256.size a
  hwx5_5 : ∀ i : grid5.Coords, EltTy.bits .f32 = 32 ∨ (Rect.block (s := S50000x256) S5000x256.size (cc5_transform_5 i) (hinb5_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v39) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S2x256.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v39) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v40) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v41) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v51) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩

abbrev nBuf : Space → Nat
  | .hbm => 138
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S800000, .f32⟩
  | 4 => ⟨S64x128, .f32⟩
  | 5 => ⟨S128, .f32⟩
  | 6 => ⟨S128, .f32⟩
  | 7 => ⟨S128x256, .f32⟩
  | 8 => ⟨S256, .f32⟩
  | 9 => ⟨S256, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S50000x128, .f32⟩
  | 29 => ⟨S50000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x1, .f32⟩
  | 85 => ⟨S800000x256, .f32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S_, .f32⟩
  | 92 => ⟨S50000x256, .f32⟩
  | 93 => ⟨S50000x256, .f32⟩
  | 94 => ⟨S_, .f32⟩
  | 95 => ⟨S256, .f32⟩
  | 96 => ⟨S_, .f32⟩
  | 97 => ⟨S256, .f32⟩
  | 98 => ⟨S256, .f32⟩
  | 99 => ⟨S_, .i32⟩
  | 100 => ⟨S_, .f32⟩
  | 101 => ⟨S256, .f32⟩
  | 102 => ⟨S1x256, .f32⟩
  | 103 => ⟨S_, .f32⟩
  | 104 => ⟨S1x256, .f32⟩
  | 105 => ⟨S1x256, .f32⟩
  | 106 => ⟨S50000x256, .f32⟩
  | 107 => ⟨S50000x256, .f32⟩
  | 108 => ⟨S50000x256, .f32⟩
  | 109 => ⟨S_, .f32⟩
  | 110 => ⟨S_, .f32⟩
  | 111 => ⟨S_, .f32⟩
  | 112 => ⟨S_, .f32⟩
  | 113 => ⟨S256, .f32⟩
  | 114 => ⟨S256, .f32⟩
  | 115 => ⟨S256, .f32⟩
  | 116 => ⟨S_, .f32⟩
  | 117 => ⟨S_, .i1⟩
  | 118 => ⟨S_, .f32⟩
  | 119 => ⟨S_, .f32⟩
  | 120 => ⟨S256, .f32⟩
  | 121 => ⟨S256, .f32⟩
  | 122 => ⟨S1x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x64, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S1x256, .f32⟩
  | 5 => ⟨S50000x256, .f32⟩
  | 6 => ⟨S50000x256, .f32⟩
  | 7 => ⟨S1x256, .f32⟩
  | 8 => ⟨S50000x256, .f32⟩
  | 9 => ⟨S50000x256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_cst_1 : Ref sig .tc := ⟨.hbm, 46, rfl⟩
abbrev main_call1_v8 : Ref sig .tc := ⟨.hbm, 47, rfl⟩
abbrev main_call1_cst_2 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_cst_3 : Ref sig .tc := ⟨.hbm, 52, rfl⟩
abbrev main_call1_v12 : Ref sig .tc := ⟨.hbm, 53, rfl⟩
abbrev main_call1_cst_4 : Ref sig .tc := ⟨.hbm, 54, rfl⟩
abbrev main_call1_call0_v0 : Ref sig .tc := ⟨.hbm, 55, rfl⟩
abbrev main_call1_call0_v1 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_5 : Ref sig .tc := ⟨.hbm, 75, rfl⟩
abbrev main_v35 : Ref sig .tc := ⟨.hbm, 76, rfl⟩
abbrev main_v36 : Ref sig .tc := ⟨.hbm, 77, rfl⟩
abbrev main_c_6 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call2_cst : Ref sig .tc := ⟨.hbm, 91, rfl⟩
abbrev main_call2_v0 : Ref sig .tc := ⟨.hbm, 92, rfl⟩
abbrev main_v48 : Ref sig .tc := ⟨.hbm, 93, rfl⟩
abbrev main_cst_8 : Ref sig .tc := ⟨.hbm, 94, rfl⟩
abbrev main_v49 : Ref sig .tc := ⟨.hbm, 95, rfl⟩
abbrev main_cst_9 : Ref sig .tc := ⟨.hbm, 96, rfl⟩
abbrev main_v50 : Ref sig .tc := ⟨.hbm, 97, rfl⟩
abbrev main_v51 : Ref sig .tc := ⟨.hbm, 98, rfl⟩
abbrev main_c_10 : Ref sig .tc := ⟨.hbm, 99, rfl⟩
abbrev main_call3_cst : Ref sig .tc := ⟨.hbm, 100, rfl⟩
abbrev main_call3_v0 : Ref sig .tc := ⟨.hbm, 101, rfl⟩
abbrev main_call3_v1 : Ref sig .tc := ⟨.hbm, 102, rfl⟩
abbrev main_call3_cst_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_cst_1 : Ref sig .tc := ⟨.hbm, 110, rfl⟩
abbrev main_call3_v8 : Ref sig .tc := ⟨.hbm, 111, rfl⟩
abbrev main_call3_cst_2 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_cst_3 : Ref sig .tc := ⟨.hbm, 116, rfl⟩
abbrev main_call3_v12 : Ref sig .tc := ⟨.hbm, 117, rfl⟩
abbrev main_call3_cst_4 : Ref sig .tc := ⟨.hbm, 118, rfl⟩
abbrev main_call3_call0_v0 : Ref sig .tc := ⟨.hbm, 119, rfl⟩
abbrev main_call3_call0_v1 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_11 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KRun.lean ====
/- The kernel program's run with its result kept.
   At the compiled mesh, from any memory with zero counters, every weakly fair execution of @main on the
   TensorCores terminates, nothing faulting; every final state holds, in the result buffer `main_v51`, the
   contents the fold of buffer contents through @main's segments gives at the last boundary (`W10`), and holds
   every argument array as launched. The run is the launch over @main's ten segments; the last thread state —
   every unscoped buffer at `W10` — is read against the final state, the result buffer as it stands, each
   argument walked back through the fold to the launch memory. -/
import proofs.«169836_j481036337853_1_alg».proof.Proof.KernelIdealFrameP

set_option maxRecDepth 16384

noncomputable section

namespace Cert.KernelIdeal.KRun
open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every weakly fair execution of @main terminates without fault; in every final state the result buffer
    `main_v51` of each core holds `W10`'s contents there, and each of the ten argument arrays is as launched. -/
theorem run_value : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v51 (by decide))),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

/-- info: 'Cert.KernelIdeal.KRun.run_value' depends on axioms: [propext, Classical.choice, Quot.sound] -/
#guard_msgs in #print axioms run_value

end Cert.KernelIdeal.KRun

end
-- ==== Proof.RefRun.lean ====
import proofs.«169836_j481036337853_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's run

@main of the reference is a straight line of 128 host operations once its calls (the two rectifiers, the two
variances, each variance's select) are unfolded at their call sites. The line is cut at the boundaries of the
twelve stages of the two layers — feature product, edge aggregation, rectifier, column mean, column variance,
normalization —, each stage's operations a list of their own, and the result buffer is read stage by stage:
a stage's output buffer holds the stage's function of the buffers it reads, and every other buffer is left as it was. -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## The operations, stage by stage -/

/-- Operations 1 … 1 of the 128, in program order. -/
abbrev opsSupport1 : List (HloOp τ sig (Elt F)) :=
  [ StableHlo.binary main_arg0 main_arg4 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) ]
/-- The buffers those operations write. -/
abbrev opsSupport1_W : List (Ref sig .tc) := [main_v0]
theorem opsSupport1_sub : (opsSupport1 : List (HloOp τ sig (Elt F))).Forall fun op => op.bufs ⊆ tcRefs τ sig :=
  binary_bufs_sub ..
theorem opsSupport1_fresh : ∀ op ∈ (opsSupport1 : List (HloOp τ sig (Elt F))), op.fresh = ∅ := by
  intro _ h; (repeat (cases h with | head => rfl | tail _ h => ?_)); exact nomatch h
theorem opsSupport1_writes : (opsSupport1 : List (HloOp τ sig (Elt F))).Forall fun op =>
    op.writes ⊆ (opsSupport1_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer those operations do not write keeps its contents through them. -/
theorem opsSupport1_keep (V : Valuation τ sig (Elt F)) (r : Ref sig .tc) (h : r ∉ opsSupport1_W) :
    after opsSupport1 V (Proc.devRef .tc r) = V (Proc.devRef .tc r) :=
  after_of_writes_sub opsSupport1 V opsSupport1_writes h

/-- Operations 2 … 17 of the 128, in program order. -/
abbrev opsAgg1 : List (HloOp τ sig (Elt F)) :=
  [ StableHlo.nullary main_c (constantI S_ 32 0#32),
    StableHlo.unary main_c main_v1 (broadcastInDim S800000 ![] bcast_S_S800000 : (⟨S_, .i32⟩ : BufTy).Contents (Elt F) → (⟨S800000, .i32⟩ : BufTy).Contents (Elt F)),
    StableHlo.binary main_arg1 main_v1 main_v2 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v3 (broadcastInDim S800000 ![] bcast_S_S800000 : (⟨S_, .i32⟩ : BufTy).Contents (Elt F) → (⟨S800000, .i32⟩ : BufTy).Contents (Elt F)),
    StableHlo.binary main_arg1 main_v3 main_v4 (addi : (⟨S800000, .i32⟩ : BufTy).Contents (Elt F) → (⟨S800000, .i32⟩ : BufTy).Contents (Elt F) → (⟨S800000, .i32⟩ : BufTy).Contents (Elt F)),
    StableHlo.ternary main_v2 main_v4 main_arg1 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v5 main_v6 (broadcastInDim S800000x1 ![0] bcast_S800000_S800000x1_0 : (⟨S800000, .i32⟩ : BufTy).Contents (Elt F) → (⟨S800000x1, .i32⟩ : BufTy).Contents (Elt F)),
    StableHlo.binary main_v0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg3 main_v8 (broadcastInDim S800000x1 ![0] bcast_S800000_S800000x1_0 : (⟨S800000, .f32⟩ : BufTy).Contents (Elt F) → (⟨S800000x1, .f32⟩ : BufTy).Contents (Elt F)),
    StableHlo.unary main_v8 main_v9 (broadcastInDim S800000x128 ![0, 1] bcast_S800000x1_S800000x128_0_1 : (⟨S800000x1, .f32⟩ : BufTy).Contents (Elt F) → (⟨S800000x128, .f32⟩ : BufTy).Contents (Elt F)),
    StableHlo.binary main_v7 main_v9 main_v10 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_arg2 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The buffers those operations write. -/
abbrev opsAgg1_W : List (Ref sig .tc) := [main_c, main_v1, main_v2, main_c_0, main_v3, main_v4, main_v5, main_v6, main_v7, main_v8, main_v9, main_v10, main_cst, main_v11, main_v12, main_v13]
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAgg1_fresh : ∀ op ∈ (opsAgg1 : List (HloOp τ sig (Elt F))), op.fresh = ∅ := by
  intro _ h; (repeat (cases h with | head => rfl | tail _ h => ?_)); exact nomatch h
theorem opsAgg1_writes : (opsAgg1 : List (HloOp τ sig (Elt F))).Forall fun op =>
    op.writes ⊆ (opsAgg1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsAgg1_keep (V : Valuation τ sig (Elt F)) (r : Ref sig .tc) (h : r ∉ opsAgg1_W) :
    after opsAgg1 V (Proc.devRef .tc r) = V (Proc.devRef .tc r) :=
  after_of_writes_sub opsAgg1 V opsAgg1_writes h

/-- Operations 18 … 20 of the 128, in program order. -/
abbrev opsRelu1 : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v13 : StableHlo.TRef sig ⟨S50000x128, .f32⟩) main_call0.v0 main_call0.v1 maximumf ]
/-- The buffers those operations write. -/
abbrev opsRelu1_W : List (Ref sig .tc) := [main_call0_cst, main_call0_v0, main_v14]
theorem opsRelu1_sub : (opsRelu1 : List (HloOp τ sig (Elt F))).Forall fun op => op.bufs ⊆ tcRefs τ sig :=
  ⟨nullary_bufs_sub .., unary_bufs_sub .., binary_bufs_sub ..⟩
theorem opsRelu1_fresh : ∀ op ∈ (opsRelu1 : List (HloOp τ sig (Elt F))), op.fresh = ∅ := by
  intro _ h; (repeat (cases h with | head => rfl | tail _ h => ?_)); exact nomatch h
theorem opsRelu1_writes : (opsRelu1 : List (HloOp τ sig (Elt F))).Forall fun op =>
    op.writes ⊆ (opsRelu1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsRelu1_keep (V : Valuation τ sig (Elt F)) (r : Ref sig .tc) (h : r ∉ opsRelu1_W) :
    after opsRelu1 V (Proc.devRef .tc r) = V (Proc.devRef .tc r) :=
  after_of_writes_sub opsRelu1 V opsRelu1_writes h

/-- Operations 21 … 25 of the 128, in program order. -/
abbrev opsMean1 : List (HloOp τ sig (Elt F)) :=
  [ StableHlo.nullary main_cst_1 (constant S_ .f32 0x00000000#32),
    StableHlo.binary main_v14 main_cst_1 main_v15 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v16 (broadcastInDim S128 ![] bcast_S_S128 : (⟨S_, .f32⟩ : BufTy).Contents (Elt F) → (⟨S128, .f32⟩ : BufTy).Contents (Elt F)),
    StableHlo.binary main_v15 main_v16 main_v17 (Host.divf : (⟨S128, .f32⟩ : BufTy).Contents (Elt F) → (⟨S128, .f32⟩ : BufTy).Contents (Elt F) → (⟨S128, .f32⟩ : BufTy).Contents (Elt F)) ]
/-- The buffers those operations write. -/
abbrev opsMean1_W : List (Ref sig .tc) := [main_cst_1, main_v15, main_cst_2, main_v16, main_v17]
theorem opsMean1_sub : (opsMean1 : List (HloOp τ sig (Elt F))).Forall fun op => op.bufs ⊆ tcRefs τ sig :=
  ⟨nullary_bufs_sub .., binary_bufs_sub .., nullary_bufs_sub .., unary_bufs_sub .., binary_bufs_sub ..⟩
theorem opsMean1_fresh : ∀ op ∈ (opsMean1 : List (HloOp τ sig (Elt F))), op.fresh = ∅ := by
  intro _ h; (repeat (cases h with | head => rfl | tail _ h => ?_)); exact nomatch h
theorem opsMean1_writes : (opsMean1 : List (HloOp τ sig (Elt F))).Forall fun op =>
    op.writes ⊆ (opsMean1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsMean1_keep (V : Valuation τ sig (Elt F)) (r : Ref sig .tc) (h : r ∉ opsMean1_W) :
    after opsMean1 V (Proc.devRef .tc r) = V (Proc.devRef .tc r) :=
  after_of_writes_sub opsMean1 V opsMean1_writes h

/-- Operations 26 … 48 of the 128, in program order. -/
abbrev opsVar1 : List (HloOp τ sig (Elt F)) :=
  [ StableHlo.nullary main_c_3 (constantI S_ 32 0#32),
    StableHlo.TRef.nullary main_call1.cst (constant S_ .f32 0x00000000#32),
    StableHlo.TRef.binary (.of main_v14 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v14 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
/-- The buffers those operations write. -/
abbrev opsVar1_W : List (Ref sig .tc) := [main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v18]
theorem opsVar1_sub : (opsVar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar1_fresh : ∀ op ∈ (opsVar1 : List (HloOp τ sig (Elt F))), op.fresh = ∅ := by
  intro _ h; (repeat (cases h with | head => rfl | tail _ h => ?_)); exact nomatch h
theorem opsVar1_writes : (opsVar1 : List (HloOp τ sig (Elt F))).Forall fun op =>
    op.writes ⊆ (opsVar1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsVar1_keep (V : Valuation τ sig (Elt F)) (r : Ref sig .tc) (h : r ∉ opsVar1_W) :
    after opsVar1 V (Proc.devRef .tc r) = V (Proc.devRef .tc r) :=
  after_of_writes_sub opsVar1 V opsVar1_writes h

/-- Operations 49 … 64 of the 128, in program order. -/
abbrev opsNorm1 : List (HloOp τ sig (Elt F)) :=
  [ StableHlo.unary main_v17 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v14 main_v20 main_v21 (subf : (⟨S50000x128, .f32⟩ : BufTy).Contents (Elt F) → (⟨S50000x128, .f32⟩ : BufTy).Contents (Elt F) → (⟨S50000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v21 main_v24 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v25 (broadcastInDim S128 ![] bcast_S_S128 : (⟨S_, .f32⟩ : BufTy).Contents (Elt F) → (⟨S128, .f32⟩ : BufTy).Contents (Elt F)),
    StableHlo.binary main_v18 main_v25 main_v26 (addf : (⟨S128, .f32⟩ : BufTy).Contents (Elt F) → (⟨S128, .f32⟩ : BufTy).Contents (Elt F) → (⟨S128, .f32⟩ : BufTy).Contents (Elt F)),
    StableHlo.unary main_v26 main_v27 (Host.rsqrt : (⟨S128, .f32⟩ : BufTy).Contents (Elt F) → (⟨S128, .f32⟩ : BufTy).Contents (Elt F)),
    StableHlo.unary main_v27 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v29 main_v30 (mulf : (⟨S50000x128, .f32⟩ : BufTy).Contents (Elt F) → (⟨S50000x128, .f32⟩ : BufTy).Contents (Elt F) → (⟨S50000x128, .f32⟩ : BufTy).Contents (Elt F)),
    StableHlo.unary main_arg6 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)) ]
/-- The buffers those operations write. -/
abbrev opsNorm1_W : List (Ref sig .tc) := [main_v19, main_v20, main_v21, main_v22, main_v23, main_v24, main_cst_4, main_v25, main_v26, main_v27, main_v28, main_v29, main_v30, main_v31, main_v32, main_v33]
theorem opsNorm1_sub : (opsNorm1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem opsNorm1_fresh : ∀ op ∈ (opsNorm1 : List (HloOp τ sig (Elt F))), op.fresh = ∅ := by
  intro _ h; (repeat (cases h with | head => rfl | tail _ h => ?_)); exact nomatch h
theorem opsNorm1_writes : (opsNorm1 : List (HloOp τ sig (Elt F))).Forall fun op =>
    op.writes ⊆ (opsNorm1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsNorm1_keep (V : Valuation τ sig (Elt F)) (r : Ref sig .tc) (h : r ∉ opsNorm1_W) :
    after opsNorm1 V (Proc.devRef .tc r) = V (Proc.devRef .tc r) :=
  after_of_writes_sub opsNorm1 V opsNorm1_writes h

/-- Operations 65 … 65 of the 128, in program order. -/
abbrev opsSupport2 : List (HloOp τ sig (Elt F)) :=
  [ StableHlo.binary main_v33 main_arg7 main_v34 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]
/-- The buffers those operations write. -/
abbrev opsSupport2_W : List (Ref sig .tc) := [main_v34]
theorem opsSupport2_sub : (opsSupport2 : List (HloOp τ sig (Elt F))).Forall fun op => op.bufs ⊆ tcRefs τ sig :=
  binary_bufs_sub ..
theorem opsSupport2_fresh : ∀ op ∈ (opsSupport2 : List (HloOp τ sig (Elt F))), op.fresh = ∅ := by
  intro _ h; (repeat (cases h with | head => rfl | tail _ h => ?_)); exact nomatch h
theorem opsSupport2_writes : (opsSupport2 : List (HloOp τ sig (Elt F))).Forall fun op =>
    op.writes ⊆ (opsSupport2_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer those operations do not write keeps its contents through them. -/
theorem opsSupport2_keep (V : Valuation τ sig (Elt F)) (r : Ref sig .tc) (h : r ∉ opsSupport2_W) :
    after opsSupport2 V (Proc.devRef .tc r) = V (Proc.devRef .tc r) :=
  after_of_writes_sub opsSupport2 V opsSupport2_writes h

/-- Operations 66 … 81 of the 128, in program order. -/
abbrev opsAgg2 : List (HloOp τ sig (Elt F)) :=
  [ StableHlo.nullary main_c_5 (constantI S_ 32 0#32),
    StableHlo.unary main_c_5 main_v35 (broadcastInDim S800000 ![] bcast_S_S800000 : (⟨S_, .i32⟩ : BufTy).Contents (Elt F) → (⟨S800000, .i32⟩ : BufTy).Contents (Elt F)),
    StableHlo.binary main_arg1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v37 (broadcastInDim S800000 ![] bcast_S_S800000 : (⟨S_, .i32⟩ : BufTy).Contents (Elt F) → (⟨S800000, .i32⟩ : BufTy).Contents (Elt F)),
    StableHlo.binary main_arg1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_arg1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v34 main_v40 main_v41 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg3 main_v42 (broadcastInDim S800000x1 ![0] bcast_S800000_S800000x1_0 : (⟨S800000, .f32⟩ : BufTy).Contents (Elt F) → (⟨S800000x1, .f32⟩ : BufTy).Contents (Elt F)),
    StableHlo.unary main_v42 main_v43 (broadcastInDim S800000x256 ![0, 1] bcast_S800000x1_S800000x256_0_1 : (⟨S800000x1, .f32⟩ : BufTy).Contents (Elt F) → (⟨S800000x256, .f32⟩ : BufTy).Contents (Elt F)),
    StableHlo.binary main_v41 main_v43 main_v44 (mulf : (⟨S800000x256, .f32⟩ : BufTy).Contents (Elt F) → (⟨S800000x256, .f32⟩ : BufTy).Contents (Elt F) → (⟨S800000x256, .f32⟩ : BufTy).Contents (Elt F)),
    StableHlo.nullary main_cst_7 (constant S_ .f32 0x00000000#32),
    StableHlo.unary main_cst_7 main_v45 (broadcastInDim S50000x256 ![] bcast_S_S50000x256 : (⟨S_, .f32⟩ : BufTy).Contents (Elt F) → (⟨S50000x256, .f32⟩ : BufTy).Contents (Elt F)),
    StableHlo.unary main_arg2 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]
/-- The buffers those operations write. -/
abbrev opsAgg2_W : List (Ref sig .tc) := [main_c_5, main_v35, main_v36, main_c_6, main_v37, main_v38, main_v39, main_v40, main_v41, main_v42, main_v43, main_v44, main_cst_7, main_v45, main_v46, main_v47]
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAgg2_fresh : ∀ op ∈ (opsAgg2 : List (HloOp τ sig (Elt F))), op.fresh = ∅ := by
  intro _ h; (repeat (cases h with | head => rfl | tail _ h => ?_)); exact nomatch h
theorem opsAgg2_writes : (opsAgg2 : List (HloOp τ sig (Elt F))).Forall fun op =>
    op.writes ⊆ (opsAgg2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsAgg2_keep (V : Valuation τ sig (Elt F)) (r : Ref sig .tc) (h : r ∉ opsAgg2_W) :
    after opsAgg2 V (Proc.devRef .tc r) = V (Proc.devRef .tc r) :=
  after_of_writes_sub opsAgg2 V opsAgg2_writes h

/-- Operations 82 … 84 of the 128, in program order. -/
abbrev opsRelu2 : List (HloOp τ sig (Elt F)) :=
  [ StableHlo.TRef.nullary main_call2.cst (constant S_ .f32 0x00000000#32),
    StableHlo.TRef.unary main_call2.cst main_call2.v0 (broadcastInDim S50000x256 ![] bcast_S_S50000x256),
    StableHlo.TRef.binary (.of main_v47 : StableHlo.TRef sig ⟨S50000x256, .f32⟩) main_call2.v0 main_call2.v1 maximumf ]
/-- The buffers those operations write. -/
abbrev opsRelu2_W : List (Ref sig .tc) := [main_call2_cst, main_call2_v0, main_v48]
theorem opsRelu2_sub : (opsRelu2 : List (HloOp τ sig (Elt F))).Forall fun op => op.bufs ⊆ tcRefs τ sig :=
  ⟨nullary_bufs_sub .., unary_bufs_sub .., binary_bufs_sub ..⟩
theorem opsRelu2_fresh : ∀ op ∈ (opsRelu2 : List (HloOp τ sig (Elt F))), op.fresh = ∅ := by
  intro _ h; (repeat (cases h with | head => rfl | tail _ h => ?_)); exact nomatch h
theorem opsRelu2_writes : (opsRelu2 : List (HloOp τ sig (Elt F))).Forall fun op =>
    op.writes ⊆ (opsRelu2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsRelu2_keep (V : Valuation τ sig (Elt F)) (r : Ref sig .tc) (h : r ∉ opsRelu2_W) :
    after opsRelu2 V (Proc.devRef .tc r) = V (Proc.devRef .tc r) :=
  after_of_writes_sub opsRelu2 V opsRelu2_writes h

/-- Operations 85 … 85 of the 128, in program order. -/
abbrev opsMean2a : List (HloOp τ sig (Elt F)) :=
  [ StableHlo.nullary main_cst_8 (constant S_ .f32 0x00000000#32) ]
/-- The buffers those operations write. -/
abbrev opsMean2a_W : List (Ref sig .tc) := [main_cst_8]
theorem opsMean2a_sub : (opsMean2a : List (HloOp τ sig (Elt F))).Forall fun op => op.bufs ⊆ tcRefs τ sig :=
  nullary_bufs_sub ..
theorem opsMean2a_fresh : ∀ op ∈ (opsMean2a : List (HloOp τ sig (Elt F))), op.fresh = ∅ := by
  intro _ h; (repeat (cases h with | head => rfl | tail _ h => ?_)); exact nomatch h
theorem opsMean2a_writes : (opsMean2a : List (HloOp τ sig (Elt F))).Forall fun op =>
    op.writes ⊆ (opsMean2a_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer those operations do not write keeps its contents through them. -/
theorem opsMean2a_keep (V : Valuation τ sig (Elt F)) (r : Ref sig .tc) (h : r ∉ opsMean2a_W) :
    after opsMean2a V (Proc.devRef .tc r) = V (Proc.devRef .tc r) :=
  after_of_writes_sub opsMean2a V opsMean2a_writes h

/-- Operations 86 … 89 of the 128, in program order. -/
abbrev opsMean2b : List (HloOp τ sig (Elt F)) :=
  [ StableHlo.binary main_v48 main_cst_8 main_v49 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v50 (broadcastInDim S256 ![] bcast_S_S256 : (⟨S_, .f32⟩ : BufTy).Contents (Elt F) → (⟨S256, .f32⟩ : BufTy).Contents (Elt F)),
    StableHlo.binary main_v49 main_v50 main_v51 (Host.divf : (⟨S256, .f32⟩ : BufTy).Contents (Elt F) → (⟨S256, .f32⟩ : BufTy).Contents (Elt F) → (⟨S256, .f32⟩ : BufTy).Contents (Elt F)) ]
/-- The buffers those operations write. -/
abbrev opsMean2b_W : List (Ref sig .tc) := [main_v49, main_cst_9, main_v50, main_v51]
theorem opsMean2b_sub : (opsMean2b : List (HloOp τ sig (Elt F))).Forall fun op => op.bufs ⊆ tcRefs τ sig :=
  ⟨binary_bufs_sub .., nullary_bufs_sub .., unary_bufs_sub .., binary_bufs_sub ..⟩
theorem opsMean2b_fresh : ∀ op ∈ (opsMean2b : List (HloOp τ sig (Elt F))), op.fresh = ∅ := by
  intro _ h; (repeat (cases h with | head => rfl | tail _ h => ?_)); exact nomatch h
theorem opsMean2b_writes : (opsMean2b : List (HloOp τ sig (Elt F))).Forall fun op =>
    op.writes ⊆ (opsMean2b_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsMean2b_keep (V : Valuation τ sig (Elt F)) (r : Ref sig .tc) (h : r ∉ opsMean2b_W) :
    after opsMean2b V (Proc.devRef .tc r) = V (Proc.devRef .tc r) :=
  after_of_writes_sub opsMean2b V opsMean2b_writes h

/-- Operations 90 … 112 of the 128, in program order. -/
abbrev opsVar2 : List (HloOp τ sig (Elt F)) :=
  [ StableHlo.nullary main_c_10 (constantI S_ 32 0#32),
    StableHlo.TRef.nullary main_call3.cst (constant S_ .f32 0x00000000#32),
    StableHlo.TRef.binary (.of main_v48 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v48 : StableHlo.TRef sig ⟨S50000x256, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b) ]
/-- The buffers those operations write. -/
abbrev opsVar2_W : List (Ref sig .tc) := [main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v52]
theorem opsVar2_sub : (opsVar2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar2_fresh : ∀ op ∈ (opsVar2 : List (HloOp τ sig (Elt F))), op.fresh = ∅ := by
  intro _ h; (repeat (cases h with | head => rfl | tail _ h => ?_)); exact nomatch h
theorem opsVar2_writes : (opsVar2 : List (HloOp τ sig (Elt F))).Forall fun op =>
    op.writes ⊆ (opsVar2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsVar2_keep (V : Valuation τ sig (Elt F)) (r : Ref sig .tc) (h : r ∉ opsVar2_W) :
    after opsVar2 V (Proc.devRef .tc r) = V (Proc.devRef .tc r) :=
  after_of_writes_sub opsVar2 V opsVar2_writes h

/-- Operations 113 … 128 of the 128, in program order. -/
abbrev opsNorm2 : List (HloOp τ sig (Elt F)) :=
  [ StableHlo.unary main_v51 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v54 main_v55 (subf : (⟨S50000x256, .f32⟩ : BufTy).Contents (Elt F) → (⟨S50000x256, .f32⟩ : BufTy).Contents (Elt F) → (⟨S50000x256, .f32⟩ : BufTy).Contents (Elt F)),
    StableHlo.unary main_arg8 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v57 main_v55 main_v58 (mulf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v59 (broadcastInDim S256 ![] bcast_S_S256 : (⟨S_, .f32⟩ : BufTy).Contents (Elt F) → (⟨S256, .f32⟩ : BufTy).Contents (Elt F)),
    StableHlo.binary main_v52 main_v59 main_v60 (addf : (⟨S256, .f32⟩ : BufTy).Contents (Elt F) → (⟨S256, .f32⟩ : BufTy).Contents (Elt F) → (⟨S256, .f32⟩ : BufTy).Contents (Elt F)),
    StableHlo.unary main_v60 main_v61 (Host.rsqrt : (⟨S256, .f32⟩ : BufTy).Contents (Elt F) → (⟨S256, .f32⟩ : BufTy).Contents (Elt F)),
    StableHlo.unary main_v61 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg9 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (addf : (⟨S50000x256, .f32⟩ : BufTy).Contents (Elt F) → (⟨S50000x256, .f32⟩ : BufTy).Contents (Elt F) → (⟨S50000x256, .f32⟩ : BufTy).Contents (Elt F)) ]
/-- The buffers those operations write. -/
abbrev opsNorm2_W : List (Ref sig .tc) := [main_v53, main_v54, main_v55, main_v56, main_v57, main_v58, main_cst_11, main_v59, main_v60, main_v61, main_v62, main_v63, main_v64, main_v65, main_v66, main_v67]
theorem opsNorm2_sub : (opsNorm2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem opsNorm2_fresh : ∀ op ∈ (opsNorm2 : List (HloOp τ sig (Elt F))), op.fresh = ∅ := by
  intro _ h; (repeat (cases h with | head => rfl | tail _ h => ?_)); exact nomatch h
theorem opsNorm2_writes : (opsNorm2 : List (HloOp τ sig (Elt F))).Forall fun op =>
    op.writes ⊆ (opsNorm2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer those operations do not write keeps its contents through them. -/
theorem opsNorm2_keep (V : Valuation τ sig (Elt F)) (r : Ref sig .tc) (h : r ∉ opsNorm2_W) :
    after opsNorm2 V (Proc.devRef .tc r) = V (Proc.devRef .tc r) :=
  after_of_writes_sub opsNorm2 V opsNorm2_writes h

/-- The operations of @main's first window (statements 1 … 60). -/
abbrev opsP0 : List (HloOp τ sig (Elt F)) := opsSupport1 ++ (opsAgg1 ++ (opsRelu1 ++ (opsMean1 ++ (opsVar1 ++ (opsNorm1 ++ (opsSupport2 ++ (opsAgg2 ++ (opsRelu2 ++ (opsMean2a)))))))))
/-- The operations of @main's second window (statements 61 … 83). -/
abbrev opsP1 : List (HloOp τ sig (Elt F)) := opsMean2b ++ (opsVar2 ++ (opsNorm2))
/-- @main's 128 operations, in order, the calls unfolded. -/
abbrev ops : List (HloOp τ sig (Elt F)) := opsP0 ++ opsP1

/-! ## @main is that line -/

set_option maxRecDepth 4096 in
set_option maxHeartbeats 4000000 in
theorem main_part0_eq (c : Dev nD) : main_part0 (F := F) c = seq opsP0 := by
  simp only [main_part0, fn_relu.body, fn_var.body, fn_where.body, fn_relu_0.body, opsP0, opsSupport1, opsAgg1, opsRelu1, opsMean1, opsVar1, opsNorm1, opsSupport2, opsAgg2, opsRelu2, opsMean2a,
    List.cons_append, List.nil_append, seq, bind_assoc, pure_bind]
  rfl

set_option maxRecDepth 4096 in
set_option maxHeartbeats 4000000 in
theorem main_part1_eq (c : Dev nD) : main_part1 (F := F) c = seq opsP1 := by
  simp only [main_part1, fn_var_1.body, fn_where_2.body, opsP1, opsMean2b, opsVar2, opsNorm2,
    List.cons_append, List.nil_append, seq, bind_assoc, pure_bind]

theorem main_eq (c : Dev nD) : main (F := F) c = seq ops := by
  show (main_part0 c >>= fun _ => main_part1 c) = seq (opsP0 ++ opsP1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append opsSupport1_sub (forall_append opsAgg1_sub (forall_append opsRelu1_sub (forall_append opsMean1_sub (forall_append opsVar1_sub (forall_append opsNorm1_sub (forall_append opsSupport2_sub (forall_append opsAgg2_sub (forall_append opsRelu2_sub (opsMean2a_sub))))))))))
    (forall_append opsMean2b_sub (forall_append opsVar2_sub (opsNorm2_sub)))

theorem ops_fresh : ∀ op ∈ (ops : List (HloOp τ sig (Elt F))), op.fresh = ∅ := by
  intro op h
  simp only [ops, opsP0, opsP1, List.mem_append] at h
  rcases h with (h | (h | (h | (h | (h | (h | (h | (h | (h | h))))))))) | (h | (h | h))
  · exact opsSupport1_fresh op h
  · exact opsAgg1_fresh op h
  · exact opsRelu1_fresh op h
  · exact opsMean1_fresh op h
  · exact opsVar1_fresh op h
  · exact opsNorm1_fresh op h
  · exact opsSupport2_fresh op h
  · exact opsAgg2_fresh op h
  · exact opsRelu2_fresh op h
  · exact opsMean2a_fresh op h
  · exact opsMean2b_fresh op h
  · exact opsVar2_fresh op h
  · exact opsNorm2_fresh op h

/-! ## The stages, as functions of the buffers they read

Each is its operations composed, in the program's own spelling. -/

/-- Layer 1's feature product (main's %0): the features times the weight matrix. -/
def support1 (x : (⟨S50000x64, .f32⟩ : BufTy).Contents (Elt F)) (w : (⟨S64x128, .f32⟩ : BufTy).Contents (Elt F)) :
    (⟨S50000x128, .f32⟩ : BufTy).Contents (Elt F) :=
  Host.dotGeneral dot_S50000x64_S64x128_S50000x128_1_0_0_1_n_n none x w

/-- The source indices, a negative one wrapped by the row count (main's %1 … %5, and again %35 … %39). -/
def srcIdx (src : (⟨S800000, .i32⟩ : BufTy).Contents (Elt F)) :
    (⟨S800000, .i32⟩ : BufTy).Contents (Elt F) :=
  select (cmpi .slt src (broadcastInDim S800000 ![] bcast_S_S800000 (constantI S_ 32 0#32))) (addi src (broadcastInDim S800000 ![] bcast_S_S800000 (constantI S_ 32 50000#32))) src

/-- Layer 1's edge aggregation (main's %1 … %13): the rows of `s` gathered at the wrapped source indices, each scaled by
    its edge weight, summed into zeros at the destination indices. -/
def agg1 (s : (⟨S50000x128, .f32⟩ : BufTy).Contents (Elt F)) (src : (⟨S800000, .i32⟩ : BufTy).Contents (Elt F)) (dst : (⟨S800000, .i32⟩ : BufTy).Contents (Elt F)) (w : (⟨S800000, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (mulf (Host.gather gather_S50000x128_S800000x1_S800000x128_1_0_n_n_0_1_1128 s (broadcastInDim S800000x1 ![0] bcast_S800000_S800000x1_0 (srcIdx src))) (broadcastInDim S800000x128 ![0, 1] bcast_S800000x1_S800000x128_0_1 (broadcastInDim S800000x1 ![0] bcast_S800000_S800000x1_0 w)))

/-- @relu's body: the maximum with zero. -/
def relu1 (a : (⟨S50000x128, .f32⟩ : BufTy).Contents (Elt F)) :
    (⟨S50000x128, .f32⟩ : BufTy).Contents (Elt F) :=
  maximumf a (broadcastInDim S50000x128 ![] bcast_S_S50000x128 (constant (F := F) S_ .f32 0x00000000#32))

/-- Layer 1's column mean over the 50000 rows (main's %15 … %17): the column sums divided by 50000. -/
def mean1 (r : (⟨S50000x128, .f32⟩ : BufTy).Contents (Elt F)) :
    (⟨S128, .f32⟩ : BufTy).Contents (Elt F) :=
  Host.divf (Host.reduceAdd r (constant (F := F) S_ .f32 0x00000000#32) reducesTo_S50000x128_S128_d0 h_S_) (broadcastInDim S128 ![] bcast_S_S128 (constant (F := F) S_ .f32 0x47435000#32))

/-- @_var's %8: the row count less the correction, 50000 - 0 as a float. -/
def denom :
    (⟨S_, .f32⟩ : BufTy).Contents (Elt F) :=
  subf (constant (F := F) S_ .f32 0x47435000#32) (sitofp .f32 (constantI S_ 32 0#32))

/-- @_var's %5: the deviation from the column mean. -/
def dev1 (r : (⟨S50000x128, .f32⟩ : BufTy).Contents (Elt F)) :
    (⟨S50000x128, .f32⟩ : BufTy).Contents (Elt F) :=
  subf r (broadcastInDim S50000x128 ![0, 1] bcast_S1x128_S50000x128_0_1 (Host.divf (broadcastInDim S1x128 ![1] bcast_S128_S1x128_1 (Host.reduceAdd r (constant (F := F) S_ .f32 0x00000000#32) reducesTo_S50000x128_S128_d0 h_S_)) (broadcastInDim S1x128 ![] bcast_S_S1x128 (constant (F := F) S_ .f32 0x47435000#32))))

/-- @_var's body with @_where's: the column sums of the squared deviations divided by `denom`, selected against the
    not-a-number constant by `denom > 0`. -/
def var1 (r : (⟨S50000x128, .f32⟩ : BufTy).Contents (Elt F)) :
    (⟨S128, .f32⟩ : BufTy).Contents (Elt F) :=
  select (broadcastInDim S128 ![] bcast_S_S128 (cmpf .ogt denom (constant (F := F) S_ .f32 0x00000000#32))) (Host.divf (Host.reduceAdd (mulf (dev1 r) (dev1 r)) (constant (F := F) S_ .f32 0x00000000#32) reducesTo_S50000x128_S128_d0 h_S_) (broadcastInDim S128 ![] bcast_S_S128 denom)) (broadcastInDim S128 ![] bcast_S_S128 (id (constant (F := F) S_ .f32 0x7FC00000#32)))

/-- main's %19 … %33 at a given column mean `mu` and variance `v`: gamma * (r - mu) * rsqrt (v + eps) + beta, by broadcasts. -/
def norm1 (r : (⟨S50000x128, .f32⟩ : BufTy).Contents (Elt F)) (mu : (⟨S128, .f32⟩ : BufTy).Contents (Elt F)) (v : (⟨S128, .f32⟩ : BufTy).Contents (Elt F)) (gamma : (⟨S128, .f32⟩ : BufTy).Contents (Elt F)) (beta : (⟨S128, .f32⟩ : BufTy).Contents (Elt F)) :
    (⟨S50000x128, .f32⟩ : BufTy).Contents (Elt F) :=
  addf (mulf (mulf (broadcastInDim S50000x128 ![0, 1] bcast_S1x128_S50000x128_0_1 (broadcastInDim S1x128 ![1] bcast_S128_S1x128_1 gamma)) (subf r (broadcastInDim S50000x128 ![0, 1] bcast_S1x128_S50000x128_0_1 (broadcastInDim S1x128 ![1] bcast_S128_S1x128_1 mu)))) (broadcastInDim S50000x128 ![0, 1] bcast_S1x128_S50000x128_0_1 (broadcastInDim S1x128 ![1] bcast_S128_S1x128_1 (Host.rsqrt (addf v (broadcastInDim S128 ![] bcast_S_S128 (constant (F := F) S_ .f32 0x3727C5AC#32))))))) (broadcastInDim S50000x128 ![0, 1] bcast_S1x128_S50000x128_0_1 (broadcastInDim S1x128 ![1] bcast_S128_S1x128_1 beta))

/-- Layer 2's feature product (main's %34). -/
def support2 (x : (⟨S50000x128, .f32⟩ : BufTy).Contents (Elt F)) (w : (⟨S128x256, .f32⟩ : BufTy).Contents (Elt F)) :
    (⟨S50000x256, .f32⟩ : BufTy).Contents (Elt F) :=
  Host.dotGeneral dot_S50000x128_S128x256_S50000x256_1_0_0_1_n_n none x w

/-- Layer 2's edge aggregation (main's %35 … %47), as `agg1` at 256 columns. -/
def agg2 (s : (⟨S50000x256, .f32⟩ : BufTy).Contents (Elt F)) (src : (⟨S800000, .i32⟩ : BufTy).Contents (Elt F)) (dst : (⟨S800000, .i32⟩ : BufTy).Contents (Elt F)) (w : (⟨S800000, .f32⟩ : BufTy).Contents (Elt F)) :
    (⟨S50000x256, .f32⟩ : BufTy).Contents (Elt F) :=
  Host.scatterAdd scatter_S50000x256_S800000x1_S800000x256_1_0_0_1 (broadcastInDim S50000x256 ![] bcast_S_S50000x256 (constant (F := F) S_ .f32 0x00000000#32)) (broadcastInDim S800000x1 ![0] bcast_S800000_S800000x1_0 dst) (mulf (Host.gather gather_S50000x256_S800000x1_S800000x256_1_0_n_n_0_1_1256 s (broadcastInDim S800000x1 ![0] bcast_S800000_S800000x1_0 (srcIdx src))) (broadcastInDim S800000x256 ![0, 1] bcast_S800000x1_S800000x256_0_1 (broadcastInDim S800000x1 ![0] bcast_S800000_S800000x1_0 w)))

/-- @relu_0's body: the maximum with zero. -/
def relu2 (a : (⟨S50000x256, .f32⟩ : BufTy).Contents (Elt F)) :
    (⟨S50000x256, .f32⟩ : BufTy).Contents (Elt F) :=
  maximumf a (broadcastInDim S50000x256 ![] bcast_S_S50000x256 (constant (F := F) S_ .f32 0x00000000#32))

/-- Layer 2's column mean over the 50000 rows (main's %49 … %51). -/
def mean2 (r : (⟨S50000x256, .f32⟩ : BufTy).Contents (Elt F)) :
    (⟨S256, .f32⟩ : BufTy).Contents (Elt F) :=
  Host.divf (Host.reduceAdd r (constant (F := F) S_ .f32 0x00000000#32) reducesTo_S50000x256_S256_d0 h_S_) (broadcastInDim S256 ![] bcast_S_S256 (constant (F := F) S_ .f32 0x47435000#32))

/-- @_var_1's %5: the deviation from the column mean. -/
def dev2 (r : (⟨S50000x256, .f32⟩ : BufTy).Contents (Elt F)) :
    (⟨S50000x256, .f32⟩ : BufTy).Contents (Elt F) :=
  subf r (broadcastInDim S50000x256 ![0, 1] bcast_S1x256_S50000x256_0_1 (Host.divf (broadcastInDim S1x256 ![1] bcast_S256_S1x256_1 (Host.reduceAdd r (constant (F := F) S_ .f32 0x00000000#32) reducesTo_S50000x256_S256_d0 h_S_)) (broadcastInDim S1x256 ![] bcast_S_S1x256 (constant (F := F) S_ .f32 0x47435000#32))))

/-- @_var_1's body with @_where_2's, as `var1` at 256 columns. -/
def var2 (r : (⟨S50000x256, .f32⟩ : BufTy).Contents (Elt F)) :
    (⟨S256, .f32⟩ : BufTy).Contents (Elt F) :=
  select (broadcastInDim S256 ![] bcast_S_S256 (cmpf .ogt denom (constant (F := F) S_ .f32 0x00000000#32))) (Host.divf (Host.reduceAdd (mulf (dev2 r) (dev2 r)) (constant (F := F) S_ .f32 0x00000000#32) reducesTo_S50000x256_S256_d0 h_S_) (broadcastInDim S256 ![] bcast_S_S256 denom)) (broadcastInDim S256 ![] bcast_S_S256 (id (constant (F := F) S_ .f32 0x7FC00000#32)))

/-- main's %53 … %67 at a given column mean `mu` and variance `v`, as `norm1` at 256 columns. -/
def norm2 (r : (⟨S50000x256, .f32⟩ : BufTy).Contents (Elt F)) (mu : (⟨S256, .f32⟩ : BufTy).Contents (Elt F)) (v : (⟨S256, .f32⟩ : BufTy).Contents (Elt F)) (gamma : (⟨S256, .f32⟩ : BufTy).Contents (Elt F)) (beta : (⟨S256, .f32⟩ : BufTy).Contents (Elt F)) :
    (⟨S50000x256, .f32⟩ : BufTy).Contents (Elt F) :=
  addf (mulf (mulf (broadcastInDim S50000x256 ![0, 1] bcast_S1x256_S50000x256_0_1 (broadcastInDim S1x256 ![1] bcast_S256_S1x256_1 gamma)) (subf r (broadcastInDim S50000x256 ![0, 1] bcast_S1x256_S50000x256_0_1 (broadcastInDim S1x256 ![1] bcast_S256_S1x256_1 mu)))) (broadcastInDim S50000x256 ![0, 1] bcast_S1x256_S50000x256_0_1 (broadcastInDim S1x256 ![1] bcast_S256_S1x256_1 (Host.rsqrt (addf v (broadcastInDim S256 ![] bcast_S_S256 (constant (F := F) S_ .f32 0x3727C5AC#32))))))) (broadcastInDim S50000x256 ![0, 1] bcast_S1x256_S50000x256_0_1 (broadcastInDim S1x256 ![1] bcast_S256_S1x256_1 beta))

/-- Batch normalization of layer 1 over the rectified aggregate: main's lines %19 … %33 at the column mean and variance. -/
def bn1 (r : (⟨S50000x128, .f32⟩ : BufTy).Contents (Elt F)) (gamma : (⟨S128, .f32⟩ : BufTy).Contents (Elt F)) (beta : (⟨S128, .f32⟩ : BufTy).Contents (Elt F)) :
    (⟨S50000x128, .f32⟩ : BufTy).Contents (Elt F) :=
  norm1 r (mean1 r) (var1 r) gamma beta

/-- Batch normalization of layer 2: main's lines %53 … %67 at the column mean and variance. -/
def bn2 (r : (⟨S50000x256, .f32⟩ : BufTy).Contents (Elt F)) (gamma : (⟨S256, .f32⟩ : BufTy).Contents (Elt F)) (beta : (⟨S256, .f32⟩ : BufTy).Contents (Elt F)) :
    (⟨S50000x256, .f32⟩ : BufTy).Contents (Elt F) :=
  norm2 r (mean2 r) (var2 r) gamma beta

/-- The reference's result as a function of the ten argument arrays. -/
def refOut (a0 : (⟨S50000x64, .f32⟩ : BufTy).Contents (Elt F)) (a1 : (⟨S800000, .i32⟩ : BufTy).Contents (Elt F)) (a2 : (⟨S800000, .i32⟩ : BufTy).Contents (Elt F)) (a3 : (⟨S800000, .f32⟩ : BufTy).Contents (Elt F)) (a4 : (⟨S64x128, .f32⟩ : BufTy).Contents (Elt F)) (a5 : (⟨S128, .f32⟩ : BufTy).Contents (Elt F)) (a6 : (⟨S128, .f32⟩ : BufTy).Contents (Elt F)) (a7 : (⟨S128x256, .f32⟩ : BufTy).Contents (Elt F)) (a8 : (⟨S256, .f32⟩ : BufTy).Contents (Elt F)) (a9 : (⟨S256, .f32⟩ : BufTy).Contents (Elt F)) :
    (⟨S50000x256, .f32⟩ : BufTy).Contents (Elt F) :=
  bn2 (relu2 (agg2 (support2 (bn1 (relu1 (agg1 (support1 a0 a4) a1 a2 a3)) a5 a6) a7) a1 a2 a3)) a8 a9

/-! ## Each stage's output buffer after its operations -/

theorem support1_out (V : Valuation τ sig (Elt F)) :
    after opsSupport1 V (Proc.devRef .tc main_v0)
      = support1 (V (Proc.devRef .tc main_arg0)) (V (Proc.devRef .tc main_arg4)) := by
  simp only [opsSupport1]
  after_results_simp <;> rfl

theorem agg1_out (V : Valuation τ sig (Elt F)) :
    after opsAgg1 V (Proc.devRef .tc main_v13)
      = agg1 (V (Proc.devRef .tc main_v0)) (V (Proc.devRef .tc main_arg1)) (V (Proc.devRef .tc main_arg2)) (V (Proc.devRef .tc main_arg3)) := by
  simp only [opsAgg1]
  after_results_simp <;> rfl

theorem relu1_out (V : Valuation τ sig (Elt F)) :
    after opsRelu1 V (Proc.devRef .tc main_v14)
      = relu1 (V (Proc.devRef .tc main_v13)) := by
  simp only [opsRelu1]
  after_results_simp <;> rfl

theorem mean1_out (V : Valuation τ sig (Elt F)) :
    after opsMean1 V (Proc.devRef .tc main_v17)
      = mean1 (V (Proc.devRef .tc main_v14)) := by
  simp only [opsMean1]
  after_results_simp <;> rfl

theorem var1_out (V : Valuation τ sig (Elt F)) :
    after opsVar1 V (Proc.devRef .tc main_v18)
      = var1 (V (Proc.devRef .tc main_v14)) := by
  simp only [opsVar1]
  after_results_simp <;> rfl

theorem norm1_out (V : Valuation τ sig (Elt F)) :
    after opsNorm1 V (Proc.devRef .tc main_v33)
      = norm1 (V (Proc.devRef .tc main_v14)) (V (Proc.devRef .tc main_v17)) (V (Proc.devRef .tc main_v18)) (V (Proc.devRef .tc main_arg5)) (V (Proc.devRef .tc main_arg6)) := by
  simp only [opsNorm1]
  after_results_simp <;> rfl

theorem support2_out (V : Valuation τ sig (Elt F)) :
    after opsSupport2 V (Proc.devRef .tc main_v34)
      = support2 (V (Proc.devRef .tc main_v33)) (V (Proc.devRef .tc main_arg7)) := by
  simp only [opsSupport2]
  after_results_simp <;> rfl

theorem agg2_out (V : Valuation τ sig (Elt F)) :
    after opsAgg2 V (Proc.devRef .tc main_v47)
      = agg2 (V (Proc.devRef .tc main_v34)) (V (Proc.devRef .tc main_arg1)) (V (Proc.devRef .tc main_arg2)) (V (Proc.devRef .tc main_arg3)) := by
  simp only [opsAgg2]
  after_results_simp <;> rfl

theorem relu2_out (V : Valuation τ sig (Elt F)) :
    after opsRelu2 V (Proc.devRef .tc main_v48)
      = relu2 (V (Proc.devRef .tc main_v47)) := by
  simp only [opsRelu2]
  after_results_simp <;> rfl

theorem mean2_out (V : Valuation τ sig (Elt F)) :
    after opsMean2b (after opsMean2a V) (Proc.devRef .tc main_v51)
      = mean2 (V (Proc.devRef .tc main_v48)) := by
  simp only [opsMean2a, opsMean2b]
  after_results_simp <;> rfl

theorem var2_out (V : Valuation τ sig (Elt F)) :
    after opsVar2 V (Proc.devRef .tc main_v52)
      = var2 (V (Proc.devRef .tc main_v48)) := by
  simp only [opsVar2]
  after_results_simp <;> rfl

theorem norm2_out (V : Valuation τ sig (Elt F)) :
    after opsNorm2 V (Proc.devRef .tc main_v67)
      = norm2 (V (Proc.devRef .tc main_v48)) (V (Proc.devRef .tc main_v51)) (V (Proc.devRef .tc main_v52)) (V (Proc.devRef .tc main_arg8)) (V (Proc.devRef .tc main_arg9)) := by
  simp only [opsNorm2]
  after_results_simp <;> rfl

/-! ## The whole line -/

theorem after_ops (V : Valuation τ sig (Elt F)) :
    after ops V = after opsNorm2 (after opsVar2 (after opsMean2b (after opsMean2a (after opsRelu2 (after opsAgg2 (after opsSupport2 (after opsNorm1 (after opsVar1 (after opsMean1 (after opsRelu1 (after opsAgg1 (after opsSupport1 V)))))))))))) := by
  simp only [ops, opsP0, opsP1, after_append]

/-- The result buffer after the whole line is `refOut` of the arguments' contents. -/
theorem out_eq (V : Valuation τ sig (Elt F)) :
    after ops V (Proc.devRef .tc main_v67) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  rw [norm2_out]
  rw [var2_out, opsVar2_keep _ main_v48 (by decide), opsVar2_keep _ main_v51 (by decide), opsVar2_keep _ main_arg8 (by decide), opsVar2_keep _ main_arg9 (by decide)]
  rw [mean2_out, opsMean2b_keep _ main_v48 (by decide), opsMean2b_keep _ main_arg8 (by decide), opsMean2b_keep _ main_arg9 (by decide)]
  rw [opsMean2a_keep _ main_v48 (by decide), opsMean2a_keep _ main_arg8 (by decide), opsMean2a_keep _ main_arg9 (by decide)]
  rw [relu2_out, opsRelu2_keep _ main_arg8 (by decide), opsRelu2_keep _ main_arg9 (by decide)]
  rw [agg2_out, opsAgg2_keep _ main_arg8 (by decide), opsAgg2_keep _ main_arg9 (by decide)]
  rw [support2_out, opsSupport2_keep _ main_arg8 (by decide), opsSupport2_keep _ main_arg9 (by decide), opsSupport2_keep _ main_arg1 (by decide), opsSupport2_keep _ main_arg2 (by decide), opsSupport2_keep _ main_arg3 (by decide)]
  rw [norm1_out, opsNorm1_keep _ main_arg8 (by decide), opsNorm1_keep _ main_arg9 (by decide), opsNorm1_keep _ main_arg1 (by decide), opsNorm1_keep _ main_arg2 (by decide), opsNorm1_keep _ main_arg3 (by decide), opsNorm1_keep _ main_arg7 (by decide)]
  rw [var1_out, opsVar1_keep _ main_arg8 (by decide), opsVar1_keep _ main_arg9 (by decide), opsVar1_keep _ main_arg1 (by decide), opsVar1_keep _ main_arg2 (by decide), opsVar1_keep _ main_arg3 (by decide), opsVar1_keep _ main_arg7 (by decide), opsVar1_keep _ main_v14 (by decide), opsVar1_keep _ main_v17 (by decide), opsVar1_keep _ main_arg5 (by decide), opsVar1_keep _ main_arg6 (by decide)]
  rw [mean1_out, opsMean1_keep _ main_arg8 (by decide), opsMean1_keep _ main_arg9 (by decide), opsMean1_keep _ main_arg1 (by decide), opsMean1_keep _ main_arg2 (by decide), opsMean1_keep _ main_arg3 (by decide), opsMean1_keep _ main_arg7 (by decide), opsMean1_keep _ main_v14 (by decide), opsMean1_keep _ main_arg5 (by decide), opsMean1_keep _ main_arg6 (by decide)]
  rw [relu1_out, opsRelu1_keep _ main_arg8 (by decide), opsRelu1_keep _ main_arg9 (by decide), opsRelu1_keep _ main_arg1 (by decide), opsRelu1_keep _ main_arg2 (by decide), opsRelu1_keep _ main_arg3 (by decide), opsRelu1_keep _ main_arg7 (by decide), opsRelu1_keep _ main_arg5 (by decide), opsRelu1_keep _ main_arg6 (by decide)]
  rw [agg1_out, opsAgg1_keep _ main_arg8 (by decide), opsAgg1_keep _ main_arg9 (by decide), opsAgg1_keep _ main_arg1 (by decide), opsAgg1_keep _ main_arg2 (by decide), opsAgg1_keep _ main_arg3 (by decide), opsAgg1_keep _ main_arg7 (by decide), opsAgg1_keep _ main_arg5 (by decide), opsAgg1_keep _ main_arg6 (by decide)]
  rw [support1_out, opsSupport1_keep _ main_arg8 (by decide), opsSupport1_keep _ main_arg9 (by decide), opsSupport1_keep _ main_arg1 (by decide), opsSupport1_keep _ main_arg2 (by decide), opsSupport1_keep _ main_arg3 (by decide), opsSupport1_keep _ main_arg7 (by decide), opsSupport1_keep _ main_arg5 (by decide), opsSupport1_keep _ main_arg6 (by decide)]
  rfl

/-- A buffer no stage writes keeps its contents through the whole line. -/
theorem ops_keep (V : Valuation τ sig (Elt F)) (r : Ref sig .tc)
    (h0 : r ∉ opsSupport1_W)
    (h1 : r ∉ opsAgg1_W)
    (h2 : r ∉ opsRelu1_W)
    (h3 : r ∉ opsMean1_W)
    (h4 : r ∉ opsVar1_W)
    (h5 : r ∉ opsNorm1_W)
    (h6 : r ∉ opsSupport2_W)
    (h7 : r ∉ opsAgg2_W)
    (h8 : r ∉ opsRelu2_W)
    (h9 : r ∉ opsMean2a_W)
    (h10 : r ∉ opsMean2b_W)
    (h11 : r ∉ opsVar2_W)
    (h12 : r ∉ opsNorm2_W) :
    after ops V (Proc.devRef .tc r) = V (Proc.devRef .tc r) := by
  rw [after_ops, opsNorm2_keep _ r h12, opsVar2_keep _ r h11, opsMean2b_keep _ r h10, opsMean2a_keep _ r h9, opsRelu2_keep _ r h8, opsAgg2_keep _ r h7, opsSupport2_keep _ r h6, opsNorm1_keep _ r h5, opsVar1_keep _ r h4, opsMean1_keep _ r h3, opsRelu1_keep _ r h2, opsAgg1_keep _ r h1, opsSupport1_keep _ r h0]

/-! ## The run -/

/-- On every device, for any float values, from any memory with zero counters: every weakly fair execution of
    @main terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v67).trans (out_eq _),
      (h c main_arg0).trans (ops_keep _ main_arg0 (by decide) (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.KFold.lean ====
/- The buffer contents each region of the kernel program finds in its input arrays, and the result, read back
   one segment boundary at a time through the fold of contents `W0 … W10` of @main's ten segments.
   @main is two layers of: a matrix product (a region), a graph aggregation (a stretch of host operations: gather
   the product's rows at the edge sources, scale by the edge weights, add into a zero array at the edge
   destinations), the column sums and sums of squares of the aggregated array (a region), the column mean and
   variance from them (a stretch), and the normalization (a region). A region leaves its input arrays as it found
   them and its output array at what its pipeline's write-backs leave; a stretch leaves every buffer it does not
   write as it found it, and each buffer it writes at its operations applied to what they read. -/
import proofs.«169836_j481036337853_1_alg».proof.Proof.KernelIdealFrameP

set_option maxRecDepth 16384

noncomputable section

namespace Cert.KernelIdeal.KFold
open Cert.KernelIdeal Cert.KernelIdeal.Gen Cert.KernelIdeal.GenP

open Idealize.ShloMosaic Idealize.ShloMosaic.TcCoe Idealize.ShloMosaic.Tactic
open Idealize.ShloMosaic.Pipeline (Dat Cfg Window BodyObligation cellOf)

variable {F : FTy → Type} [FloatOps F]

/-! ## The host stretches as functions of what they read -/

/-- One graph-aggregation stretch of @main, as a function of what it reads: the rows of `s` gathered at the
    source indices (a negative index wrapped by the row count 50000), each gathered row scaled by its edge weight,
    and the scaled rows added into a zero array at the destination indices. The operations and their records are
    the program's own, in its order. -/
def glue1 (s : Vec F S50000x128 .f32) (src dst : Vec F S800000 .i32) (w : Vec F S800000 .f32) : Vec F S50000x128 .f32 :=
  Host.scatterAdd scatter_S50000x128_S800000x1_S800000x128_1_0_0_1
    (broadcastInDim S50000x128 ![] bcast_S_S50000x128 (constant S_ .f32 0x00000000#32 : Vec F S_ .f32) : Vec F S50000x128 .f32)
    (broadcastInDim S800000x1 ![0] bcast_S800000_S800000x1_0 dst : Vec F S800000x1 .i32)
    (mulf
      (Host.gather gather_S50000x128_S800000x1_S800000x128_1_0_n_n_0_1_1128 s
        (broadcastInDim S800000x1 ![0] bcast_S800000_S800000x1_0
          (select
            (cmpi .slt src (broadcastInDim S800000 ![] bcast_S_S800000 (constantI S_ 32 0#32 : Vec F S_ .i32) : Vec F S800000 .i32) : Vec F S800000 .i1)
            (addi src (broadcastInDim S800000 ![] bcast_S_S800000 (constantI S_ 32 50000#32 : Vec F S_ .i32) : Vec F S800000 .i32) : Vec F S800000 .i32)
            src : Vec F S800000 .i32) : Vec F S800000x1 .i32) : Vec F S800000x128 .f32)
      (broadcastInDim S800000x128 ![0, 1] bcast_S800000x1_S800000x128_0_1
        (broadcastInDim S800000x1 ![0] bcast_S800000_S800000x1_0 w : Vec F S800000x1 .f32) : Vec F S800000x128 .f32) : Vec F S800000x128 .f32)

/-- One graph-aggregation stretch of @main, as a function of what it reads: the rows of `s` gathered at the
    source indices (a negative index wrapped by the row count 50000), each gathered row scaled by its edge weight,
    and the scaled rows added into a zero array at the destination indices. The operations and their records are
    the program's own, in its order. -/
def glue2 (s : Vec F S50000x256 .f32) (src dst : Vec F S800000 .i32) (w : Vec F S800000 .f32) : Vec F S50000x256 .f32 :=
  Host.scatterAdd scatter_S50000x256_S800000x1_S800000x256_1_0_0_1
    (broadcastInDim S50000x256 ![] bcast_S_S50000x256 (constant S_ .f32 0x00000000#32 : Vec F S_ .f32) : Vec F S50000x256 .f32)
    (broadcastInDim S800000x1 ![0] bcast_S800000_S800000x1_0 dst : Vec F S800000x1 .i32)
    (mulf
      (Host.gather gather_S50000x256_S800000x1_S800000x256_1_0_n_n_0_1_1256 s
        (broadcastInDim S800000x1 ![0] bcast_S800000_S800000x1_0
          (select
            (cmpi .slt src (broadcastInDim S800000 ![] bcast_S_S800000 (constantI S_ 32 0#32 : Vec F S_ .i32) : Vec F S800000 .i32) : Vec F S800000 .i1)
            (addi src (broadcastInDim S800000 ![] bcast_S_S800000 (constantI S_ 32 50000#32 : Vec F S_ .i32) : Vec F S800000 .i32) : Vec F S800000 .i32)
            src : Vec F S800000 .i32) : Vec F S800000x1 .i32) : Vec F S800000x256 .f32)
      (broadcastInDim S800000x256 ![0, 1] bcast_S800000x1_S800000x256_0_1
        (broadcastInDim S800000x1 ![0] bcast_S800000_S800000x1_0 w : Vec F S800000x1 .f32) : Vec F S800000x256 .f32) : Vec F S800000x256 .f32)

/-- A length-128 vector as one row: the program's reshape. -/
def row128 (g : Vec F S128 .f32) : Vec F S1x128 .f32 :=
  fun i => shapeCast S1x128 g shapeCasts_S128_S1x128 i

/-- The column means from the accumulated sums: row 0 of the two-row array of sums, divided by the row count
    (the literal is the program's: 50000 as a 32-bit float word). -/
def meanOf1 (st : Vec F S2x128 .f32) : Vec F S1x128 .f32 :=
  Host.divf (extractStridedSlice S1x128 ![0, 0] st slices_S2x128_S1x128_0_0 : Vec F S1x128 .f32)
    (broadcastInDim S1x128 ![] bcast_S_S1x128 (constant S_ .f32 0x47435000#32 : Vec F S_ .f32) : Vec F S1x128 .f32)

/-- The column variances from the accumulated sums: row 1 (the sums of squares) divided by the row count, minus
    the square of the column mean. -/
def varOf1 (st : Vec F S2x128 .f32) : Vec F S1x128 .f32 :=
  subf
    (Host.divf (extractStridedSlice S1x128 ![1, 0] st slices_S2x128_S1x128_1_0 : Vec F S1x128 .f32)
      (broadcastInDim S1x128 ![] bcast_S_S1x128 (constant S_ .f32 0x47435000#32 : Vec F S_ .f32) : Vec F S1x128 .f32) : Vec F S1x128 .f32)
    (mulf (meanOf1 st) (meanOf1 st) : Vec F S1x128 .f32)

/-- A length-256 vector as one row: the program's reshape. -/
def row256 (g : Vec F S256 .f32) : Vec F S1x256 .f32 :=
  fun i => shapeCast S1x256 g shapeCasts_S256_S1x256 i

/-- The column means from the accumulated sums: row 0 of the two-row array of sums, divided by the row count
    (the literal is the program's: 50000 as a 32-bit float word). -/
def meanOf2 (st : Vec F S2x256 .f32) : Vec F S1x256 .f32 :=
  Host.divf (extractStridedSlice S1x256 ![0, 0] st slices_S2x256_S1x256_0_0 : Vec F S1x256 .f32)
    (broadcastInDim S1x256 ![] bcast_S_S1x256 (constant S_ .f32 0x47435000#32 : Vec F S_ .f32) : Vec F S1x256 .f32)

/-- The column variances from the accumulated sums: row 1 (the sums of squares) divided by the row count, minus
    the square of the column mean. -/
def varOf2 (st : Vec F S2x256 .f32) : Vec F S1x256 .f32 :=
  subf
    (Host.divf (extractStridedSlice S1x256 ![1, 0] st slices_S2x256_S1x256_1_0 : Vec F S1x256 .f32)
      (broadcastInDim S1x256 ![] bcast_S_S1x256 (constant S_ .f32 0x47435000#32 : Vec F S_ .f32) : Vec F S1x256 .f32) : Vec F S1x256 .f32)
    (mulf (meanOf2 st) (meanOf2 st) : Vec F S1x256 .f32)

variable (m : (ℓ : Loc nD τ sig) → Buf (Elt F) ℓ) (ρ : Dev nD → PrngReg)

/-- A stretch of host operations leaves a buffer none of them writes as it found it: each operation writes its one
    result buffer, a different reference. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Boundary 1: after region 0 (arrays main_arg0, main_arg4 read, main_v0 written) -/

/-- Region 0's result array holds what its pipeline leaves in window 2. -/
theorem v0_W1 (c : Dev nD) :
    W1 m ρ c (Proc.devRef .tc main_v0) = (dat0 (V0 m ρ) c).arrAt 2 cfg0.N :=
  W1_arr m ρ c 2

/-- An argument array region 0 does not own is as launched. -/
theorem arg1_W1 (c : Dev nD) :
    W1 m ρ c (Proc.devRef .tc main_arg1) = m ((c : Thread nD τ).loc main_arg1) :=
  W1_of_ne m ρ c main_arg1 (by decide)

theorem arg2_W1 (c : Dev nD) :
    W1 m ρ c (Proc.devRef .tc main_arg2) = m ((c : Thread nD τ).loc main_arg2) :=
  W1_of_ne m ρ c main_arg2 (by decide)

theorem arg3_W1 (c : Dev nD) :
    W1 m ρ c (Proc.devRef .tc main_arg3) = m ((c : Thread nD τ).loc main_arg3) :=
  W1_of_ne m ρ c main_arg3 (by decide)

theorem arg5_W1 (c : Dev nD) :
    W1 m ρ c (Proc.devRef .tc main_arg5) = m ((c : Thread nD τ).loc main_arg5) :=
  W1_of_ne m ρ c main_arg5 (by decide)

theorem arg6_W1 (c : Dev nD) :
    W1 m ρ c (Proc.devRef .tc main_arg6) = m ((c : Thread nD τ).loc main_arg6) :=
  W1_of_ne m ρ c main_arg6 (by decide)

theorem arg7_W1 (c : Dev nD) :
    W1 m ρ c (Proc.devRef .tc main_arg7) = m ((c : Thread nD τ).loc main_arg7) :=
  W1_of_ne m ρ c main_arg7 (by decide)

theorem arg8_W1 (c : Dev nD) :
    W1 m ρ c (Proc.devRef .tc main_arg8) = m ((c : Thread nD τ).loc main_arg8) :=
  W1_of_ne m ρ c main_arg8 (by decide)

theorem arg9_W1 (c : Dev nD) :
    W1 m ρ c (Proc.devRef .tc main_arg9) = m ((c : Thread nD τ).loc main_arg9) :=
  W1_of_ne m ρ c main_arg9 (by decide)

/-! ## Boundary 2: after the first aggregation stretch (region 1's entry) -/

set_option maxHeartbeats 1000000 in
/-- The aggregated array is the stretch's composition of region 0's result with the three edge arrays. -/
theorem v13_W2 (c : Dev nD) :
    W2 m ρ c (Proc.devRef .tc main_v13) = glue1 (W1 m ρ c (Proc.devRef .tc main_v0)) (W1 m ρ c (Proc.devRef .tc main_arg1))
      (W1 m ρ c (Proc.devRef .tc main_arg2)) (W1 m ρ c (Proc.devRef .tc main_arg3)) :=
  by
  show StableHlo.after hostOps1 (W1 m ρ c) (Proc.devRef .tc main_v13) = _
  after_results_simp
  rfl

set_option maxHeartbeats 1000000 in
theorem v14_W2 (c : Dev nD) :
    W2 m ρ c (Proc.devRef .tc main_v14) = row128 (W1 m ρ c (Proc.devRef .tc main_arg5)) :=
  by
  show StableHlo.after hostOps1 (W1 m ρ c) (Proc.devRef .tc main_v14) = _
  after_results_simp
  rfl

set_option maxHeartbeats 1000000 in
theorem v15_W2 (c : Dev nD) :
    W2 m ρ c (Proc.devRef .tc main_v15) = row128 (W1 m ρ c (Proc.devRef .tc main_arg6)) :=
  by
  show StableHlo.after hostOps1 (W1 m ρ c) (Proc.devRef .tc main_v15) = _
  after_results_simp
  rfl

theorem arg1_W2 (c : Dev nD) :
    W2 m ρ c (Proc.devRef .tc main_arg1) = W1 m ρ c (Proc.devRef .tc main_arg1) :=
  by
  show StableHlo.after hostOps1 (W1 m ρ c) (Proc.devRef .tc main_arg1) = W1 m ρ c (Proc.devRef .tc main_arg1)
  host_keeps hostOps1

theorem arg2_W2 (c : Dev nD) :
    W2 m ρ c (Proc.devRef .tc main_arg2) = W1 m ρ c (Proc.devRef .tc main_arg2) :=
  by
  show StableHlo.after hostOps1 (W1 m ρ c) (Proc.devRef .tc main_arg2) = W1 m ρ c (Proc.devRef .tc main_arg2)
  host_keeps hostOps1

theorem arg3_W2 (c : Dev nD) :
    W2 m ρ c (Proc.devRef .tc main_arg3) = W1 m ρ c (Proc.devRef .tc main_arg3) :=
  by
  show StableHlo.after hostOps1 (W1 m ρ c) (Proc.devRef .tc main_arg3) = W1 m ρ c (Proc.devRef .tc main_arg3)
  host_keeps hostOps1

theorem arg7_W2 (c : Dev nD) :
    W2 m ρ c (Proc.devRef .tc main_arg7) = W1 m ρ c (Proc.devRef .tc main_arg7) :=
  by
  show StableHlo.after hostOps1 (W1 m ρ c) (Proc.devRef .tc main_arg7) = W1 m ρ c (Proc.devRef .tc main_arg7)
  host_keeps hostOps1

theorem arg8_W2 (c : Dev nD) :
    W2 m ρ c (Proc.devRef .tc main_arg8) = W1 m ρ c (Proc.devRef .tc main_arg8) :=
  by
  show StableHlo.after hostOps1 (W1 m ρ c) (Proc.devRef .tc main_arg8) = W1 m ρ c (Proc.devRef .tc main_arg8)
  host_keeps hostOps1

theorem arg9_W2 (c : Dev nD) :
    W2 m ρ c (Proc.devRef .tc main_arg9) = W1 m ρ c (Proc.devRef .tc main_arg9) :=
  by
  show StableHlo.after hostOps1 (W1 m ρ c) (Proc.devRef .tc main_arg9) = W1 m ρ c (Proc.devRef .tc main_arg9)
  host_keeps hostOps1

/-! ## Boundary 3: after region 1 (array main_v13 read, main_v16 written) -/

/-- The two rows of sums are what region 1's pipeline leaves in window 1. -/
theorem v16_W3 (c : Dev nD) :
    W3 m ρ c (Proc.devRef .tc main_v16) = (dat1 (V2 m ρ) c).arrAt 1 cfg1.N :=
  W3_arr m ρ c 1

/-- An input window's array leaves the region as it entered. -/
theorem v13_W3 (c : Dev nD) :
    W3 m ρ c (Proc.devRef .tc main_v13) = W2 m ρ c (Proc.devRef .tc main_v13) :=
  (W3_arr m ρ c 0).trans (((dat1 (V2 m ρ) c).arrAt_in 0 rfl _).trans (A_eq1 (V2 m ρ) c 0))

theorem v14_W3 (c : Dev nD) :
    W3 m ρ c (Proc.devRef .tc main_v14) = W2 m ρ c (Proc.devRef .tc main_v14) :=
  W3_of_ne m ρ c main_v14 (by decide)

theorem v15_W3 (c : Dev nD) :
    W3 m ρ c (Proc.devRef .tc main_v15) = W2 m ρ c (Proc.devRef .tc main_v15) :=
  W3_of_ne m ρ c main_v15 (by decide)

theorem arg1_W3 (c : Dev nD) :
    W3 m ρ c (Proc.devRef .tc main_arg1) = W2 m ρ c (Proc.devRef .tc main_arg1) :=
  W3_of_ne m ρ c main_arg1 (by decide)

theorem arg2_W3 (c : Dev nD) :
    W3 m ρ c (Proc.devRef .tc main_arg2) = W2 m ρ c (Proc.devRef .tc main_arg2) :=
  W3_of_ne m ρ c main_arg2 (by decide)

theorem arg3_W3 (c : Dev nD) :
    W3 m ρ c (Proc.devRef .tc main_arg3) = W2 m ρ c (Proc.devRef .tc main_arg3) :=
  W3_of_ne m ρ c main_arg3 (by decide)

theorem arg7_W3 (c : Dev nD) :
    W3 m ρ c (Proc.devRef .tc main_arg7) = W2 m ρ c (Proc.devRef .tc main_arg7) :=
  W3_of_ne m ρ c main_arg7 (by decide)

theorem arg8_W3 (c : Dev nD) :
    W3 m ρ c (Proc.devRef .tc main_arg8) = W2 m ρ c (Proc.devRef .tc main_arg8) :=
  W3_of_ne m ρ c main_arg8 (by decide)

theorem arg9_W3 (c : Dev nD) :
    W3 m ρ c (Proc.devRef .tc main_arg9) = W2 m ρ c (Proc.devRef .tc main_arg9) :=
  W3_of_ne m ρ c main_arg9 (by decide)

/-! ## Boundary 4: after the first statistics stretch (region 2's entry) -/

set_option maxHeartbeats 1000000 in
theorem v19_W4 (c : Dev nD) :
    W4 m ρ c (Proc.devRef .tc main_v19) = meanOf1 (W3 m ρ c (Proc.devRef .tc main_v16)) :=
  by
  show StableHlo.after hostOps2 (W3 m ρ c) (Proc.devRef .tc main_v19) = _
  after_results_simp
  rfl

set_option maxHeartbeats 1000000 in
theorem v24_W4 (c : Dev nD) :
    W4 m ρ c (Proc.devRef .tc main_v24) = varOf1 (W3 m ρ c (Proc.devRef .tc main_v16)) :=
  by
  show StableHlo.after hostOps2 (W3 m ρ c) (Proc.devRef .tc main_v24) = _
  after_results_simp
  rfl

theorem v13_W4 (c : Dev nD) :
    W4 m ρ c (Proc.devRef .tc main_v13) = W3 m ρ c (Proc.devRef .tc main_v13) :=
  by
  show StableHlo.after hostOps2 (W3 m ρ c) (Proc.devRef .tc main_v13) = W3 m ρ c (Proc.devRef .tc main_v13)
  host_keeps hostOps2

theorem v14_W4 (c : Dev nD) :
    W4 m ρ c (Proc.devRef .tc main_v14) = W3 m ρ c (Proc.devRef .tc main_v14) :=
  by
  show StableHlo.after hostOps2 (W3 m ρ c) (Proc.devRef .tc main_v14) = W3 m ρ c (Proc.devRef .tc main_v14)
  host_keeps hostOps2

theorem v15_W4 (c : Dev nD) :
    W4 m ρ c (Proc.devRef .tc main_v15) = W3 m ρ c (Proc.devRef .tc main_v15) :=
  by
  show StableHlo.after hostOps2 (W3 m ρ c) (Proc.devRef .tc main_v15) = W3 m ρ c (Proc.devRef .tc main_v15)
  host_keeps hostOps2

theorem arg1_W4 (c : Dev nD) :
    W4 m ρ c (Proc.devRef .tc main_arg1) = W3 m ρ c (Proc.devRef .tc main_arg1) :=
  by
  show StableHlo.after hostOps2 (W3 m ρ c) (Proc.devRef .tc main_arg1) = W3 m ρ c (Proc.devRef .tc main_arg1)
  host_keeps hostOps2

theorem arg2_W4 (c : Dev nD) :
    W4 m ρ c (Proc.devRef .tc main_arg2) = W3 m ρ c (Proc.devRef .tc main_arg2) :=
  by
  show StableHlo.after hostOps2 (W3 m ρ c) (Proc.devRef .tc main_arg2) = W3 m ρ c (Proc.devRef .tc main_arg2)
  host_keeps hostOps2

theorem arg3_W4 (c : Dev nD) :
    W4 m ρ c (Proc.devRef .tc main_arg3) = W3 m ρ c (Proc.devRef .tc main_arg3) :=
  by
  show StableHlo.after hostOps2 (W3 m ρ c) (Proc.devRef .tc main_arg3) = W3 m ρ c (Proc.devRef .tc main_arg3)
  host_keeps hostOps2

theorem arg7_W4 (c : Dev nD) :
    W4 m ρ c (Proc.devRef .tc main_arg7) = W3 m ρ c (Proc.devRef .tc main_arg7) :=
  by
  show StableHlo.after hostOps2 (W3 m ρ c) (Proc.devRef .tc main_arg7) = W3 m ρ c (Proc.devRef .tc main_arg7)
  host_keeps hostOps2

theorem arg8_W4 (c : Dev nD) :
    W4 m ρ c (Proc.devRef .tc main_arg8) = W3 m ρ c (Proc.devRef .tc main_arg8) :=
  by
  show StableHlo.after hostOps2 (W3 m ρ c) (Proc.devRef .tc main_arg8) = W3 m ρ c (Proc.devRef .tc main_arg8)
  host_keeps hostOps2

theorem arg9_W4 (c : Dev nD) :
    W4 m ρ c (Proc.devRef .tc main_arg9) = W3 m ρ c (Proc.devRef .tc main_arg9) :=
  by
  show StableHlo.after hostOps2 (W3 m ρ c) (Proc.devRef .tc main_arg9) = W3 m ρ c (Proc.devRef .tc main_arg9)
  host_keeps hostOps2

/-! ## Boundary 5: after region 2 (arrays main_v13, main_v19, main_v24, main_v14, main_v15 read, main_v25 written; region 3's entry) -/

theorem v25_W5 (c : Dev nD) :
    W5 m ρ c (Proc.devRef .tc main_v25) = (dat2 (V4 m ρ) c).arrAt 5 cfg2.N :=
  W5_arr m ρ c 5

theorem arg1_W5 (c : Dev nD) :
    W5 m ρ c (Proc.devRef .tc main_arg1) = W4 m ρ c (Proc.devRef .tc main_arg1) :=
  W5_of_ne m ρ c main_arg1 (by decide)

theorem arg2_W5 (c : Dev nD) :
    W5 m ρ c (Proc.devRef .tc main_arg2) = W4 m ρ c (Proc.devRef .tc main_arg2) :=
  W5_of_ne m ρ c main_arg2 (by decide)

theorem arg3_W5 (c : Dev nD) :
    W5 m ρ c (Proc.devRef .tc main_arg3) = W4 m ρ c (Proc.devRef .tc main_arg3) :=
  W5_of_ne m ρ c main_arg3 (by decide)

theorem arg7_W5 (c : Dev nD) :
    W5 m ρ c (Proc.devRef .tc main_arg7) = W4 m ρ c (Proc.devRef .tc main_arg7) :=
  W5_of_ne m ρ c main_arg7 (by decide)

theorem arg8_W5 (c : Dev nD) :
    W5 m ρ c (Proc.devRef .tc main_arg8) = W4 m ρ c (Proc.devRef .tc main_arg8) :=
  W5_of_ne m ρ c main_arg8 (by decide)

theorem arg9_W5 (c : Dev nD) :
    W5 m ρ c (Proc.devRef .tc main_arg9) = W4 m ρ c (Proc.devRef .tc main_arg9) :=
  W5_of_ne m ρ c main_arg9 (by decide)

/-! ## Boundary 6: after region 3 (arrays main_v25, main_arg7 read, main_v26 written) -/

theorem v26_W6 (c : Dev nD) :
    W6 m ρ c (Proc.devRef .tc main_v26) = (dat3 (V5 m ρ) c).arrAt 2 cfg3.N :=
  W6_arr m ρ c 2

theorem arg1_W6 (c : Dev nD) :
    W6 m ρ c (Proc.devRef .tc main_arg1) = W5 m ρ c (Proc.devRef .tc main_arg1) :=
  W6_of_ne m ρ c main_arg1 (by decide)

theorem arg2_W6 (c : Dev nD) :
    W6 m ρ c (Proc.devRef .tc main_arg2) = W5 m ρ c (Proc.devRef .tc main_arg2) :=
  W6_of_ne m ρ c main_arg2 (by decide)

theorem arg3_W6 (c : Dev nD) :
    W6 m ρ c (Proc.devRef .tc main_arg3) = W5 m ρ c (Proc.devRef .tc main_arg3) :=
  W6_of_ne m ρ c main_arg3 (by decide)

theorem arg8_W6 (c : Dev nD) :
    W6 m ρ c (Proc.devRef .tc main_arg8) = W5 m ρ c (Proc.devRef .tc main_arg8) :=
  W6_of_ne m ρ c main_arg8 (by decide)

theorem arg9_W6 (c : Dev nD) :
    W6 m ρ c (Proc.devRef .tc main_arg9) = W5 m ρ c (Proc.devRef .tc main_arg9) :=
  W6_of_ne m ρ c main_arg9 (by decide)

/-! ## Boundary 7: after the second aggregation stretch (region 4's entry) -/

set_option maxHeartbeats 1000000 in
theorem v39_W7 (c : Dev nD) :
    W7 m ρ c (Proc.devRef .tc main_v39) = glue2 (W6 m ρ c (Proc.devRef .tc main_v26)) (W6 m ρ c (Proc.devRef .tc main_arg1))
      (W6 m ρ c (Proc.devRef .tc main_arg2)) (W6 m ρ c (Proc.devRef .tc main_arg3)) :=
  by
  show StableHlo.after hostOps4 (W6 m ρ c) (Proc.devRef .tc main_v39) = _
  after_results_simp
  rfl

set_option maxHeartbeats 1000000 in
theorem v40_W7 (c : Dev nD) :
    W7 m ρ c (Proc.devRef .tc main_v40) = row256 (W6 m ρ c (Proc.devRef .tc main_arg8)) :=
  by
  show StableHlo.after hostOps4 (W6 m ρ c) (Proc.devRef .tc main_v40) = _
  after_results_simp
  rfl

set_option maxHeartbeats 1000000 in
theorem v41_W7 (c : Dev nD) :
    W7 m ρ c (Proc.devRef .tc main_v41) = row256 (W6 m ρ c (Proc.devRef .tc main_arg9)) :=
  by
  show StableHlo.after hostOps4 (W6 m ρ c) (Proc.devRef .tc main_v41) = _
  after_results_simp
  rfl

/-! ## Boundary 8: after region 4 (array main_v39 read, main_v42 written) -/

theorem v42_W8 (c : Dev nD) :
    W8 m ρ c (Proc.devRef .tc main_v42) = (dat4 (V7 m ρ) c).arrAt 1 cfg4.N :=
  W8_arr m ρ c 1

theorem v39_W8 (c : Dev nD) :
    W8 m ρ c (Proc.devRef .tc main_v39) = W7 m ρ c (Proc.devRef .tc main_v39) :=
  (W8_arr m ρ c 0).trans (((dat4 (V7 m ρ) c).arrAt_in 0 rfl _).trans (A_eq4 (V7 m ρ) c 0))

theorem v40_W8 (c : Dev nD) :
    W8 m ρ c (Proc.devRef .tc main_v40) = W7 m ρ c (Proc.devRef .tc main_v40) :=
  W8_of_ne m ρ c main_v40 (by decide)

theorem v41_W8 (c : Dev nD) :
    W8 m ρ c (Proc.devRef .tc main_v41) = W7 m ρ c (Proc.devRef .tc main_v41) :=
  W8_of_ne m ρ c main_v41 (by decide)

/-! ## Boundary 9: after the second statistics stretch (region 5's entry) -/

set_option maxHeartbeats 1000000 in
theorem v45_W9 (c : Dev nD) :
    W9 m ρ c (Proc.devRef .tc main_v45) = meanOf2 (W8 m ρ c (Proc.devRef .tc main_v42)) :=
  by
  show StableHlo.after hostOps5 (W8 m ρ c) (Proc.devRef .tc main_v45) = _
  after_results_simp
  rfl

set_option maxHeartbeats 1000000 in
theorem v50_W9 (c : Dev nD) :
    W9 m ρ c (Proc.devRef .tc main_v50) = varOf2 (W8 m ρ c (Proc.devRef .tc main_v42)) :=
  by
  show StableHlo.after hostOps5 (W8 m ρ c) (Proc.devRef .tc main_v50) = _
  after_results_simp
  rfl

theorem v39_W9 (c : Dev nD) :
    W9 m ρ c (Proc.devRef .tc main_v39) = W8 m ρ c (Proc.devRef .tc main_v39) :=
  by
  show StableHlo.after hostOps5 (W8 m ρ c) (Proc.devRef .tc main_v39) = W8 m ρ c (Proc.devRef .tc main_v39)
  host_keeps hostOps5

theorem v40_W9 (c : Dev nD) :
    W9 m ρ c (Proc.devRef .tc main_v40) = W8 m ρ c (Proc.devRef .tc main_v40) :=
  by
  show StableHlo.after hostOps5 (W8 m ρ c) (Proc.devRef .tc main_v40) = W8 m ρ c (Proc.devRef .tc main_v40)
  host_keeps hostOps5

theorem v41_W9 (c : Dev nD) :
    W9 m ρ c (Proc.devRef .tc main_v41) = W8 m ρ c (Proc.devRef .tc main_v41) :=
  by
  show StableHlo.after hostOps5 (W8 m ρ c) (Proc.devRef .tc main_v41) = W8 m ρ c (Proc.devRef .tc main_v41)
  host_keeps hostOps5

/-! ## Boundary 10: after region 5 — the result -/

/-- The result buffer holds what region 5's pipeline leaves in its output window, window 5. -/
theorem result_eq (c : Dev nD) :
    W10 m ρ c (Proc.devRef .tc main_v51) = (dat5 (V9 m ρ) c).arrAt 5 cfg5.N :=
  W10_arr m ρ c 5

/-! ## The argument arrays at the later boundaries: no stretch and no region writes one -/

theorem arg1_at_W6 (c : Dev nD) :
    W6 m ρ c (Proc.devRef .tc main_arg1) = m ((c : Thread nD τ).loc main_arg1) :=
  (arg1_W6 m ρ c).trans ((arg1_W5 m ρ c).trans ((arg1_W4 m ρ c).trans ((arg1_W3 m ρ c).trans ((arg1_W2 m ρ c).trans ((arg1_W1 m ρ c))))))

theorem arg2_at_W6 (c : Dev nD) :
    W6 m ρ c (Proc.devRef .tc main_arg2) = m ((c : Thread nD τ).loc main_arg2) :=
  (arg2_W6 m ρ c).trans ((arg2_W5 m ρ c).trans ((arg2_W4 m ρ c).trans ((arg2_W3 m ρ c).trans ((arg2_W2 m ρ c).trans ((arg2_W1 m ρ c))))))

theorem arg3_at_W6 (c : Dev nD) :
    W6 m ρ c (Proc.devRef .tc main_arg3) = m ((c : Thread nD τ).loc main_arg3) :=
  (arg3_W6 m ρ c).trans ((arg3_W5 m ρ c).trans ((arg3_W4 m ρ c).trans ((arg3_W3 m ρ c).trans ((arg3_W2 m ρ c).trans ((arg3_W1 m ρ c))))))

theorem arg8_at_W6 (c : Dev nD) :
    W6 m ρ c (Proc.devRef .tc main_arg8) = m ((c : Thread nD τ).loc main_arg8) :=
  (arg8_W6 m ρ c).trans ((arg8_W5 m ρ c).trans ((arg8_W4 m ρ c).trans ((arg8_W3 m ρ c).trans ((arg8_W2 m ρ c).trans ((arg8_W1 m ρ c))))))

theorem arg9_at_W6 (c : Dev nD) :
    W6 m ρ c (Proc.devRef .tc main_arg9) = m ((c : Thread nD τ).loc main_arg9) :=
  (arg9_W6 m ρ c).trans ((arg9_W5 m ρ c).trans ((arg9_W4 m ρ c).trans ((arg9_W3 m ρ c).trans ((arg9_W2 m ρ c).trans ((arg9_W1 m ρ c))))))

theorem arg7_at_W5 (c : Dev nD) :
    W5 m ρ c (Proc.devRef .tc main_arg7) = m ((c : Thread nD τ).loc main_arg7) :=
  (arg7_W5 m ρ c).trans ((arg7_W4 m ρ c).trans ((arg7_W3 m ρ c).trans ((arg7_W2 m ρ c).trans ((arg7_W1 m ρ c)))))

/-! ## What each region finds in each of its input arrays

Region `K` is entered at the contents `V0, V2, V4, V5, V7, V9` (K = 0 … 5). Its windows are the custom call's operands in order,
then its result. Each input array is: an argument array as launched; or a stretch's composition of what it reads;
or an earlier region's result, `(datJ …).arrAt w cfgJ.N` at that region's output window `w`. -/

/-- Region 0 (first product), window 0: the features, as launched. -/
theorem in0_0 (c : Dev nD) :
    V0 m ρ c (Pipeline.arrRef spec0 0) = m ((c : Thread nD τ).loc main_arg0) :=
  rfl

/-- Region 0, window 1: the first weight matrix, as launched. -/
theorem in0_1 (c : Dev nD) :
    V0 m ρ c (Pipeline.arrRef spec0 1) = m ((c : Thread nD τ).loc main_arg4) :=
  rfl

/-- Region 1 (first sums), window 0: the aggregation of region 0's result along the launched edges. -/
theorem in1_0 (c : Dev nD) :
    V2 m ρ c (Pipeline.arrRef spec1 0) = glue1 ((dat0 (V0 m ρ) c).arrAt 2 cfg0.N) (m ((c : Thread nD τ).loc main_arg1))
      (m ((c : Thread nD τ).loc main_arg2)) (m ((c : Thread nD τ).loc main_arg3)) :=
  by
  show W2 m ρ c (Proc.devRef .tc main_v13) = _
  rw [v13_W2, v0_W1, arg1_W1, arg2_W1, arg3_W1]

/-- Region 2 (first normalization), window 0: the same aggregated array region 1 read. -/
theorem in2_0 (c : Dev nD) :
    V4 m ρ c (Pipeline.arrRef spec2 0) = glue1 ((dat0 (V0 m ρ) c).arrAt 2 cfg0.N) (m ((c : Thread nD τ).loc main_arg1))
      (m ((c : Thread nD τ).loc main_arg2)) (m ((c : Thread nD τ).loc main_arg3)) :=
  by
  show W4 m ρ c (Proc.devRef .tc main_v13) = _
  rw [v13_W4, v13_W3]
  exact in1_0 m ρ c

/-- Region 2, window 1: the column means, from region 1's sums. -/
theorem in2_1 (c : Dev nD) :
    V4 m ρ c (Pipeline.arrRef spec2 1) = meanOf1 ((dat1 (V2 m ρ) c).arrAt 1 cfg1.N) :=
  by
  show W4 m ρ c (Proc.devRef .tc main_v19) = _
  rw [v19_W4, v16_W3]

/-- Region 2, window 2: the column variances, from region 1's sums. -/
theorem in2_2 (c : Dev nD) :
    V4 m ρ c (Pipeline.arrRef spec2 2) = varOf1 ((dat1 (V2 m ρ) c).arrAt 1 cfg1.N) :=
  by
  show W4 m ρ c (Proc.devRef .tc main_v24) = _
  rw [v24_W4, v16_W3]

/-- Region 2, window 3: the launched scale vector as a row. -/
theorem in2_3 (c : Dev nD) :
    V4 m ρ c (Pipeline.arrRef spec2 3) = row128 (m ((c : Thread nD τ).loc main_arg5)) :=
  by
  show W4 m ρ c (Proc.devRef .tc main_v14) = _
  rw [v14_W4, v14_W3, v14_W2, arg5_W1]

/-- Region 2, window 4: the launched shift vector as a row. -/
theorem in2_4 (c : Dev nD) :
    V4 m ρ c (Pipeline.arrRef spec2 4) = row128 (m ((c : Thread nD τ).loc main_arg6)) :=
  by
  show W4 m ρ c (Proc.devRef .tc main_v15) = _
  rw [v15_W4, v15_W3, v15_W2, arg6_W1]

/-- Region 3 (second product), window 0: region 2's result. -/
theorem in3_0 (c : Dev nD) :
    V5 m ρ c (Pipeline.arrRef spec3 0) = (dat2 (V4 m ρ) c).arrAt 5 cfg2.N :=
  v25_W5 m ρ c

/-- Region 3, window 1: the second weight matrix, as launched. -/
theorem in3_1 (c : Dev nD) :
    V5 m ρ c (Pipeline.arrRef spec3 1) = m ((c : Thread nD τ).loc main_arg7) :=
  arg7_at_W5 m ρ c

/-- Region 4 (second sums), window 0: the aggregation of region 3's result along the launched edges. -/
theorem in4_0 (c : Dev nD) :
    V7 m ρ c (Pipeline.arrRef spec4 0) = glue2 ((dat3 (V5 m ρ) c).arrAt 2 cfg3.N) (m ((c : Thread nD τ).loc main_arg1))
      (m ((c : Thread nD τ).loc main_arg2)) (m ((c : Thread nD τ).loc main_arg3)) :=
  by
  show W7 m ρ c (Proc.devRef .tc main_v39) = _
  rw [v39_W7, v26_W6, arg1_at_W6, arg2_at_W6, arg3_at_W6]

/-- Region 5 (second normalization), window 0: the same aggregated array region 4 read. -/
theorem in5_0 (c : Dev nD) :
    V9 m ρ c (Pipeline.arrRef spec5 0) = glue2 ((dat3 (V5 m ρ) c).arrAt 2 cfg3.N) (m ((c : Thread nD τ).loc main_arg1))
      (m ((c : Thread nD τ).loc main_arg2)) (m ((c : Thread nD τ).loc main_arg3)) :=
  by
  show W9 m ρ c (Proc.devRef .tc main_v39) = _
  rw [v39_W9, v39_W8]
  exact in4_0 m ρ c

/-- Region 5, window 1: the column means, from region 4's sums. -/
theorem in5_1 (c : Dev nD) :
    V9 m ρ c (Pipeline.arrRef spec5 1) = meanOf2 ((dat4 (V7 m ρ) c).arrAt 1 cfg4.N) :=
  by
  show W9 m ρ c (Proc.devRef .tc main_v45) = _
  rw [v45_W9, v42_W8]

/-- Region 5, window 2: the column variances, from region 4's sums. -/
theorem in5_2 (c : Dev nD) :
    V9 m ρ c (Pipeline.arrRef spec5 2) = varOf2 ((dat4 (V7 m ρ) c).arrAt 1 cfg4.N) :=
  by
  show W9 m ρ c (Proc.devRef .tc main_v50) = _
  rw [v50_W9, v42_W8]

/-- Region 5, window 3: the launched scale vector as a row. -/
theorem in5_3 (c : Dev nD) :
    V9 m ρ c (Pipeline.arrRef spec5 3) = row256 (m ((c : Thread nD τ).loc main_arg8)) :=
  by
  show W9 m ρ c (Proc.devRef .tc main_v40) = _
  rw [v40_W9, v40_W8, v40_W7, arg8_at_W6]

/-- Region 5, window 4: the launched shift vector as a row. -/
theorem in5_4 (c : Dev nD) :
    V9 m ρ c (Pipeline.arrRef spec5 4) = row256 (m ((c : Thread nD τ).loc main_arg9)) :=
  by
  show W9 m ρ c (Proc.devRef .tc main_v41) = _
  rw [v41_W9, v41_W8, v41_W7, arg9_at_W6]

end Cert.KernelIdeal.KFold

end
-- ==== Proof.BridgeGlue.lean ====
/-
  The two programs aggregate along the edges with one function.

  Both programs aggregate along the graph's edges with the same host operations: gather the rows at the source
  indices (a negative index wrapped by the row count), scale each by its edge weight, add into zeros at the
  destination indices. The shapes are the same literals and the gather and scatter records have the same fields,
  so the two aggregations are one function.
-/
import proofs.«169836_j481036337853_1_alg».proof.Proof.RefRun
import proofs.«169836_j481036337853_1_alg».proof.Proof.KFold
import Idealize.ShloMosaic.PureOps.Ideal

noncomputable section

namespace Cert.Bridge

open Idealize.ShloMosaic Idealize.SL.Sem

/-! ## The shared records -/

theorem scatter128_eq :
    Cert.ReferenceIdeal.scatter_S50000x128_S800000x1_S800000x128_1_0_0_1
      = Cert.KernelIdeal.scatter_S50000x128_S800000x1_S800000x128_1_0_0_1 := rfl

theorem gather128_eq :
    Cert.ReferenceIdeal.gather_S50000x128_S800000x1_S800000x128_1_0_n_n_0_1_1128
      = Cert.KernelIdeal.gather_S50000x128_S800000x1_S800000x128_1_0_n_n_0_1_1128 := rfl

theorem scatter256_eq :
    Cert.ReferenceIdeal.scatter_S50000x256_S800000x1_S800000x256_1_0_0_1
      = Cert.KernelIdeal.scatter_S50000x256_S800000x1_S800000x256_1_0_0_1 := rfl

theorem gather256_eq :
    Cert.ReferenceIdeal.gather_S50000x256_S800000x1_S800000x256_1_0_n_n_0_1_1256
      = Cert.KernelIdeal.gather_S50000x256_S800000x1_S800000x256_1_0_n_n_0_1_1256 := rfl

/-! ## The edge aggregation is one function -/

set_option maxHeartbeats 400000 in
/-- Layer 1's aggregation in the reference is the kernel program's. -/
theorem agg1_eq_glue1 :
    Cert.ReferenceIdeal.RefRun.agg1 (F := Ideal) = Cert.KernelIdeal.KFold.glue1 (F := Ideal) := by
  funext s src dst w
  unfold Cert.ReferenceIdeal.RefRun.agg1 Cert.ReferenceIdeal.RefRun.srcIdx Cert.KernelIdeal.KFold.glue1
  rw [scatter128_eq, gather128_eq]

set_option maxHeartbeats 400000 in
/-- Layer 2's aggregation in the reference is the kernel program's. -/
theorem agg2_eq_glue2 :
    Cert.ReferenceIdeal.RefRun.agg2 (F := Ideal) = Cert.KernelIdeal.KFold.glue2 (F := Ideal) := by
  funext s src dst w
  unfold Cert.ReferenceIdeal.RefRun.agg2 Cert.ReferenceIdeal.RefRun.srcIdx Cert.KernelIdeal.KFold.glue2
  rw [scatter256_eq, gather256_eq]

end Cert.Bridge

end
-- ==== Proof.LibReal.lean ====
/-
  Real arithmetic on the extended reals: a program-free library.

  At the ideal instance a float is an extended real and every operation is the exact one.  When every
  value involved is a real number (neither infinity), the operations are those of the field of real
  numbers; this file states that closure, operation by operation, and proves the one algebraic fact
  needed about a batch normalisation: the mean of the squared deviations from the mean is the mean of
  the squares minus the square of the mean.
-/
import Idealize.ShloMosaic.PureOps.Ideal
import Idealize.ShloMosaic.PureOps.Ideal.Laws
import Idealize.ShloMosaic.Lib.ValueIdx

noncomputable section

namespace Cert.LibReal

open Idealize.ShloMosaic
open scoped BigOperators

/-! ## Sums of reals inside the extended reals -/

/-- The coercion of a finite sum of reals is the sum of the coercions. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a given real is the coercion of the real sum. -/
theorem sum_eq_coe {κ : Type} (s : Finset κ) (x : κ → EReal) (r : κ → ℝ) (hx : ∀ i ∈ s, x i = (r i : EReal)) :
    ∑ i ∈ s, x i = ((∑ i ∈ s, r i : ℝ) : EReal) := by
  rw [coe_sum]; exact Finset.sum_congr rfl hx

/-- The ideal quotient of two reals, the divisor not zero, is the real quotient. -/
theorem div_coe_coe (x N : ℝ) (hN : N ≠ 0) : Ideal.div (x : EReal) (N : EReal) = ((x / N : ℝ) : EReal) := by
  rw [Ideal.div_coe hN, ← EReal.coe_mul, mul_one_div]

/-! ## The variance identity -/

section Variance
variable {ι : Type} [Fintype ι]

/-- The mean of the family r over a divisor N: (∑ r) / N. -/
def mean (r : ι → ℝ) (N : ℝ) : ℝ := (∑ i, r i) / N

/-- The centred second moment: (∑ (r - mean)²) / N. -/
def varCentered (r : ι → ℝ) (N : ℝ) : ℝ := (∑ i, (r i - mean r N) * (r i - mean r N)) / N

/-- The raw second moment minus the squared mean: (∑ r²) / N - mean². -/
def varMoment (r : ι → ℝ) (N : ℝ) : ℝ := (∑ i, r i * r i) / N - mean r N * mean r N

/-- Over the reals: when N is the number of terms, the mean of the squared deviations from the mean is the
    mean of the squares minus the square of the mean. -/
theorem varCentered_eq_varMoment (r : ι → ℝ) (N : ℝ) (hN : N ≠ 0) (hcard : (Fintype.card ι : ℝ) = N) :
    varCentered r N = varMoment r N := by
  unfold varCentered varMoment mean
  generalize hS : (∑ i, r i) = S
  have h1 : ∑ i, (r i - S / N) * (r i - S / N)
      = (∑ i, r i * r i) - 2 * (S / N) * S + N * ((S / N) * (S / N)) := by
    have h2 : ∀ i, (r i - S / N) * (r i - S / N) = r i * r i - 2 * (S / N) * r i + (S / N) * (S / N) :=
      fun i => by ring
    simp only [h2]
    rw [Finset.sum_add_distrib, Finset.sum_sub_distrib, ← Finset.mul_sum, hS, Finset.sum_const, Finset.card_univ,
      nsmul_eq_mul, hcard]
  rw [h1]
  field_simp
  ring

/-- The centred second moment is not negative when the divisor is positive. -/
theorem varCentered_nonneg (r : ι → ℝ) (N : ℝ) (hN : 0 < N) : 0 ≤ varCentered r N :=
  div_nonneg (Finset.sum_nonneg fun _ _ => mul_self_nonneg _) hN.le

/-- Hence so is the raw second moment minus the squared mean, when N is the number of terms. -/
theorem varMoment_nonneg (r : ι → ℝ) (N : ℝ) (hN : 0 < N) (hcard : (Fintype.card ι : ℝ) = N) : 0 ≤ varMoment r N := by
  rw [← varCentered_eq_varMoment r N hN.ne' hcard]; exact varCentered_nonneg r N hN

/-- In the extended reals, the ideal quotient by N of the sum of a real family is the mean. -/
theorem div_sum_eq_mean (x : ι → EReal) (r : ι → ℝ) (hx : ∀ i, x i = (r i : EReal)) (N : ℝ) (hN : N ≠ 0) :
    Ideal.div (∑ i, x i) (N : EReal) = ((mean r N : ℝ) : EReal) := by
  rw [sum_eq_coe _ x r fun i _ => hx i, div_coe_coe _ _ hN]; rfl

/-- In the extended reals, with m the mean: the ideal quotient by N of the sum of (x - m) * (x - m) is the
    centred second moment. -/
theorem div_sum_centered (x : ι → EReal) (r : ι → ℝ) (hx : ∀ i, x i = (r i : EReal)) (N : ℝ) (hN : N ≠ 0)
    (m : EReal) (hm : m = ((mean r N : ℝ) : EReal)) :
    Ideal.div (∑ i, (x i - m) * (x i - m)) (N : EReal) = ((varCentered r N : ℝ) : EReal) := by
  subst hm
  rw [sum_eq_coe _ _ (fun i => (r i - mean r N) * (r i - mean r N)) fun i _ => by
    rw [hx i, ← EReal.coe_sub, ← EReal.coe_mul], div_coe_coe _ _ hN]
  rfl

/-- In the extended reals, with m the mean: the ideal quotient by N of the sum of x * x, minus m * m, is the
    raw second moment minus the squared mean. -/
theorem div_sum_sq_sub (x : ι → EReal) (r : ι → ℝ) (hx : ∀ i, x i = (r i : EReal)) (N : ℝ) (hN : N ≠ 0)
    (m : EReal) (hm : m = ((mean r N : ℝ) : EReal)) :
    Ideal.div (∑ i, x i * x i) (N : EReal) - m * m = ((varMoment r N : ℝ) : EReal) := by
  subst hm
  rw [sum_eq_coe _ _ (fun i => r i * r i) fun i _ => by rw [hx i, ← EReal.coe_mul], div_coe_coe _ _ hN,
    ← EReal.coe_mul, ← EReal.coe_sub]
  rfl

/-- THE VARIANCE IDENTITY in the extended reals, for a family of reals, N the number of terms, m the mean
    (∑ x) / N:   (∑ (x - m) * (x - m)) / N  =  (∑ x * x) / N  -  m * m. -/
theorem variance_identity (x : ι → EReal) (r : ι → ℝ) (hx : ∀ i, x i = (r i : EReal)) (N : ℝ) (hN : N ≠ 0)
    (hcard : (Fintype.card ι : ℝ) = N) (m : EReal) (hm : m = Ideal.div (∑ i, x i) (N : EReal)) :
    Ideal.div (∑ i, (x i - m) * (x i - m)) (N : EReal) = Ideal.div (∑ i, x i * x i) (N : EReal) - m * m := by
  have hm' : m = ((mean r N : ℝ) : EReal) := hm.trans (div_sum_eq_mean x r hx N hN)
  rw [div_sum_centered x r hx N hN m hm', div_sum_sq_sub x r hx N hN m hm', varCentered_eq_varMoment r N hN hcard]

end Variance

/-! ## Arrays of real numbers -/

/-- Every element of the array is a real number (neither infinity). -/
def IsReal {ι : Type} (x : ι → EReal) : Prop := ∀ i, ∃ r : ℝ, x i = (r : EReal)

/-- An array of reals is the coercion of a real array. -/
theorem IsReal.exists_fun {ι : Type} {x : ι → EReal} (hx : IsReal x) : ∃ r : ι → ℝ, ∀ i, x i = (r i : EReal) :=
  ⟨fun i => (hx i).choose, fun i => (hx i).choose_spec⟩

/-- An extended real is a real number exactly when it is neither infinity. -/
theorem real_iff_ne (a : EReal) : (∃ r : ℝ, a = (r : EReal)) ↔ a ≠ ⊤ ∧ a ≠ ⊥ := by
  constructor
  · rintro ⟨r, rfl⟩; exact ⟨EReal.coe_ne_top r, EReal.coe_ne_bot r⟩
  · rintro ⟨ht, hb⟩
    induction a using EReal.rec with
    | bot => exact absurd rfl hb
    | top => exact absurd rfl ht
    | coe r => exact ⟨r, rfl⟩

/-! ### Elementwise -/

/-- The sum of two reals is a real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The maximum of two reals is a real: the real maximum. -/
theorem coe_max' (p q : ℝ) : max (p : EReal) (q : EReal) = ((max p q : ℝ) : EReal) := by
  rcases le_total p q with h | h
  · rw [max_eq_right h, max_eq_right (EReal.coe_le_coe_iff.mpr h)]
  · rw [max_eq_left h, max_eq_left (EReal.coe_le_coe_iff.mpr h)]

/-- The maximum of two reals is a real. -/
theorem real_max {a b : EReal} (ha : ∃ r : ℝ, a = (r : EReal)) (hb : ∃ r : ℝ, b = (r : EReal)) :
    ∃ r : ℝ, max a b = (r : EReal) := by
  obtain ⟨p, rfl⟩ := ha; obtain ⟨q, rfl⟩ := hb; exact ⟨max p q, coe_max' p q⟩

/-- The maximum of a real and zero is a real that is not negative. -/
theorem real_max_zero_nonneg {a : EReal} (ha : ∃ r : ℝ, a = (r : EReal)) :
    ∃ r : ℝ, 0 ≤ r ∧ max a 0 = (r : EReal) := by
  obtain ⟨p, rfl⟩ := ha
  exact ⟨max p 0, le_max_right _ _, by rw [← EReal.coe_zero, coe_max']⟩

/-- The ideal quotient of a real by a real that is not zero is a real. -/
theorem real_div {a b : EReal} (ha : ∃ r : ℝ, a = (r : EReal)) (hb : ∃ r : ℝ, r ≠ 0 ∧ b = (r : EReal)) :
    ∃ r : ℝ, Ideal.div a b = (r : EReal) := by
  obtain ⟨p, rfl⟩ := ha; obtain ⟨q, hq, rfl⟩ := hb; exact ⟨p / q, div_coe_coe p q hq⟩

/-- The ideal reciprocal square root of a positive real is the positive real 1 / √p. -/
theorem rsqrt_coe_pos {p : ℝ} (hp : 0 < p) : Ideal.rsqrt (p : EReal) = (((Real.sqrt p)⁻¹ : ℝ) : EReal) := by
  rw [Ideal.rsqrt_coe, if_neg (not_lt.mpr hp.le), if_neg hp.ne']

/-- The ideal reciprocal square root of a positive real is a positive real. -/
theorem real_rsqrt {a : EReal} (ha : ∃ r : ℝ, 0 < r ∧ a = (r : EReal)) :
    ∃ r : ℝ, 0 < r ∧ Ideal.rsqrt a = (r : EReal) := by
  obtain ⟨p, hp, rfl⟩ := ha
  exact ⟨(Real.sqrt p)⁻¹, inv_pos.mpr (Real.sqrt_pos.mpr hp), rsqrt_coe_pos hp⟩

/-- A real that is not negative plus a positive real is a positive real. -/
theorem real_add_pos {a b : EReal} (ha : ∃ r : ℝ, 0 ≤ r ∧ a = (r : EReal)) (hb : ∃ r : ℝ, 0 < r ∧ b = (r : EReal)) :
    ∃ r : ℝ, 0 < r ∧ a + b = (r : EReal) := by
  obtain ⟨p, hp, rfl⟩ := ha; obtain ⟨q, hq, rfl⟩ := hb
  exact ⟨p + q, add_pos_of_nonneg_of_pos hp hq, (EReal.coe_add p q).symm⟩

/-- A finite sum of reals is a real. -/
theorem real_sum {κ : Type} (s : Finset κ) (x : κ → EReal) (h : ∀ i ∈ s, ∃ r : ℝ, x i = (r : EReal)) :
    ∃ r : ℝ, ∑ i ∈ s, x i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ### Arrays: re-indexings -/

section Arrays
variable {ι κ : Type} {s t : Shape} {φ : FTy}

/-- Reading an array of reals through any map of indices gives an array of reals: every broadcast,
    reshape, slice, transpose and gather is of this form. -/
theorem IsReal.comp {x : ι → EReal} (hx : IsReal x) (f : κ → ι) : IsReal (fun j => x (f j)) := fun j => hx (f j)

/-- A constant array whose one value is a real is an array of reals. -/
theorem IsReal.const {a : EReal} (ha : ∃ r : ℝ, a = (r : EReal)) : IsReal (fun _ : ι => a) := fun _ => ha

/-- A gather of an array of reals is an array of reals, whatever the index array. -/
theorem IsReal.gather {si : Shape} {w : Nat} (d : GatherDims s si t) {x : s.Idx → EReal} (hx : IsReal x)
    (idx : IVec si w) : IsReal (Host.gather d x idx) := fun _ => hx _

/-- A broadcast along stated axes of an array of reals is an array of reals. -/
theorem IsReal.broadcastInDim {x : s.Idx → EReal} (hx : IsReal x) (t : Shape) (dims : Fin s.rank → Fin t.rank)
    (h : s.BroadcastsInDim t dims) : IsReal (broadcastInDim t dims h x) := fun _ => hx _

/-- A trailing-axes broadcast of an array of reals is an array of reals. -/
theorem IsReal.broadcastTo {x : s.Idx → EReal} (hx : IsReal x) (t : Shape) (h : s.Broadcasts t) :
    IsReal (broadcastTo t x h) := fun _ => hx _

/-- The splat of a real is an array of reals. -/
theorem IsReal.broadcast {a : EReal} (ha : ∃ r : ℝ, a = (r : EReal)) (t : Shape) : IsReal (broadcast t a) := fun _ => ha

/-- A reshape of an array of reals is an array of reals. -/
theorem IsReal.shapeCast {x : s.Idx → EReal} (hx : IsReal x) (t : Shape) (h : s.ShapeCasts t) :
    IsReal (shapeCast t x h) := fun _ => hx _

/-- A slice of an array of reals is an array of reals. -/
theorem IsReal.extractStridedSlice {x : s.Idx → EReal} (hx : IsReal x) (t : Shape) (off : Fin s.rank → Nat)
    (h : s.Slices off t) : IsReal (extractStridedSlice t off x h) := fun _ => hx _

/-- An elementwise choice between two arrays of reals is an array of reals. -/
theorem IsReal.select (c : IVec s 1) {a b : s.Idx → EReal} (ha : IsReal a) (hb : IsReal b) : IsReal (select c a b) := by
  intro i
  show ∃ r : ℝ, (if c i = 1 then a i else b i) = (r : EReal)
  split
  · exact ha i
  · exact hb i

/-! ### Arrays: arithmetic -/

/-- The elementwise sum of two arrays of reals is an array of reals. -/
theorem IsReal.addf {x y : FVec Ideal s φ} (hx : IsReal x) (hy : IsReal y) : IsReal (addf x y) :=
  fun i => real_add (hx i) (hy i)

/-- The elementwise difference of two arrays of reals is an array of reals. -/
theorem IsReal.subf {x y : FVec Ideal s φ} (hx : IsReal x) (hy : IsReal y) : IsReal (subf x y) :=
  fun i => real_sub (hx i) (hy i)

/-- The elementwise product of two arrays of reals is an array of reals. -/
theorem IsReal.mulf {x y : FVec Ideal s φ} (hx : IsReal x) (hy : IsReal y) : IsReal (mulf x y) :=
  fun i => real_mul (hx i) (hy i)

/-- The elementwise maximum of two arrays of reals is an array of reals. -/
theorem IsReal.maximumf {x y : FVec Ideal s φ} (hx : IsReal x) (hy : IsReal y) : IsReal (maximumf x y) :=
  fun i => real_max (hx i) (hy i)

/-- An integer converted to a float is a real: the integer. -/
theorem IsReal.sitofp {w : Nat} (φ : FTy) (x : IVec s w) : IsReal (sitofp (F := Ideal) φ x) :=
  fun i => ⟨((x i).toInt : ℝ), rfl⟩

/-- The integer zero converted to a float is the real zero. -/
theorem sitofp_zero (φ : FTy) (x : IVec s 32) (hx : ∀ i, x i = 0#32) : sitofp (F := Ideal) φ x = fun _ => (0 : EReal) := by
  funext i
  show (((x i).toInt : ℝ) : EReal) = 0
  rw [hx i]; simp

/-- The host's elementwise quotient of an array of reals by an array of reals none of which is zero is an
    array of reals. -/
theorem IsReal.host_divf {x y : FVec Ideal s φ} (hx : IsReal x) (hy : ∀ i, ∃ r : ℝ, r ≠ 0 ∧ y i = (r : EReal)) :
    IsReal (Host.divf x y) := fun i => real_div (hx i) (hy i)

/-- The kernel's elementwise quotient likewise. -/
theorem IsReal.divf {x y : FVec Ideal s φ} (hx : IsReal x) (hy : ∀ i, ∃ r : ℝ, r ≠ 0 ∧ y i = (r : EReal)) :
    IsReal (divf x y) := fun i => real_div (hx i) (hy i)

/-- Every element of the array is a positive real. -/
def IsPos {ι : Type} (x : ι → EReal) : Prop := ∀ i, ∃ r : ℝ, 0 < r ∧ x i = (r : EReal)

/-- Every element of the array is a real that is not negative. -/
def IsNonneg {ι : Type} (x : ι → EReal) : Prop := ∀ i, ∃ r : ℝ, 0 ≤ r ∧ x i = (r : EReal)

/-- Positive reals are reals. -/
theorem IsPos.isReal {x : ι → EReal} (hx : IsPos x) : IsReal x := fun i => (hx i).imp fun _ h => h.2

/-- Reals that are not negative are reals. -/
theorem IsNonneg.isReal {x : ι → EReal} (hx : IsNonneg x) : IsReal x := fun i => (hx i).imp fun _ h => h.2

/-- Positive reals are not zero. -/
theorem IsPos.ne_zero {x : ι → EReal} (hx : IsPos x) : ∀ i, ∃ r : ℝ, r ≠ 0 ∧ x i = (r : EReal) :=
  fun i => (hx i).imp fun _ h => ⟨h.1.ne', h.2⟩

/-- Reading positive reals through any map of indices gives positive reals. -/
theorem IsPos.comp {x : ι → EReal} (hx : IsPos x) (f : κ → ι) : IsPos (fun j => x (f j)) := fun j => hx (f j)

/-- Reading reals that are not negative through any map of indices gives reals that are not negative. -/
theorem IsNonneg.comp {x : ι → EReal} (hx : IsNonneg x) (f : κ → ι) : IsNonneg (fun j => x (f j)) := fun j => hx (f j)

/-- An array of reals that are not negative plus an array of positive reals is an array of positive reals. -/
theorem IsPos.addf {x y : FVec Ideal s φ} (hx : IsNonneg x) (hy : IsPos y) : IsPos (addf x y) :=
  fun i => real_add_pos (hx i) (hy i)

/-- The maximum of an array of reals with the zero array is an array of reals that are not negative. -/
theorem IsNonneg.maximumf_zero {x y : FVec Ideal s φ} (hx : IsReal x) (hy : ∀ i, y i = 0) : IsNonneg (maximumf x y) := by
  intro i
  show ∃ r : ℝ, 0 ≤ r ∧ max (x i) (y i) = (r : EReal)
  rw [hy i]; exact real_max_zero_nonneg (hx i)

/-- The host's reciprocal square root of an array of positive reals is an array of positive reals. -/
theorem IsPos.host_rsqrt {x : FVec Ideal s φ} (hx : IsPos x) : IsPos (Host.rsqrt x) := fun i => real_rsqrt (hx i)

/-- The kernel's reciprocal square root of an array of positive reals is an array of positive reals. -/
theorem IsPos.rsqrt {x : FVec Ideal s φ} (hx : IsPos x) : IsPos (rsqrt x) := fun i => real_rsqrt (hx i)

/-- At the ideal values the host's reciprocal square root and the kernel's are one function. -/
theorem host_rsqrt_eq_rsqrt (x : FVec Ideal s φ) : Host.rsqrt x = rsqrt x := rfl

/-- At the ideal values the host's quotient and the kernel's are one function. -/
theorem host_divf_eq_divf (x y : FVec Ideal s φ) : Host.divf x y = divf x y := rfl

/-! ### Arrays: sums -/

/-- The host's float sum of an array of reals from a real initial value is an array of reals. -/
theorem IsReal.hostReduceAdd {axes : List (Fin s.rank)} (h : s.ReducesTo axes t) {x : s.Idx → EReal} (hx : IsReal x)
    {init : EReal} (hinit : ∃ r : ℝ, init = (r : EReal)) : IsReal (Ideal.hostReduceAdd h x init) :=
  fun _ => real_add hinit (real_sum _ _ fun i _ => hx i)

/-- The same for the host reduction as a program spells it. -/
theorem IsReal.host_reduceAdd {axes : List (Fin s.rank)} {u : Shape} {x : FVec Ideal s φ} (hx : IsReal x)
    {init : u.Idx → Ideal φ} (hinit : IsReal init) (h : s.ReducesTo axes t) (hu : 0 < u.numel) :
    IsReal (Host.reduceAdd x init h hu) :=
  fun _ => real_add (hinit _) (real_sum _ _ fun i _ => hx i)

/-- A kernel's sum reduction of an array of reals is an array of reals. -/
theorem IsReal.reduceAdd {axes : List (Fin s.rank)} (h : s.Reduces axes t) {x : s.Idx → EReal} (hx : IsReal x) :
    IsReal (Ideal.reduceAdd h x) :=
  fun _ => real_sum _ _ fun i _ => hx i

/-- The same for the reduction as a program spells it. -/
theorem IsReal.multiReduction_add {axes : List (Fin s.rank)} {x : FVec Ideal s φ} (hx : IsReal x) (acc : BitVec φ.bits)
    (h : s.Reduces axes t) (hφ : FKind.Formats φ) (hacc : acc = FKind.add.neutral φ hφ) :
    IsReal (multiReduction .add axes t x acc h hφ hacc) := by
  have e : multiReduction .add axes t x acc h hφ hacc = Ideal.reduceAdd h x := rfl
  rw [e]; exact IsReal.reduceAdd h hx

/-- The host's accumulating scatter of real updates into an array of reals is an array of reals, whatever
    the index array: each element is its old value plus a finite sum of updates. -/
theorem IsReal.hostScatterAdd {si su : Shape} (d : ScatterDims s si su) {w : Nat} {x : s.Idx → EReal} (hx : IsReal x)
    (idx : IVec si w) {upd : su.Idx → EReal} (hupd : IsReal upd) : IsReal (Ideal.hostScatterAdd d x idx upd) :=
  fun i => real_add (hx i) (real_sum _ _ fun j _ => hupd j)

/-- The same for the scatter as a program spells it. -/
theorem IsReal.host_scatterAdd {si u : Shape} {w : Nat} (d : ScatterDims s si u) {x : FVec Ideal s φ} (hx : IsReal x)
    (idx : IVec si w) {upd : FVec Ideal u φ} (hupd : IsReal upd) : IsReal (Host.scatterAdd d x idx upd) :=
  fun i => real_add (hx i) (real_sum _ _ fun j _ => hupd j)

/-- The host's matrix product of two arrays of reals is an array of reals: each element is a finite sum of
    products. -/
theorem IsReal.host_dotGeneral {sl sr so : Shape} {φ₁ φ₂ : FTy} (d : DotDims sl sr so) (prec : Option ContractPrecision)
    {l : FVec Ideal sl φ₁} {r : FVec Ideal sr φ₂} (hl : IsReal l) (hr : IsReal r) : IsReal (Host.dotGeneral d prec l r) := by
  intro j
  show ∃ p : ℝ, FloatOps.dotGeneral d prec .single l r j = (p : EReal)
  rw [Ideal.dotGeneral_apply]
  exact real_sum _ _ fun k _ => real_mul (hl _) (hr _)

/-- The kernel's matrix product of two arrays of reals onto a real accumulator is an array of reals. -/
theorem IsReal.matmul {sl sr so : Shape} {φ₁ φ₂ : FTy} (d : DotDims sl sr so) (prec : Option ContractPrecision)
    {l : FVec Ideal sl φ₁} {r : FVec Ideal sr φ₂} {acc : FVec Ideal so .f32} (hl : IsReal l) (hr : IsReal r)
    (hacc : IsReal acc) : IsReal (matmul d prec l r acc) := by
  intro j
  show ∃ p : ℝ, FloatOps.matmul d prec l r acc j = (p : EReal)
  rw [Ideal.matmul_apply]
  exact real_add (hacc j) (real_sum _ _ fun k _ => real_mul (hl _) (hr _))

end Arrays

/-! ## The float constants, as the reals their patterns denote -/

/-- The pattern of +0.0 denotes 0. -/
theorem ofBits_zero : Ideal.ofBits .f32 0x00000000#32 = 0 := by
  simp [Ideal.ofBits, Ideal.ieee]

/-- The pattern 0x47435000 denotes the real 50000. -/
theorem ofBits_50000 : Ideal.ofBits .f32 0x47435000#32 = ((50000 : ℝ) : EReal) := by
  simp [Ideal.ofBits, Ideal.ieee, -EReal.coe_mul]; norm_num

/-- The pattern 0x3727C5AC denotes the real 10995116 / 2 ^ 40 (about 1e-5). -/
theorem ofBits_eps_val : Ideal.ofBits .f32 0x3727C5AC#32 = (((10995116 : ℝ) / 2 ^ 40 : ℝ) : EReal) := by
  simp [Ideal.ofBits, Ideal.ieee, -EReal.coe_mul]; norm_num

/-- The pattern 0x3727C5AC denotes a positive real. -/
theorem ofBits_eps : ∃ ε : ℝ, 0 < ε ∧ Ideal.ofBits .f32 0x3727C5AC#32 = (ε : EReal) :=
  ⟨(10995116 : ℝ) / 2 ^ 40, by positivity, ofBits_eps_val⟩

/-- The quiet-NaN pattern denotes the bottom element. -/
theorem ofBits_nan : Ideal.ofBits .f32 0x7FC00000#32 = ⊥ := by
  simp [Ideal.ofBits, Ideal.ieee]

/-- The pattern of +∞ denotes the top element. -/
theorem ofBits_inf : Ideal.ofBits .f32 0x7F800000#32 = ⊤ := by
  simp [Ideal.ofBits, Ideal.ieee]

section Constants
variable (s : Shape)

/-- The splat of +0.0 is the zero array. -/
theorem constant_zero : (constant s .f32 0x00000000#32 : FVec Ideal s .f32) = fun _ => (0 : EReal) :=
  funext fun _ => ofBits_zero

/-- The splat of 0x47435000 is the array of the real 50000. -/
theorem constant_50000 : (constant s .f32 0x47435000#32 : FVec Ideal s .f32) = fun _ => ((50000 : ℝ) : EReal) :=
  funext fun _ => ofBits_50000

/-- The splat of 0x3727C5AC is the array of the positive real 10995116 / 2 ^ 40. -/
theorem constant_eps :
    (constant s .f32 0x3727C5AC#32 : FVec Ideal s .f32) = fun _ => (((10995116 : ℝ) / 2 ^ 40 : ℝ) : EReal) :=
  funext fun _ => ofBits_eps_val

/-- The splat of +0.0 is an array of reals. -/
theorem isReal_constant_zero : IsReal (constant s .f32 0x00000000#32 : FVec Ideal s .f32) :=
  fun _ => ⟨0, ofBits_zero⟩

/-- The splat of 0x47435000 is an array of reals. -/
theorem isReal_constant_50000 : IsReal (constant s .f32 0x47435000#32 : FVec Ideal s .f32) :=
  fun _ => ⟨50000, ofBits_50000⟩

/-- The splat of 0x47435000 is an array of positive reals. -/
theorem isPos_constant_50000 : IsPos (constant s .f32 0x47435000#32 : FVec Ideal s .f32) :=
  fun _ => ⟨50000, by norm_num, ofBits_50000⟩

/-- The splat of 0x3727C5AC is an array of positive reals. -/
theorem isPos_constant_eps : IsPos (constant s .f32 0x3727C5AC#32 : FVec Ideal s .f32) :=
  fun _ => ofBits_eps

/-- The splat of 0x3727C5AC is an array of reals. -/
theorem isReal_constant_eps : IsReal (constant s .f32 0x3727C5AC#32 : FVec Ideal s .f32) :=
  (isPos_constant_eps s).isReal

end Constants

/-- A positive real is greater than zero in the ideal comparison. -/
theorem cmp_ogt_zero_of_pos {p : ℝ} (hp : 0 < p) : Ideal.cmp .ogt (p : EReal) 0 = 1#1 := by
  have h : (0 : EReal) < (p : EReal) := by exact_mod_cast hp
  simp [Ideal.cmp, h]

/-! ## Regrouping a sum over rows by blocks

A sum over a * b rows is the sum, over a blocks, of the sums over the b rows of each block; row y of block t is
row b * t + y.  Nothing here is about the extended reals: any additive commutative monoid. -/

section Blocks
variable {M : Type} [AddCommMonoid M]

/-- Row y of block t is a row: b * t + y < a * b. -/
theorem block_lt {a b : ℕ} (t : Fin a) (y : Fin b) : b * t.val + y.val < a * b := by
  have h1 := t.isLt
  have h2 := y.isLt
  calc b * t.val + y.val < b * t.val + b := by omega
    _ = b * (t.val + 1) := by ring
    _ ≤ b * a := Nat.mul_le_mul_left _ h1
    _ = a * b := Nat.mul_comm _ _

/-- The sum over all a * b rows, regrouped by blocks, for ANY spelling g of "row y of block t" whose value is
    b * t + y. -/
theorem sum_blocks_of (a b : ℕ) (f : Fin (a * b) → M) (g : Fin a → Fin b → Fin (a * b))
    (hg : ∀ t y, (g t y).val = b * t.val + y.val) :
    ∑ t : Fin a, ∑ y : Fin b, f (g t y) = ∑ i : Fin (a * b), f i := by
  rw [← Equiv.sum_comp finProdFinEquiv f, Fintype.sum_prod_type]
  refine Finset.sum_congr rfl fun t _ => Finset.sum_congr rfl fun y _ => congrArg f (Fin.ext ?_)
  rw [hg, finProdFinEquiv_apply_val, Nat.add_comm]

/-- The same with the canonical spelling of the row. -/
theorem sum_blocks (a b : ℕ) (f : Fin (a * b) → M) :
    ∑ t : Fin a, ∑ y : Fin b, f ⟨b * t.val + y.val, block_lt t y⟩ = ∑ i : Fin (a * b), f i :=
  sum_blocks_of a b f (fun t y => ⟨b * t.val + y.val, block_lt t y⟩) fun _ _ => rfl

/-- One more block: the sum over the first n + 1 blocks is the sum over the first n plus block n. -/
theorem sum_range_step (B : ℕ → M) (n : ℕ) :
    ∑ t ∈ Finset.range (n + 1), B t = (∑ t ∈ Finset.range n, B t) + B n :=
  Finset.sum_range_succ B n

/-- A running total that starts at zero and adds block n at step n is, after n steps, the sum of the first n
    blocks (for the steps up to a bound a). -/
theorem running_total_eq_sum (W B : ℕ → M) (a : ℕ) (h0 : W 0 = 0) (hs : ∀ n, n < a → W (n + 1) = W n + B n) :
    ∀ n, n ≤ a → W n = ∑ t ∈ Finset.range n, B t := by
  intro n
  induction n with
  | zero => intro _; rw [h0, Finset.range_zero, Finset.sum_empty]
  | succ n ih => intro hn; rw [hs n hn, ih (Nat.le_of_succ_le hn), Finset.sum_range_succ]

/-- The block sums B 0, …, B (a - 1), each the sum over its block's rows, add up to the sum over all rows. -/
theorem sum_range_blocks_of (a b : ℕ) (f : Fin (a * b) → M) (g : Fin a → Fin b → Fin (a * b))
    (hg : ∀ t y, (g t y).val = b * t.val + y.val) (B : ℕ → M) (hB : ∀ t : Fin a, B t.val = ∑ y : Fin b, f (g t y)) :
    ∑ t ∈ Finset.range a, B t = ∑ i : Fin (a * b), f i := by
  rw [← Fin.sum_univ_eq_sum_range, ← sum_blocks_of a b f g hg]
  exact Finset.sum_congr rfl fun t _ => hB t

/-- Ten blocks of five thousand rows: the sum over the 50000 rows regrouped. -/
theorem sum_blocks_10_5000 (f : Fin 50000 → M) (g : Fin 10 → Fin 5000 → Fin 50000)
    (hg : ∀ t y, (g t y).val = 5000 * t.val + y.val) :
    ∑ t : Fin 10, ∑ y : Fin 5000, f (g t y) = ∑ i : Fin 50000, f i :=
  sum_blocks_of 10 5000 f g hg

/-- Ten block sums add up to the sum over the 50000 rows. -/
theorem sum_range_blocks_10_5000 (f : Fin 50000 → M) (g : Fin 10 → Fin 5000 → Fin 50000)
    (hg : ∀ t y, (g t y).val = 5000 * t.val + y.val) (B : ℕ → M)
    (hB : ∀ t : Fin 10, B t.val = ∑ y : Fin 5000, f (g t y)) :
    ∑ t ∈ Finset.range 10, B t = ∑ i : Fin 50000, f i :=
  sum_range_blocks_of 10 5000 f g hg B hB

end Blocks

end Cert.LibReal

end
-- ==== Proof.Moments.lean ====
/-
  The first two moments of the columns of a rectified array, and the normalised entry built from them.

  For an array g of 50000 rows, column q of max(g, 0) has mean mom1 g q = (∑ rows) / 50000 and variance
  mom2 g q = (∑ squares) / 50000 - mean²; the normalised entry is γ (max(x, 0) - mean) / √(variance + ε) + β.
  When g holds real numbers all of these are real numbers, the variance is not negative, and the argument of the
  reciprocal square root is positive.
-/
import Idealize.ShloMosaic.PureOps.Ideal
import Idealize.ShloMosaic.Lib.ValueIdx
import proofs.«169836_j481036337853_1_alg».proof.Proof.LibReal

noncomputable section

namespace Cert.Moments

open Idealize.ShloMosaic Idealize.ShloMosaic.ValueIdx
open Cert.LibReal
open scoped BigOperators

/-- The float constant +0.0 as the extended real its pattern denotes. -/
abbrev c0 : EReal := Ideal.ofBits .f32 0x00000000#32
/-- The float constant 50000 as the extended real its pattern denotes. -/
abbrev cN : EReal := Ideal.ofBits .f32 0x47435000#32
/-- The float constant ε (about 1e-5) as the extended real its pattern denotes. -/
abbrev cε : EReal := Ideal.ofBits .f32 0x3727C5AC#32

/-- The sum over the 50000 rows of column q of max(g, 0). -/
def colsumAll {D : Nat} (g : (⟨2, ![50000, D]⟩ : Shape).Idx → EReal) (q : Fin D) : EReal :=
  ∑ i : Fin 50000, max (g (ix2 i q)) c0

/-- The sum over the 50000 rows of the squares of column q of max(g, 0). -/
def colsqAll {D : Nat} (g : (⟨2, ![50000, D]⟩ : Shape).Idx → EReal) (q : Fin D) : EReal :=
  ∑ i : Fin 50000, max (g (ix2 i q)) c0 * max (g (ix2 i q)) c0

/-- The mean of column q of max(g, 0). -/
def mom1 {D : Nat} (g : (⟨2, ![50000, D]⟩ : Shape).Idx → EReal) (q : Fin D) : EReal :=
  Ideal.div (colsumAll g q) cN

/-- The variance of column q of max(g, 0), as the mean of the squares minus the square of the mean. -/
def mom2 {D : Nat} (g : (⟨2, ![50000, D]⟩ : Shape).Idx → EReal) (q : Fin D) : EReal :=
  Ideal.div (colsqAll g q) cN - mom1 g q * mom1 g q

/-- The normalised entry: γ (max(x, 0) - mean) / √(var + ε) + β. -/
def normEntry (x mean var gamma beta : EReal) : EReal :=
  gamma * (max x c0 - mean) * Ideal.rsqrt (var + cε) + beta

/-- c0 is zero. -/
theorem c0_eq : c0 = 0 := ofBits_zero
/-- cN is the real 50000. -/
theorem cN_eq : cN = ((50000 : ℝ) : EReal) := ofBits_50000
/-- cε is a positive real. -/
theorem cε_pos : ∃ ε : ℝ, 0 < ε ∧ cε = (ε : EReal) := ofBits_eps
/-- c0 is a real. -/
theorem c0_real : ∃ r : ℝ, c0 = (r : EReal) := ⟨0, ofBits_zero⟩

section Facts
variable {D : Nat} {g : (⟨2, ![50000, D]⟩ : Shape).Idx → EReal}

/-- A column of max(g, 0) of an array of reals is a family of reals. -/
theorem relu_col_real (hg : IsReal g) (q : Fin D) : IsReal (fun i : Fin 50000 => max (g (ix2 i q)) c0) :=
  fun _ => real_max (hg _) c0_real

/-- For a real family r equal to the column: mom1 is the real mean of r. -/
theorem mom1_eq_mean (q : Fin D) (r : Fin 50000 → ℝ) (hr : ∀ i, max (g (ix2 i q)) c0 = (r i : EReal)) :
    mom1 g q = ((mean r 50000 : ℝ) : EReal) := by
  have h := div_sum_eq_mean (fun i : Fin 50000 => max (g (ix2 i q)) c0) r hr 50000 (by norm_num)
  rw [← ofBits_50000] at h
  exact h

/-- For a real family r equal to the column: mom2 is the real number (∑ r²) / 50000 - mean². -/
theorem mom2_eq_varMoment (q : Fin D) (r : Fin 50000 → ℝ) (hr : ∀ i, max (g (ix2 i q)) c0 = (r i : EReal)) :
    mom2 g q = ((varMoment r 50000 : ℝ) : EReal) := by
  have h := div_sum_sq_sub (fun i : Fin 50000 => max (g (ix2 i q)) c0) r hr 50000 (by norm_num) (mom1 g q)
    (mom1_eq_mean q r hr)
  rw [← ofBits_50000] at h
  exact h

/-- The mean of a column of reals is a real. -/
theorem mom1_real (hg : IsReal g) (q : Fin D) : ∃ r : ℝ, mom1 g q = (r : EReal) := by
  obtain ⟨r, hr⟩ := (relu_col_real hg q).exists_fun
  exact ⟨_, mom1_eq_mean q r hr⟩

/-- The variance of a column of reals is a real that is not negative. -/
theorem mom2_nonneg (hg : IsReal g) (q : Fin D) : ∃ v : ℝ, 0 ≤ v ∧ mom2 g q = (v : EReal) := by
  obtain ⟨r, hr⟩ := (relu_col_real hg q).exists_fun
  exact ⟨varMoment r 50000, varMoment_nonneg r 50000 (by norm_num) (by simp), mom2_eq_varMoment q r hr⟩

/-- The variance of a column of reals is a real. -/
theorem mom2_real (hg : IsReal g) (q : Fin D) : ∃ v : ℝ, mom2 g q = (v : EReal) :=
  (mom2_nonneg hg q).imp fun _ h => h.2

/-- The variance of a column of reals plus ε is a positive real. -/
theorem mom2_add_eps_pos (hg : IsReal g) (q : Fin D) : ∃ v : ℝ, 0 < v ∧ mom2 g q + cε = (v : EReal) :=
  real_add_pos (mom2_nonneg hg q) cε_pos

/-- THE VARIANCE IDENTITY for a column of reals: the mean of the squared deviations from the mean is mom2. -/
theorem centered_eq_mom2 (hg : IsReal g) (q : Fin D) :
    Ideal.div (∑ i : Fin 50000, (max (g (ix2 i q)) c0 - mom1 g q) * (max (g (ix2 i q)) c0 - mom1 g q)) cN = mom2 g q := by
  obtain ⟨r, hr⟩ := (relu_col_real hg q).exists_fun
  have h := div_sum_centered (fun i : Fin 50000 => max (g (ix2 i q)) c0) r hr 50000 (by norm_num) (mom1 g q)
    (mom1_eq_mean q r hr)
  rw [← ofBits_50000] at h
  rw [h, mom2_eq_varMoment q r hr, varCentered_eq_varMoment r 50000 (by norm_num) (by simp)]

end Facts

/-- The normalised entry of reals, the variance not negative, is a real. -/
theorem normEntry_real {x mean var gamma beta : EReal} (hx : ∃ r : ℝ, x = (r : EReal))
    (hm : ∃ r : ℝ, mean = (r : EReal)) (hv : ∃ v : ℝ, 0 ≤ v ∧ var = (v : EReal))
    (hγ : ∃ r : ℝ, gamma = (r : EReal)) (hβ : ∃ r : ℝ, beta = (r : EReal)) :
    ∃ r : ℝ, normEntry x mean var gamma beta = (r : EReal) := by
  obtain ⟨p, _, hpe⟩ := real_rsqrt (real_add_pos hv cε_pos)
  exact real_add (real_mul (real_mul hγ (real_sub (real_max hx c0_real) hm)) ⟨p, hpe⟩) hβ

/-- The normalised entry of an array of reals against its own column moments is a real. -/
theorem normEntry_mom_real {D : Nat} {g : (⟨2, ![50000, D]⟩ : Shape).Idx → EReal} (hg : IsReal g) (i : Fin 50000)
    (q : Fin D) {gamma beta : EReal} (hγ : ∃ r : ℝ, gamma = (r : EReal)) (hβ : ∃ r : ℝ, beta = (r : EReal)) :
    ∃ r : ℝ, normEntry (g (ix2 i q)) (mom1 g q) (mom2 g q) gamma beta = (r : EReal) :=
  normEntry_real (hg _) (mom1_real hg q) (mom2_nonneg hg q) hγ hβ

/-- Rectifying twice is rectifying once. -/
theorem max_max_c0 (x : EReal) : max (max x c0) c0 = max x c0 := max_eq_left (le_max_right x c0)

end Cert.Moments

end
-- ==== Proof.Blocks0.lean ====
/-
  The first matrix product, read as one array. The kernel multiplies a 50000 × 64 array by a 64 × 128 array ten
  rows-blocks at a time: at grid point t it loads rows 5000·t … 5000·t + 4999 of the left array and the whole right
  array, and stores their product as rows 5000·t … of the result. At the exact reals (and extended reals) entry (p, q)
  of a block's product is the sum over k of left(p, k) · right(k, q) — the matrix unit accumulates into a zero splat,
  and a change of float format is the identity — so block t of the result is block t of the whole product
  (i, q) ↦ ∑ k, left(i, k) · right(k, q); the ten blocks tile the 50000 rows (row r lies in block r / 5000), hence
  the result array ends holding the whole product, whatever the region finds in its two input arrays.
-/
import proofs.«169836_j481036337853_1_alg».proof.Proof.KernelIdealFrameP
import Idealize.ShloMosaic.Lib.Pipeline.Value
import Idealize.ShloMosaic.Lib.ValueIdx
import Idealize.ShloMosaic.PureOps.Ideal.Laws

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-- The whole product: entry (i, q) is the sum over k of x(i, k) · w(k, q). -/
def prod (x : S50000x64.Idx → EReal) (w : S64x128.Idx → EReal) : S50000x128.Idx → EReal :=
  fun i => ∑ k : Fin 64, x (ix2 (⟨(i 0).val, idx2_lt0 i⟩ : Fin 50000) k) * w (ix2 k (⟨(i 1).val, idx2_lt1 i⟩ : Fin 128))

theorem prod_apply (x : S50000x64.Idx → EReal) (w : S64x128.Idx → EReal) (r : Fin 50000) (q : Fin 128) :
    prod x w (ix2 r q) = ∑ k : Fin 64, x (ix2 r k) * w (ix2 k q) := rfl

abbrev DB := dot_S5000x64_S64x128_S5000x128_1_0_0_1_n_n

/-- The left operand's row coordinate at a contraction index is the output's row. -/
theorem lhs_0 (i : S5000x128.Idx) (q : DB.contr.Idx) : (DB.lhsIdx i q 0).val = (i 0).val := by
  unfold DotDims.lhsIdx
  rw [dif_neg (show ¬(0 : Fin S5000x64.rank) ∈ DB.lhsBatch by decide), dif_pos (show (0 : Fin S5000x64.rank) ∈ DB.lhsNonContracting by decide)]
  rfl
/-- The left operand's column coordinate is the contraction index. -/
theorem lhs_1 (i : S5000x128.Idx) (q : DB.contr.Idx) : (DB.lhsIdx i q 1).val = (q ⟨0, by decide⟩).val :=
  DB.lhsIdx_val_of_single rfl i q
/-- The right operand's row coordinate is the contraction index. -/
theorem rhs_0 (i : S5000x128.Idx) (q : DB.contr.Idx) : (DB.rhsIdx i q 0).val = (q ⟨0, by decide⟩).val :=
  DB.rhsIdx_val_of_single rfl i q
/-- The right operand's column coordinate is the output's column. -/
theorem rhs_1 (i : S5000x128.Idx) (q : DB.contr.Idx) : (DB.rhsIdx i q 1).val = (i 1).val := by
  unfold DotDims.rhsIdx
  rw [dif_neg (show ¬(1 : Fin S64x128.rank) ∈ DB.rhsBatch by decide), dif_pos (show (1 : Fin S64x128.rank) ∈ DB.rhsNonContracting by decide)]
  rfl

/-- One block's product at an index: the sum over the 64 contracted coordinates. -/
theorem pay_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  refine (Ideal.matmul_constant_zero_apply DB none _ _ (ix2 p q)).trans ?_
  rw [← Equiv.sum_comp (contrEquiv1 DB 64 rfl rfl).symm]
  refine Finset.sum_congr rfl fun k _ => ?_
  have hk := contrEquiv1_symm_val DB 64 rfl rfl k
  have el : DB.lhsIdx (ix2 p q) ((contrEquiv1 DB 64 rfl rfl).symm k) = ix2 p k :=
    funext fun a => Fin.ext (by
      match a with
      | ⟨0, _⟩ => exact lhs_0 _ _
      | ⟨1, _⟩ => exact (lhs_1 _ _).trans hk)
  have er : DB.rhsIdx (ix2 p q) ((contrEquiv1 DB 64 rfl rfl).symm k) = ix2 k q :=
    funext fun a => Fin.ext (by
      match a with
      | ⟨0, _⟩ => exact (rhs_0 _ _).trans hk
      | ⟨1, _⟩ => exact rhs_1 _ _)
  rw [truncf_apply, truncf_apply, el, er]

theorem hz : (![0, 0] : Fin 2 → Nat) = fun _ => 0 := funext fun a => by fin_cases a <;> rfl

/-- The printed index maps over the grid: the left block and the result block move down the rows with the point, the
    right block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Block t of the product, as a function on the block's own index type: the payload of the two input blocks at t is
    the whole product read at the block's place in the array. -/
theorem block_eq (c : Dev nD) (t : Fin cfg0.N) :
    k0_pay1 (F := Ideal) (iblk0 V c 0 t) (iblk0 V c 1 t)
      = fun j : S5000x128.Idx => prod (V c (Pipeline.arrRef spec0 0)) (V c (Pipeline.arrRef spec0 1)) (((cfg0.win 2).blk t).view.emb j) := by
  obtain ⟨e0, e1, e2, e3, e4, e5⟩ := idx_facts t
  have ht : t.val < 10 := by have h := t.isLt; have e : cfg0.N = 10 := N_0; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  rw [pay_apply]
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb, prod_apply]
  refine Finset.sum_congr rfl fun k _ => ?_
  have hk : k.val < 64 := k.isLt
  have hl : iblk0 V c 0 t (ix2 p k) = V c (Pipeline.arrRef spec0 0) (ix2 (⟨t.val * 5000 + p.val, by omega⟩ : Fin 50000) k) := by
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have hr : iblk0 V c 1 t (ix2 k q) = V c (Pipeline.arrRef spec0 1) (ix2 k q) := by
    show V c (Pipeline.arrRef spec0 1) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega
  rw [hl, hr]

/-- What point t writes back is block t of the whole product of the two input arrays as the region finds them. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  exact block_eq V c t

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every block index below ten is some point's. -/
theorem idx_onto : ∀ q : Fin 10, ∃ t : Fin cfg0.N, t.val = q.val :=
  (by decide +kernel : ∀ q : Fin 10, ∃ t : Fin grid0.N, t.val = q.val)

/-- The ten blocks tile the rows: row r lies in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the whole product of the two input arrays as the region finds them. -/
theorem final (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover

end Cert.KernelIdeal.Blocks0

end
-- ==== Proof.Blocks3.lean ====
/-
  The second matrix product, read as one array. The kernel multiplies a 50000 × 128 array by a 128 × 256 array ten
  rows-blocks at a time: at grid point t it loads rows 5000·t … 5000·t + 4999 of the left array and the whole right
  array, and stores their product as rows 5000·t … of the result. At the exact reals (and extended reals) entry (p, q)
  of a block's product is the sum over k of left(p, k) · right(k, q) — the matrix unit accumulates into a zero splat,
  and a change of float format is the identity — so block t of the result is block t of the whole product
  (i, q) ↦ ∑ k, left(i, k) · right(k, q); the ten blocks tile the 50000 rows (row r lies in block r / 5000), hence
  the result array ends holding the whole product, whatever the region finds in its two input arrays.
-/
import proofs.«169836_j481036337853_1_alg».proof.Proof.KernelIdealFrameP
import Idealize.ShloMosaic.Lib.Pipeline.Value
import Idealize.ShloMosaic.Lib.ValueIdx
import Idealize.ShloMosaic.PureOps.Ideal.Laws

set_option maxRecDepth 16384

noncomputable section

namespace Cert.KernelIdeal.Blocks3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-- The whole product: entry (i, q) is the sum over k of x(i, k) · w(k, q). -/
def prod (x : S50000x128.Idx → EReal) (w : S128x256.Idx → EReal) : S50000x256.Idx → EReal :=
  fun i => ∑ k : Fin 128, x (ix2 (⟨(i 0).val, idx2_lt0 i⟩ : Fin 50000) k) * w (ix2 k (⟨(i 1).val, idx2_lt1 i⟩ : Fin 256))

theorem prod_apply (x : S50000x128.Idx → EReal) (w : S128x256.Idx → EReal) (r : Fin 50000) (q : Fin 256) :
    prod x w (ix2 r q) = ∑ k : Fin 128, x (ix2 r k) * w (ix2 k q) := rfl

abbrev DB := dot_S5000x128_S128x256_S5000x256_1_0_0_1_n_n

/-- The left operand's row coordinate at a contraction index is the output's row. -/
theorem lhs_0 (i : S5000x256.Idx) (q : DB.contr.Idx) : (DB.lhsIdx i q 0).val = (i 0).val := by
  unfold DotDims.lhsIdx
  rw [dif_neg (show ¬(0 : Fin S5000x128.rank) ∈ DB.lhsBatch by decide), dif_pos (show (0 : Fin S5000x128.rank) ∈ DB.lhsNonContracting by decide)]
  rfl
/-- The left operand's column coordinate is the contraction index. -/
theorem lhs_1 (i : S5000x256.Idx) (q : DB.contr.Idx) : (DB.lhsIdx i q 1).val = (q ⟨0, by decide⟩).val :=
  DB.lhsIdx_val_of_single rfl i q
/-- The right operand's row coordinate is the contraction index. -/
theorem rhs_0 (i : S5000x256.Idx) (q : DB.contr.Idx) : (DB.rhsIdx i q 0).val = (q ⟨0, by decide⟩).val :=
  DB.rhsIdx_val_of_single rfl i q
/-- The right operand's column coordinate is the output's column. -/
theorem rhs_1 (i : S5000x256.Idx) (q : DB.contr.Idx) : (DB.rhsIdx i q 1).val = (i 1).val := by
  unfold DotDims.rhsIdx
  rw [dif_neg (show ¬(1 : Fin S128x256.rank) ∈ DB.rhsBatch by decide), dif_pos (show (1 : Fin S128x256.rank) ∈ DB.rhsNonContracting by decide)]
  rfl

/-- One block's product at an index: the sum over the 128 contracted coordinates. -/
theorem pay_apply (x0 : Vec Ideal S5000x128 .f32) (x1 : Vec Ideal S128x256 .f32) (p : Fin 5000) (q : Fin 256) :
    k3_pay1 (F := Ideal) x0 x1 (ix2 p q) = ∑ k : Fin 128, x0 (ix2 p k) * x1 (ix2 k q) := by
  unfold k3_pay1
  refine (Ideal.matmul_constant_zero_apply DB none _ _ (ix2 p q)).trans ?_
  rw [← Equiv.sum_comp (contrEquiv1 DB 128 rfl rfl).symm]
  refine Finset.sum_congr rfl fun k _ => ?_
  have hk := contrEquiv1_symm_val DB 128 rfl rfl k
  have el : DB.lhsIdx (ix2 p q) ((contrEquiv1 DB 128 rfl rfl).symm k) = ix2 p k :=
    funext fun a => Fin.ext (by
      match a with
      | ⟨0, _⟩ => exact lhs_0 _ _
      | ⟨1, _⟩ => exact (lhs_1 _ _).trans hk)
  have er : DB.rhsIdx (ix2 p q) ((contrEquiv1 DB 128 rfl rfl).symm k) = ix2 k q :=
    funext fun a => Fin.ext (by
      match a with
      | ⟨0, _⟩ => exact (rhs_0 _ _).trans hk
      | ⟨1, _⟩ => exact rhs_1 _ _)
  rw [truncf_apply, truncf_apply, el, er, shapeCast_self]

theorem hz : (![0, 0] : Fin 2 → Nat) = fun _ => 0 := funext fun a => by fin_cases a <;> rfl

/-- The printed index maps over the grid: the left block and the result block move down the rows with the point, the
    right block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Block t of the product, as a function on the block's own index type: the payload of the two input blocks at t is
    the whole product read at the block's place in the array. -/
theorem block_eq (c : Dev nD) (t : Fin cfg3.N) :
    k3_pay1 (F := Ideal) (iblk3 V c 0 t) (iblk3 V c 1 t)
      = fun j : S5000x256.Idx => prod (V c (Pipeline.arrRef spec3 0)) (V c (Pipeline.arrRef spec3 1)) (((cfg3.win 2).blk t).view.emb j) := by
  obtain ⟨e0, e1, e2, e3, e4, e5⟩ := idx_facts t
  have ht : t.val < 10 := by have h := t.isLt; have e : cfg3.N = 10 := N_3; omega
  funext j
  obtain ⟨p, q, rfl⟩ : ∃ (p : Fin 5000) (q : Fin 256), j = ix2 p q := ⟨j 0, j 1, eq_ix2 j⟩
  have hp : p.val < 5000 := p.isLt
  have hq : q.val < 256 := q.isLt
  rw [pay_apply]
  have hemb : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 256 + 1 * q.val = q.val; omega
  rw [hemb, prod_apply]
  refine Finset.sum_congr rfl fun k _ => ?_
  have hk : k.val < 128 := k.isLt
  have hl : iblk3 V c 0 t (ix2 p k) = V c (Pipeline.arrRef spec3 0) (ix2 (⟨t.val * 5000 + p.val, by omega⟩ : Fin 50000) k) := by
    show V c (Pipeline.arrRef spec3 0) (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  have hr : iblk3 V c 1 t (ix2 k q) = V c (Pipeline.arrRef spec3 1) (ix2 k q) := by
    show V c (Pipeline.arrRef spec3 1) (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 256 + 1 * q.val = q.val; omega
  rw [hl, hr]

/-- What point t writes back is block t of the whole product of the two input arrays as the region finds them. -/
theorem flushed_eq (c : Dev nD) (t : Fin cfg3.N) :
    (dat3 V c).flushed 2 t = ((cfg3.win 2).blk t).view.read (Elt Ideal)
      (prod (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x256) hz]
  exact block_eq V c t

/-- An index of the result array is in point t's block iff each coordinate is in the block's range on its axis. -/
theorem mem_blk (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v26).slice (win3_2.rect t)).set ↔ _
  rw [View.set_slice_whole, Rect.mem_set_unit]
  exact Iff.rfl

/-- Every block index below ten is some point's. -/
theorem idx_onto : ∀ q : Fin 10, ∃ t : Fin cfg3.N, t.val = q.val :=
  (by decide +kernel : ∀ q : Fin 10, ∃ t : Fin grid3.N, t.val = q.val)

/-- The ten blocks tile the rows: row r lies in block r / 5000. -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- THE RESULT ARRAY after the region: the whole product of the two input arrays as the region finds them. -/
theorem final (c : Dev nD) :
    (dat3 V c).arrAt 2 cfg3.N = prod (V c (Pipeline.arrRef spec3 0)) (V c (Pipeline.arrRef spec3 1)) :=
  (dat3 V c).arrAt_eq_of_cover 2 _ (fun t _ => flushed_eq V c t) cover

end Cert.KernelIdeal.Blocks3

end
-- ==== Proof.BridgeCore.lean ====
/-
  The two programs' results are one array.

  Layer by layer: the feature product of the reference is the kernel program's whole product (entry (i, q) the sum
  over k of x(i, k) · w(k, q) in both); the edge aggregation is one function of it in both programs, and an array of
  real numbers when the arguments are; on an array g of real numbers the reference's batch normalization of max(g, 0)
  has, entry by entry, the normalized entry of g against the first two column moments of max(g, 0), and so has the
  kernel program's normalized array; so the two layer-1 outputs are one array of real numbers, and the same
  three steps on it give the two results.
-/
import proofs.«169836_j481036337853_1_alg».proof.Proof.BridgeGlue
import proofs.«169836_j481036337853_1_alg».proof.Proof.Moments
import proofs.«169836_j481036337853_1_alg».proof.Proof.Blocks0
import proofs.«169836_j481036337853_1_alg».proof.Proof.Blocks3

noncomputable section

namespace Cert.Bridge

open Idealize.ShloMosaic Idealize.ShloMosaic.ValueIdx Idealize.SL.Sem
open Cert.LibReal Cert.Moments
open Cert.KernelIdeal (S50000x64 S800000 S64x128 S128 S128x256 S256 S50000x128 S50000x256)
open Cert.KernelIdeal.KFold (glue1 glue2)
open Cert.ReferenceIdeal.RefRun (support1 agg1 relu1 bn1 support2 agg2 relu2 bn2 refOut)
open scoped BigOperators

/-- Two arrays over a rank-2 shape that agree at every pair of coordinates are one array. -/
theorem funext_ix2 {n0 n1 : Nat} {f g : (⟨2, ![n0, n1]⟩ : Shape).Idx → EReal}
    (h : ∀ (i : Fin n0) (q : Fin n1), f (ix2 i q) = g (ix2 i q)) : f = g :=
  funext fun j => (congrArg f (eq_ix2 j)).trans ((h _ _).trans (congrArg g (eq_ix2 j)).symm)

/-- The reference's result is any array that has, entry by entry, the normalized entries of the kernel program's
    second aggregate, when the kernel program's layer-1 output has those of its first aggregate and the float
    arguments are real numbers: the reference's stages read at an index (the first nine hypotheses) meet the kernel
    program's arrays read at an index (the last two). -/
theorem bridge_core
    (hR1a : ∀ (x : S50000x64.Idx → EReal) (w : S64x128.Idx → EReal) (i : Fin 50000) (q : Fin 128),
      support1 (F := Ideal) x w (ix2 i q) = ∑ k : Fin 64, x (ix2 i k) * w (ix2 k q))
    (hR1b : ∀ (x : S50000x128.Idx → EReal) (w : S128x256.Idx → EReal) (i : Fin 50000) (q : Fin 256),
      support2 (F := Ideal) x w (ix2 i q) = ∑ k : Fin 128, x (ix2 i k) * w (ix2 k q))
    (hR2a : ∀ (g : S50000x128.Idx → EReal) (gamma beta : S128.Idx → EReal), IsReal g → ∀ (i : Fin 50000) (q : Fin 128),
      bn1 (F := Ideal) (relu1 (F := Ideal) g) gamma beta (ix2 i q)
        = normEntry (g (ix2 i q)) (mom1 g q) (mom2 g q) (gamma (ix1 q)) (beta (ix1 q)))
    (hR2b : ∀ (g : S50000x256.Idx → EReal) (gamma beta : S256.Idx → EReal), IsReal g → ∀ (i : Fin 50000) (q : Fin 256),
      bn2 (F := Ideal) (relu2 (F := Ideal) g) gamma beta (ix2 i q)
        = normEntry (g (ix2 i q)) (mom1 g q) (mom2 g q) (gamma (ix1 q)) (beta (ix1 q)))
    (hR3s1 : ∀ (x : S50000x64.Idx → EReal) (w : S64x128.Idx → EReal), IsReal x → IsReal w → IsReal (support1 (F := Ideal) x w))
    (hR3g1 : ∀ (s : S50000x128.Idx → EReal) (src dst : IVec S800000 32) (w : S800000.Idx → EReal), IsReal s → IsReal w →
      IsReal (agg1 (F := Ideal) s src dst w))
    (hR3b1 : ∀ (g : S50000x128.Idx → EReal) (gamma beta : S128.Idx → EReal), IsReal g → IsReal gamma → IsReal beta →
      IsReal (bn1 (F := Ideal) (relu1 (F := Ideal) g) gamma beta))
    (hR3s2 : ∀ (x : S50000x128.Idx → EReal) (w : S128x256.Idx → EReal), IsReal x → IsReal w → IsReal (support2 (F := Ideal) x w))
    (hR3g2 : ∀ (s : S50000x256.Idx → EReal) (src dst : IVec S800000 32) (w : S800000.Idx → EReal), IsReal s → IsReal w →
      IsReal (agg2 (F := Ideal) s src dst w))
    (a0 : S50000x64.Idx → EReal) (a1 a2 : IVec S800000 32) (a3 : S800000.Idx → EReal) (a4 : S64x128.Idx → EReal)
    (a5 a6 : S128.Idx → EReal) (a7 : S128x256.Idx → EReal) (a8 a9 : S256.Idx → EReal)
    (H1 : S50000x128.Idx → EReal) (OUT : S50000x256.Idx → EReal)
    (r0 : IsReal a0) (r3 : IsReal a3) (r4 : IsReal a4) (r5 : IsReal a5) (r6 : IsReal a6) (r7 : IsReal a7)
    (hK1 : ∀ (i : Fin 50000) (q : Fin 128), H1 (ix2 i q)
      = normEntry (glue1 (F := Ideal) (Cert.KernelIdeal.Blocks0.prod a0 a4) a1 a2 a3 (ix2 i q))
          (mom1 (glue1 (F := Ideal) (Cert.KernelIdeal.Blocks0.prod a0 a4) a1 a2 a3) q)
          (mom2 (glue1 (F := Ideal) (Cert.KernelIdeal.Blocks0.prod a0 a4) a1 a2 a3) q) (a5 (ix1 q)) (a6 (ix1 q)))
    (hK2 : ∀ (i : Fin 50000) (q : Fin 256), OUT (ix2 i q)
      = normEntry (glue2 (F := Ideal) (Cert.KernelIdeal.Blocks3.prod H1 a7) a1 a2 a3 (ix2 i q))
          (mom1 (glue2 (F := Ideal) (Cert.KernelIdeal.Blocks3.prod H1 a7) a1 a2 a3) q)
          (mom2 (glue2 (F := Ideal) (Cert.KernelIdeal.Blocks3.prod H1 a7) a1 a2 a3) q) (a8 (ix1 q)) (a9 (ix1 q))) :
    refOut (F := Ideal) a0 a1 a2 a3 a4 a5 a6 a7 a8 a9 = OUT := by
  -- layer 1: the product, the aggregate, the normalized array
  have hs1 : support1 (F := Ideal) a0 a4 = Cert.KernelIdeal.Blocks0.prod a0 a4 :=
    funext_ix2 (n0 := 50000) (n1 := 128) fun i q => by rw [hR1a, Cert.KernelIdeal.Blocks0.prod_apply]
  have hg1 : agg1 (F := Ideal) (support1 (F := Ideal) a0 a4) a1 a2 a3
      = glue1 (F := Ideal) (Cert.KernelIdeal.Blocks0.prod a0 a4) a1 a2 a3 := by
    rw [hs1, agg1_eq_glue1]
  have hG1 : IsReal (glue1 (F := Ideal) (Cert.KernelIdeal.Blocks0.prod a0 a4) a1 a2 a3) :=
    hg1 ▸ hR3g1 _ a1 a2 a3 (hR3s1 a0 a4 r0 r4) r3
  have hh1 : bn1 (F := Ideal) (relu1 (F := Ideal) (glue1 (F := Ideal) (Cert.KernelIdeal.Blocks0.prod a0 a4) a1 a2 a3)) a5 a6 = H1 :=
    funext_ix2 (n0 := 50000) (n1 := 128) fun i q => by rw [hR2a _ a5 a6 hG1, hK1]
  have hH1 : IsReal H1 := hh1 ▸ hR3b1 _ a5 a6 hG1 r5 r6
  -- layer 2
  have hs2 : support2 (F := Ideal) H1 a7 = Cert.KernelIdeal.Blocks3.prod H1 a7 :=
    funext_ix2 (n0 := 50000) (n1 := 256) fun i q => by rw [hR1b, Cert.KernelIdeal.Blocks3.prod_apply]
  have hg2 : agg2 (F := Ideal) (support2 (F := Ideal) H1 a7) a1 a2 a3
      = glue2 (F := Ideal) (Cert.KernelIdeal.Blocks3.prod H1 a7) a1 a2 a3 := by
    rw [hs2, agg2_eq_glue2]
  have hG2 : IsReal (glue2 (F := Ideal) (Cert.KernelIdeal.Blocks3.prod H1 a7) a1 a2 a3) :=
    hg2 ▸ hR3g2 _ a1 a2 a3 (hR3s2 H1 a7 hH1 r7) r3
  have hout : bn2 (F := Ideal) (relu2 (F := Ideal) (glue2 (F := Ideal) (Cert.KernelIdeal.Blocks3.prod H1 a7) a1 a2 a3)) a8 a9 = OUT :=
    funext_ix2 (n0 := 50000) (n1 := 256) fun i q => by rw [hR2b _ a8 a9 hG2, hK2]
  unfold Cert.ReferenceIdeal.RefRun.refOut
  rw [hg1, hh1, hg2]
  exact hout

end Cert.Bridge

end
-- ==== Proof.PreReal.lean ====
/-
  From the finiteness precondition to real numbers.

  The precondition says, of each float argument array, that every element's absolute value is below +∞.
  In the extended reals this is exactly: every element is a real number.
-/
import proofs.«169836_j481036337853_1_alg».proof.Defs
import proofs.«169836_j481036337853_1_alg».proof.Proof.Gen.Pre_finite_inputs
import proofs.«169836_j481036337853_1_alg».proof.Proof.LibReal
import Idealize.ShloMosaic.Lib.ReduceAll

noncomputable section

namespace Cert.PreReal

open Idealize.ShloMosaic Idealize.SL.Sem
open Cert.LibReal

/-- The shape of rank zero has one index. -/
instance subsingleton_S_ : Subsingleton (Cert.Pre_finite_inputs.S_).Idx := ⟨fun _ _ => funext fun d => d.elim0⟩

/-- An extended real whose absolute value is below +∞ is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | top => simp [Ideal.cmp] at h'
  | coe r => exact ⟨r, rfl⟩

/-- An array all of whose elements have absolute value below +∞ (the conjunction over all elements being
    true) is an array of reals. -/
theorem isReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) : IsReal x := by
  intro i
  exact real_of_abs_lt_inf (x i) (Host.reduce_andi_all _ _ hr hu j e i)

section Decode
open Cert.Pre_finite_inputs
variable [Cert.Pre_finite_inputs.Facts]

/-- The finiteness predicate being true says that each of the eight float arrays is an array of reals. -/
theorem fn_real (a0 : FVec Ideal S50000x64 .f32) (a1 a2 : IVec S800000 32) (a3 : FVec Ideal S800000 .f32)
    (a4 : FVec Ideal S64x128 .f32) (a5 a6 : FVec Ideal S128 .f32) (a7 : FVec Ideal S128x256 .f32)
    (a8 a9 : FVec Ideal S256 .f32)
    (h : fn (F := Ideal) a0 a1 a2 a3 a4 a5 a6 a7 a8 a9 = fun _ => 1#1) :
    IsReal a0 ∧ IsReal a3 ∧ IsReal a4 ∧ IsReal a5 ∧ IsReal a6 ∧ IsReal a7 ∧ IsReal a8 ∧ IsReal a9 := by
  have e := congrFun h ValueIdx.ix0
  dsimp only [fn, fn_part1, fn_part2] at e
  simp only [andi, IntOp.andi_eq_one] at e
  obtain ⟨⟨⟨⟨⟨⟨⟨h0, h3⟩, h4⟩, h5⟩, h6⟩, h7⟩, h8⟩, h9⟩ := e
  exact ⟨isReal_of_all_finite _ _ _ _ _ h0, isReal_of_all_finite _ _ _ _ _ h3, isReal_of_all_finite _ _ _ _ _ h4,
    isReal_of_all_finite _ _ _ _ _ h5, isReal_of_all_finite _ _ _ _ _ h6, isReal_of_all_finite _ _ _ _ _ h7,
    isReal_of_all_finite _ _ _ _ _ h8, isReal_of_all_finite _ _ _ _ _ h9⟩

end Decode

section Memory
variable [Cert.Pre_finite_inputs.Facts]
variable (m : (ℓ : Loc Cert.KernelIdeal.nD Cert.KernelIdeal.τ Cert.KernelIdeal.sig) → Buf (Elt Ideal) ℓ)

/-- Under the precondition every float argument array of the kernel program holds real numbers, on every device. -/
theorem pre_real (h : Cert.Pre_KernelIdeal m) (c : Dev Cert.KernelIdeal.nD) :
    IsReal (m ((c.tc : Thread Cert.KernelIdeal.nD Cert.KernelIdeal.τ).loc Cert.KernelIdeal.main_arg0) : FVec Ideal Cert.Pre_finite_inputs.S50000x64 .f32)
    ∧ IsReal (m ((c.tc : Thread Cert.KernelIdeal.nD Cert.KernelIdeal.τ).loc Cert.KernelIdeal.main_arg3) : FVec Ideal Cert.Pre_finite_inputs.S800000 .f32)
    ∧ IsReal (m ((c.tc : Thread Cert.KernelIdeal.nD Cert.KernelIdeal.τ).loc Cert.KernelIdeal.main_arg4) : FVec Ideal Cert.Pre_finite_inputs.S64x128 .f32)
    ∧ IsReal (m ((c.tc : Thread Cert.KernelIdeal.nD Cert.KernelIdeal.τ).loc Cert.KernelIdeal.main_arg5) : FVec Ideal Cert.Pre_finite_inputs.S128 .f32)
    ∧ IsReal (m ((c.tc : Thread Cert.KernelIdeal.nD Cert.KernelIdeal.τ).loc Cert.KernelIdeal.main_arg6) : FVec Ideal Cert.Pre_finite_inputs.S128 .f32)
    ∧ IsReal (m ((c.tc : Thread Cert.KernelIdeal.nD Cert.KernelIdeal.τ).loc Cert.KernelIdeal.main_arg7) : FVec Ideal Cert.Pre_finite_inputs.S128x256 .f32)
    ∧ IsReal (m ((c.tc : Thread Cert.KernelIdeal.nD Cert.KernelIdeal.τ).loc Cert.KernelIdeal.main_arg8) : FVec Ideal Cert.Pre_finite_inputs.S256 .f32)
    ∧ IsReal (m ((c.tc : Thread Cert.KernelIdeal.nD Cert.KernelIdeal.τ).loc Cert.KernelIdeal.main_arg9) : FVec Ideal Cert.Pre_finite_inputs.S256 .f32) :=
  fn_real _ _ _ _ _ _ _ _ _ _ (h c)

/-- Argument 0 (50000 × 64 floats) holds real numbers. -/
theorem arg0_real (h : Cert.Pre_KernelIdeal m) (c : Dev Cert.KernelIdeal.nD) :
    IsReal (m ((c.tc : Thread Cert.KernelIdeal.nD Cert.KernelIdeal.τ).loc Cert.KernelIdeal.main_arg0) : FVec Ideal Cert.Pre_finite_inputs.S50000x64 .f32) :=
  (pre_real m h c).1

/-- Argument 3 (800000 floats) holds real numbers. -/
theorem arg3_real (h : Cert.Pre_KernelIdeal m) (c : Dev Cert.KernelIdeal.nD) :
    IsReal (m ((c.tc : Thread Cert.KernelIdeal.nD Cert.KernelIdeal.τ).loc Cert.KernelIdeal.main_arg3) : FVec Ideal Cert.Pre_finite_inputs.S800000 .f32) :=
  (pre_real m h c).2.1

/-- Argument 4 (64 × 128 floats) holds real numbers. -/
theorem arg4_real (h : Cert.Pre_KernelIdeal m) (c : Dev Cert.KernelIdeal.nD) :
    IsReal (m ((c.tc : Thread Cert.KernelIdeal.nD Cert.KernelIdeal.τ).loc Cert.KernelIdeal.main_arg4) : FVec Ideal Cert.Pre_finite_inputs.S64x128 .f32) :=
  (pre_real m h c).2.2.1

/-- Argument 5 (128 floats) holds real numbers. -/
theorem arg5_real (h : Cert.Pre_KernelIdeal m) (c : Dev Cert.KernelIdeal.nD) :
    IsReal (m ((c.tc : Thread Cert.KernelIdeal.nD Cert.KernelIdeal.τ).loc Cert.KernelIdeal.main_arg5) : FVec Ideal Cert.Pre_finite_inputs.S128 .f32) :=
  (pre_real m h c).2.2.2.1

/-- Argument 6 (128 floats) holds real numbers. -/
theorem arg6_real (h : Cert.Pre_KernelIdeal m) (c : Dev Cert.KernelIdeal.nD) :
    IsReal (m ((c.tc : Thread Cert.KernelIdeal.nD Cert.KernelIdeal.τ).loc Cert.KernelIdeal.main_arg6) : FVec Ideal Cert.Pre_finite_inputs.S128 .f32) :=
  (pre_real m h c).2.2.2.2.1

/-- Argument 7 (128 × 256 floats) holds real numbers. -/
theorem arg7_real (h : Cert.Pre_KernelIdeal m) (c : Dev Cert.KernelIdeal.nD) :
    IsReal (m ((c.tc : Thread Cert.KernelIdeal.nD Cert.KernelIdeal.τ).loc Cert.KernelIdeal.main_arg7) : FVec Ideal Cert.Pre_finite_inputs.S128x256 .f32) :=
  (pre_real m h c).2.2.2.2.2.1

/-- Argument 8 (256 floats) holds real numbers. -/
theorem arg8_real (h : Cert.Pre_KernelIdeal m) (c : Dev Cert.KernelIdeal.nD) :
    IsReal (m ((c.tc : Thread Cert.KernelIdeal.nD Cert.KernelIdeal.τ).loc Cert.KernelIdeal.main_arg8) : FVec Ideal Cert.Pre_finite_inputs.S256 .f32) :=
  (pre_real m h c).2.2.2.2.2.2.1

/-- Argument 9 (256 floats) holds real numbers. -/
theorem arg9_real (h : Cert.Pre_KernelIdeal m) (c : Dev Cert.KernelIdeal.nD) :
    IsReal (m ((c.tc : Thread Cert.KernelIdeal.nD Cert.KernelIdeal.τ).loc Cert.KernelIdeal.main_arg9) : FVec Ideal Cert.Pre_finite_inputs.S256 .f32) :=
  (pre_real m h c).2.2.2.2.2.2.2

end Memory

end Cert.PreReal

end
-- ==== Proof.RefIndex.lean ====
/-
  The reference's stages read at an index, at the exact values.

  Each stage of the reference is a composition of array operations; here each is read at one entry. The feature
  product at (i, q) is the sum over k of x(i, k) · w(k, q). Batch normalization of the rectified array g at (i, q) is
  γ(q) (max(g(i, q), 0) - mean(q)) / √(var(q) + ε) + β(q) with mean(q) and var(q) the two moments of column q of
  max(g, 0): the reference computes the variance as the mean of the squared deviations from the mean, which for real
  numbers is the mean of the squares minus the square of the mean. And every stage of arrays of real numbers is an
  array of real numbers, whatever the integer index arrays are.
-/
import proofs.«169836_j481036337853_1_alg».proof.Proof.RefRun
import proofs.«169836_j481036337853_1_alg».proof.Proof.LibReal
import proofs.«169836_j481036337853_1_alg».proof.Proof.Moments
import Idealize.ShloMosaic.Lib.KernelVsHost
import Idealize.ShloMosaic.Lib.ValueIdx
import Idealize.ShloMosaic.PureOps.Ideal.Laws

set_option maxRecDepth 16384

noncomputable section

namespace Cert.RefIndex

open Cert.ReferenceIdeal Cert.ReferenceIdeal.Gen Cert.ReferenceIdeal.RefRun
open Idealize.ShloMosaic Idealize.ShloMosaic.ValueIdx
open Cert.LibReal Cert.Moments
open scoped BigOperators

/-! ## Reading broadcasts at an index -/

section Bcast
variable {α : Type}

/-- A vector of n entries laid along one row and that row repeated down m rows, read at (i, q), is the vector at q. -/
theorem bcast_rows_apply {m n : Nat} (hb1 : (⟨1, ![n]⟩ : Shape).BroadcastsInDim ⟨2, ![1, n]⟩ ![1])
    (hb2 : (⟨2, ![1, n]⟩ : Shape).BroadcastsInDim ⟨2, ![m, n]⟩ ![0, 1]) (v : (⟨1, ![n]⟩ : Shape).Idx → α) (i : Fin m)
    (q : Fin n) :
    broadcastInDim ⟨2, ![m, n]⟩ ![0, 1] hb2 (broadcastInDim ⟨2, ![1, n]⟩ ![1] hb1 v) (ix2 i q) = v (ix1 q) := by
  rw [broadcastInDim_oneRow_apply]
  refine broadcastInDim_apply ![1] hb1 v (ix2 (0 : Fin 1) q) (ix1 q) ?_
  intro a
  match a with
  | ⟨0, _⟩ =>
    show q.val = if n = 1 then 0 else q.val
    split
    · have := q.isLt; omega
    · rfl

/-- A vector of n entries laid along one row, read at (0, q), is the vector at q. -/
theorem bcast_row_apply {n : Nat} (hb1 : (⟨1, ![n]⟩ : Shape).BroadcastsInDim ⟨2, ![1, n]⟩ ![1])
    (v : (⟨1, ![n]⟩ : Shape).Idx → α) (q : Fin n) :
    broadcastInDim ⟨2, ![1, n]⟩ ![1] hb1 v (ix2 (0 : Fin 1) q) = v (ix1 q) := by
  refine broadcastInDim_apply ![1] hb1 v (ix2 (0 : Fin 1) q) (ix1 q) ?_
  intro a
  match a with
  | ⟨0, _⟩ =>
    show q.val = if n = 1 then 0 else q.val
    split
    · have := q.isLt; omega
    · rfl

/-- A scalar spread over any shape, read anywhere, is the scalar. -/
theorem bcast_scalar_apply {t : Shape} (hb : (⟨0, ![]⟩ : Shape).BroadcastsInDim t (![] : Fin 0 → Fin t.rank))
    (c : (⟨0, ![]⟩ : Shape).Idx → α) (j : t.Idx) : broadcastInDim t ![] hb c j = c ix0 :=
  broadcastInDim_apply ![] hb c j ix0 fun a => a.elim0

end Bcast

/-! ## Layer 1: the matrix product at an index -/

abbrev DR1 := dot_S50000x64_S64x128_S50000x128_1_0_0_1_n_n

/-- The left operand's row coordinate at a contraction index is the output's row. -/
theorem lhs1_0 (i : S50000x128.Idx) (k : DR1.contr.Idx) : (DR1.lhsIdx i k 0).val = (i 0).val := by
  unfold DotDims.lhsIdx
  rw [dif_neg (show ¬(0 : Fin S50000x64.rank) ∈ DR1.lhsBatch by decide),
    dif_pos (show (0 : Fin S50000x64.rank) ∈ DR1.lhsNonContracting by decide)]
  rfl
/-- The left operand's column coordinate is the contraction index. -/
theorem lhs1_1 (i : S50000x128.Idx) (k : DR1.contr.Idx) : (DR1.lhsIdx i k 1).val = (k ⟨0, by decide⟩).val :=
  DR1.lhsIdx_val_of_single rfl i k
/-- The right operand's row coordinate is the contraction index. -/
theorem rhs1_0 (i : S50000x128.Idx) (k : DR1.contr.Idx) : (DR1.rhsIdx i k 0).val = (k ⟨0, by decide⟩).val :=
  DR1.rhsIdx_val_of_single rfl i k
/-- The right operand's column coordinate is the output's column. -/
theorem rhs1_1 (i : S50000x128.Idx) (k : DR1.contr.Idx) : (DR1.rhsIdx i k 1).val = (i 1).val := by
  unfold DotDims.rhsIdx
  rw [dif_neg (show ¬(1 : Fin S64x128.rank) ∈ DR1.rhsBatch by decide),
    dif_pos (show (1 : Fin S64x128.rank) ∈ DR1.rhsNonContracting by decide)]
  rfl

/-- (R1, layer 1) The feature product at (i, q) is the sum over the 64 contracted coordinates of x(i, k) · w(k, q). -/
theorem support1_apply (x : FVec Ideal S50000x64 .f32) (w : FVec Ideal S64x128 .f32) (i : Fin 50000) (q : Fin 128) :
    support1 (F := Ideal) x w (ix2 i q) = ∑ k : Fin 64, x (ix2 i k) * w (ix2 k q) := by
  unfold support1
  refine (Ideal.dotGeneral_apply DR1 none .single x w (ix2 i q)).trans ?_
  rw [← Equiv.sum_comp (contrEquiv1 DR1 64 rfl rfl).symm]
  refine Finset.sum_congr rfl fun k _ => ?_
  have hk := contrEquiv1_symm_val DR1 64 rfl rfl k
  have el : DR1.lhsIdx (ix2 i q) ((contrEquiv1 DR1 64 rfl rfl).symm k) = ix2 i k :=
    funext fun a => Fin.ext (by
      match a with
      | ⟨0, _⟩ => exact lhs1_0 _ _
      | ⟨1, _⟩ => exact (lhs1_1 _ _).trans hk)
  have er : DR1.rhsIdx (ix2 i q) ((contrEquiv1 DR1 64 rfl rfl).symm k) = ix2 k q :=
    funext fun a => Fin.ext (by
      match a with
      | ⟨0, _⟩ => exact (rhs1_0 _ _).trans hk
      | ⟨1, _⟩ => exact rhs1_1 _ _)
  rw [el, er]

/-! ## Layer 1: the column sum at an index -/

/-- The 50000 × 128 shape reduces along its rows to 128. -/
theorem red1 : S50000x128.Reduces [0] S128 := by decide

/-- The host's column sum at q: the initial value plus the sum over the 50000 rows. -/
theorem colsum1_apply (r : FVec Ideal S50000x128 .f32) (init : FVec Ideal S_ .f32) (q : Fin 128) :
    Host.reduceAdd r init reducesTo_S50000x128_S128_d0 h_S_ (ix1 q) = init ix0 + ∑ k : Fin 50000, r (ix2 k q) := by
  show Ideal.hostReduceAdd reducesTo_S50000x128_S128_d0 r (init (Shape.Idx.first h_S_)) (ix1 q) = _
  rw [Ideal.hostReduceAdd_single reducesTo_S50000x128_S128_d0 red1, show Shape.Idx.first h_S_ = ix0 from eq_ix0 _]
  refine congrArg (init ix0 + ·) (Finset.sum_congr rfl fun k _ => congrArg r ?_)
  funext a
  match a with
  | ⟨0, _⟩ => rfl
  | ⟨1, _⟩ => rfl

/-! ## Layer 1: the rectifier, the mean, the variance and the normalization at an index -/

/-- Adding the zero constant on the left changes nothing. -/
theorem c0_add (x : EReal) : c0 + x = x := by rw [c0_eq, zero_add]

/-- The rectifier at an index: the maximum with zero. -/
theorem relu1_apply (g : FVec Ideal S50000x128 .f32) (j : S50000x128.Idx) : relu1 (F := Ideal) g j = max (g j) c0 := rfl

/-- The column mean at q: the column sum over 50000. -/
theorem mean1_apply (r : FVec Ideal S50000x128 .f32) (q : Fin 128) :
    mean1 (F := Ideal) r (ix1 q) = Ideal.div (∑ k : Fin 50000, r (ix2 k q)) cN := by
  unfold mean1
  show Ideal.div (Host.reduceAdd r (constant S_ .f32 0x00000000#32) reducesTo_S50000x128_S128_d0 h_S_ (ix1 q)) cN = _
  rw [colsum1_apply]
  exact congrArg (Ideal.div · cN) (c0_add _)

/-- The column mean of the rectified array is the first moment. -/
theorem mean1_relu1 (g : FVec Ideal S50000x128 .f32) (q : Fin 128) :
    mean1 (F := Ideal) (relu1 (F := Ideal) g) (ix1 q) = mom1 g q := mean1_apply _ q

/-- The divisor 50000 - 0 is 50000. -/
theorem denom_apply (j : S_.Idx) : denom (F := Ideal) j = cN := by
  show cN - (((0#32 : BitVec 32).toInt : ℝ) : EReal) = cN
  have h : (((0#32 : BitVec 32).toInt : ℝ) : EReal) = 0 := by simp
  rw [h, sub_zero]

/-- The deviation from the column mean at (k, q). -/
theorem dev1_apply (r : FVec Ideal S50000x128 .f32) (k : Fin 50000) (q : Fin 128) :
    dev1 (F := Ideal) r (ix2 k q) = r (ix2 k q) - Ideal.div (∑ k' : Fin 50000, r (ix2 k' q)) cN := by
  unfold dev1
  refine congrArg (r (ix2 k q) - ·) ?_
  rw [broadcastInDim_oneRow_apply]
  show Ideal.div (broadcastInDim S1x128 ![1] bcast_S128_S1x128_1
    (Host.reduceAdd r (constant S_ .f32 0x00000000#32) reducesTo_S50000x128_S128_d0 h_S_) (ix2 (0 : Fin 1) q)) cN = _
  rw [bcast_row_apply, colsum1_apply]
  exact congrArg (Ideal.div · cN) (c0_add _)

/-- The guarded column variance at q: the sum of the squared deviations over 50000 (the guard 50000 > 0 holds). -/
theorem var1_apply (r : FVec Ideal S50000x128 .f32) (q : Fin 128) :
    var1 (F := Ideal) r (ix1 q)
      = Ideal.div (∑ k : Fin 50000, dev1 (F := Ideal) r (ix2 k q) * dev1 (F := Ideal) r (ix2 k q)) cN := by
  unfold var1
  rw [select_apply]
  show Scalar.select (broadcastInDim S128 ![] bcast_S_S128 (cmpf (F := Ideal) .ogt (denom (F := Ideal) : FVec Ideal S_ .f32) (constant S_ .f32 0x00000000#32)) (ix1 q))
      (Ideal.div (Host.reduceAdd (F := Ideal) (mulf (dev1 (F := Ideal) r : FVec Ideal S50000x128 .f32) (dev1 (F := Ideal) r))
        (constant S_ .f32 0x00000000#32) reducesTo_S50000x128_S128_d0 h_S_ (ix1 q))
        (broadcastInDim S128 ![] bcast_S_S128 (denom (F := Ideal) : FVec Ideal S_ .f32) (ix1 q))) _ = _
  rw [bcast_scalar_apply, bcast_scalar_apply]
  show Scalar.select (Ideal.cmp .ogt (denom (F := Ideal) ix0) c0) _ _ = _
  rw [denom_apply, cN_eq, c0_eq, cmp_ogt_zero_of_pos (by norm_num : (0 : ℝ) < 50000), select_one, colsum1_apply,
    constant_apply, ofBits_zero, zero_add]
  rfl

/-- The column variance of the rectified array of reals is the second moment. -/
theorem var1_relu1 (g : FVec Ideal S50000x128 .f32) (hg : IsReal g) (q : Fin 128) :
    var1 (F := Ideal) (relu1 (F := Ideal) g) (ix1 q) = mom2 g q := by
  rw [var1_apply, ← centered_eq_mom2 hg q]
  refine congrArg (Ideal.div · cN) (Finset.sum_congr rfl fun k _ => ?_)
  rw [dev1_apply]
  rfl

/-- The normalization at (i, q), for any mean and variance vectors. -/
theorem norm1_apply (r : FVec Ideal S50000x128 .f32) (mu v gamma beta : FVec Ideal S128 .f32) (i : Fin 50000) (q : Fin 128) :
    norm1 (F := Ideal) r mu v gamma beta (ix2 i q)
      = gamma (ix1 q) * (r (ix2 i q) - mu (ix1 q)) * Ideal.rsqrt (v (ix1 q) + cε) + beta (ix1 q) := by
  unfold norm1
  show (broadcastInDim S50000x128 ![0, 1] bcast_S1x128_S50000x128_0_1 (broadcastInDim S1x128 ![1] bcast_S128_S1x128_1 gamma) (ix2 i q)
      * (r (ix2 i q) - broadcastInDim S50000x128 ![0, 1] bcast_S1x128_S50000x128_0_1 (broadcastInDim S1x128 ![1] bcast_S128_S1x128_1 mu) (ix2 i q)))
      * broadcastInDim S50000x128 ![0, 1] bcast_S1x128_S50000x128_0_1 (broadcastInDim S1x128 ![1] bcast_S128_S1x128_1
          (Host.rsqrt (addf v (broadcastInDim S128 ![] bcast_S_S128 (constant (F := Ideal) S_ .f32 0x3727C5AC#32))))) (ix2 i q)
      + broadcastInDim S50000x128 ![0, 1] bcast_S1x128_S50000x128_0_1 (broadcastInDim S1x128 ![1] bcast_S128_S1x128_1 beta) (ix2 i q) = _
  rw [bcast_rows_apply, bcast_rows_apply, bcast_rows_apply, bcast_rows_apply]
  rfl

/-- (R2, layer 1) Batch normalization of the rectified array of reals at (i, q) is the normalised entry against the
    column's two moments. -/
theorem bn1_relu1_apply (g : FVec Ideal S50000x128 .f32) (hg : IsReal g) (gamma beta : FVec Ideal S128 .f32)
    (i : Fin 50000) (q : Fin 128) :
    bn1 (F := Ideal) (relu1 (F := Ideal) g) gamma beta (ix2 i q)
      = normEntry (g (ix2 i q)) (mom1 g q) (mom2 g q) (gamma (ix1 q)) (beta (ix1 q)) := by
  unfold bn1
  rw [norm1_apply, mean1_relu1, var1_relu1 g hg]
  rfl

/-! ## Layer 1: every stage of reals is real -/

/-- (R3) The feature product of arrays of reals is an array of reals. -/
theorem support1_real {x : FVec Ideal S50000x64 .f32} {w : FVec Ideal S64x128 .f32} (hx : IsReal x) (hw : IsReal w) :
    IsReal (support1 (F := Ideal) x w) :=
  IsReal.host_dotGeneral _ _ hx hw

/-- (R3) The edge aggregation of an array of reals with real edge weights is an array of reals, for every pair of
    integer index arrays: a gather, a product with the spread edge weights, and an accumulating scatter into zeros. -/
theorem agg1_real {s : FVec Ideal S50000x128 .f32} (hs : IsReal s) (src dst : IVec S800000 32)
    {w : FVec Ideal S800000 .f32} (hw : IsReal w) : IsReal (agg1 (F := Ideal) s src dst w) :=
  IsReal.host_scatterAdd _ ((isReal_constant_zero S_).broadcastInDim _ _ _) _
    ((hs.gather _ _).mulf ((hw.broadcastInDim _ _ _).broadcastInDim _ _ _))

/-- The rectified array of reals is an array of reals. -/
theorem relu1_real {g : FVec Ideal S50000x128 .f32} (hg : IsReal g) : IsReal (relu1 (F := Ideal) g) :=
  hg.maximumf ((isReal_constant_zero S_).broadcastInDim _ _ _)

/-- (R3) Batch normalization of the rectified array of reals, with real scale and shift, is an array of reals. -/
theorem bn1_relu1_real {g : FVec Ideal S50000x128 .f32} (hg : IsReal g) {gamma beta : FVec Ideal S128 .f32}
    (hγ : IsReal gamma) (hβ : IsReal beta) : IsReal (bn1 (F := Ideal) (relu1 (F := Ideal) g) gamma beta) := by
  intro j
  obtain ⟨i, q, rfl⟩ : ∃ (i : Fin 50000) (q : Fin 128), j = ix2 i q := ⟨j 0, j 1, eq_ix2 j⟩
  rw [bn1_relu1_apply g hg]
  exact normEntry_mom_real hg i q (hγ _) (hβ _)

/-! ## Layer 2: the matrix product at an index -/

abbrev DR2 := dot_S50000x128_S128x256_S50000x256_1_0_0_1_n_n

/-- The left operand's row coordinate at a contraction index is the output's row. -/
theorem lhs2_0 (i : S50000x256.Idx) (k : DR2.contr.Idx) : (DR2.lhsIdx i k 0).val = (i 0).val := by
  unfold DotDims.lhsIdx
  rw [dif_neg (show ¬(0 : Fin S50000x128.rank) ∈ DR2.lhsBatch by decide),
    dif_pos (show (0 : Fin S50000x128.rank) ∈ DR2.lhsNonContracting by decide)]
  rfl
/-- The left operand's column coordinate is the contraction index. -/
theorem lhs2_1 (i : S50000x256.Idx) (k : DR2.contr.Idx) : (DR2.lhsIdx i k 1).val = (k ⟨0, by decide⟩).val :=
  DR2.lhsIdx_val_of_single rfl i k
/-- The right operand's row coordinate is the contraction index. -/
theorem rhs2_0 (i : S50000x256.Idx) (k : DR2.contr.Idx) : (DR2.rhsIdx i k 0).val = (k ⟨0, by decide⟩).val :=
  DR2.rhsIdx_val_of_single rfl i k
/-- The right operand's column coordinate is the output's column. -/
theorem rhs2_1 (i : S50000x256.Idx) (k : DR2.contr.Idx) : (DR2.rhsIdx i k 1).val = (i 1).val := by
  unfold DotDims.rhsIdx
  rw [dif_neg (show ¬(1 : Fin S128x256.rank) ∈ DR2.rhsBatch by decide),
    dif_pos (show (1 : Fin S128x256.rank) ∈ DR2.rhsNonContracting by decide)]
  rfl

/-- (R1, layer 2) The feature product at (i, q) is the sum over the 128 contracted coordinates of x(i, k) · w(k, q). -/
theorem support2_apply (x : FVec Ideal S50000x128 .f32) (w : FVec Ideal S128x256 .f32) (i : Fin 50000) (q : Fin 256) :
    support2 (F := Ideal) x w (ix2 i q) = ∑ k : Fin 128, x (ix2 i k) * w (ix2 k q) := by
  unfold support2
  refine (Ideal.dotGeneral_apply DR2 none .single x w (ix2 i q)).trans ?_
  rw [← Equiv.sum_comp (contrEquiv1 DR2 128 rfl rfl).symm]
  refine Finset.sum_congr rfl fun k _ => ?_
  have hk := contrEquiv1_symm_val DR2 128 rfl rfl k
  have el : DR2.lhsIdx (ix2 i q) ((contrEquiv1 DR2 128 rfl rfl).symm k) = ix2 i k :=
    funext fun a => Fin.ext (by
      match a with
      | ⟨0, _⟩ => exact lhs2_0 _ _
      | ⟨1, _⟩ => exact (lhs2_1 _ _).trans hk)
  have er : DR2.rhsIdx (ix2 i q) ((contrEquiv1 DR2 128 rfl rfl).symm k) = ix2 k q :=
    funext fun a => Fin.ext (by
      match a with
      | ⟨0, _⟩ => exact (rhs2_0 _ _).trans hk
      | ⟨1, _⟩ => exact rhs2_1 _ _)
  rw [el, er]

/-! ## Layer 2: the column sum at an index -/

/-- The 50000 × 256 shape reduces along its rows to 256. -/
theorem red2 : S50000x256.Reduces [0] S256 := by decide

/-- The host's column sum at q: the initial value plus the sum over the 50000 rows. -/
theorem colsum2_apply (r : FVec Ideal S50000x256 .f32) (init : FVec Ideal S_ .f32) (q : Fin 256) :
    Host.reduceAdd r init reducesTo_S50000x256_S256_d0 h_S_ (ix1 q) = init ix0 + ∑ k : Fin 50000, r (ix2 k q) := by
  show Ideal.hostReduceAdd reducesTo_S50000x256_S256_d0 r (init (Shape.Idx.first h_S_)) (ix1 q) = _
  rw [Ideal.hostReduceAdd_single reducesTo_S50000x256_S256_d0 red2, show Shape.Idx.first h_S_ = ix0 from eq_ix0 _]
  refine congrArg (init ix0 + ·) (Finset.sum_congr rfl fun k _ => congrArg r ?_)
  funext a
  match a with
  | ⟨0, _⟩ => rfl
  | ⟨1, _⟩ => rfl

/-! ## Layer 2: the rectifier, the mean, the variance and the normalization at an index -/

/-- The rectifier at an index: the maximum with zero. -/
theorem relu2_apply (g : FVec Ideal S50000x256 .f32) (j : S50000x256.Idx) : relu2 (F := Ideal) g j = max (g j) c0 := rfl

/-- The column mean at q: the column sum over 50000. -/
theorem mean2_apply (r : FVec Ideal S50000x256 .f32) (q : Fin 256) :
    mean2 (F := Ideal) r (ix1 q) = Ideal.div (∑ k : Fin 50000, r (ix2 k q)) cN := by
  unfold mean2
  show Ideal.div (Host.reduceAdd r (constant S_ .f32 0x00000000#32) reducesTo_S50000x256_S256_d0 h_S_ (ix1 q)) cN = _
  rw [colsum2_apply]
  exact congrArg (Ideal.div · cN) (c0_add _)

/-- The column mean of the rectified array is the first moment. -/
theorem mean2_relu2 (g : FVec Ideal S50000x256 .f32) (q : Fin 256) :
    mean2 (F := Ideal) (relu2 (F := Ideal) g) (ix1 q) = mom1 g q := mean2_apply _ q

/-- The deviation from the column mean at (k, q). -/
theorem dev2_apply (r : FVec Ideal S50000x256 .f32) (k : Fin 50000) (q : Fin 256) :
    dev2 (F := Ideal) r (ix2 k q) = r (ix2 k q) - Ideal.div (∑ k' : Fin 50000, r (ix2 k' q)) cN := by
  unfold dev2
  refine congrArg (r (ix2 k q) - ·) ?_
  rw [broadcastInDim_oneRow_apply]
  show Ideal.div (broadcastInDim S1x256 ![1] bcast_S256_S1x256_1
    (Host.reduceAdd r (constant S_ .f32 0x00000000#32) reducesTo_S50000x256_S256_d0 h_S_) (ix2 (0 : Fin 1) q)) cN = _
  rw [bcast_row_apply, colsum2_apply]
  exact congrArg (Ideal.div · cN) (c0_add _)

/-- The guarded column variance at q: the sum of the squared deviations over 50000 (the guard 50000 > 0 holds). -/
theorem var2_apply (r : FVec Ideal S50000x256 .f32) (q : Fin 256) :
    var2 (F := Ideal) r (ix1 q)
      = Ideal.div (∑ k : Fin 50000, dev2 (F := Ideal) r (ix2 k q) * dev2 (F := Ideal) r (ix2 k q)) cN := by
  unfold var2
  rw [select_apply]
  show Scalar.select (broadcastInDim S256 ![] bcast_S_S256 (cmpf (F := Ideal) .ogt (denom (F := Ideal) : FVec Ideal S_ .f32) (constant S_ .f32 0x00000000#32)) (ix1 q))
      (Ideal.div (Host.reduceAdd (F := Ideal) (mulf (dev2 (F := Ideal) r : FVec Ideal S50000x256 .f32) (dev2 (F := Ideal) r))
        (constant S_ .f32 0x00000000#32) reducesTo_S50000x256_S256_d0 h_S_ (ix1 q))
        (broadcastInDim S256 ![] bcast_S_S256 (denom (F := Ideal) : FVec Ideal S_ .f32) (ix1 q))) _ = _
  rw [bcast_scalar_apply, bcast_scalar_apply]
  show Scalar.select (Ideal.cmp .ogt (denom (F := Ideal) ix0) c0) _ _ = _
  rw [denom_apply, cN_eq, c0_eq, cmp_ogt_zero_of_pos (by norm_num : (0 : ℝ) < 50000), select_one, colsum2_apply,
    constant_apply, ofBits_zero, zero_add]
  rfl

/-- The column variance of the rectified array of reals is the second moment. -/
theorem var2_relu2 (g : FVec Ideal S50000x256 .f32) (hg : IsReal g) (q : Fin 256) :
    var2 (F := Ideal) (relu2 (F := Ideal) g) (ix1 q) = mom2 g q := by
  rw [var2_apply, ← centered_eq_mom2 hg q]
  refine congrArg (Ideal.div · cN) (Finset.sum_congr rfl fun k _ => ?_)
  rw [dev2_apply]
  rfl

/-- The normalization at (i, q), for any mean and variance vectors. -/
theorem norm2_apply (r : FVec Ideal S50000x256 .f32) (mu v gamma beta : FVec Ideal S256 .f32) (i : Fin 50000) (q : Fin 256) :
    norm2 (F := Ideal) r mu v gamma beta (ix2 i q)
      = gamma (ix1 q) * (r (ix2 i q) - mu (ix1 q)) * Ideal.rsqrt (v (ix1 q) + cε) + beta (ix1 q) := by
  unfold norm2
  show (broadcastInDim S50000x256 ![0, 1] bcast_S1x256_S50000x256_0_1 (broadcastInDim S1x256 ![1] bcast_S256_S1x256_1 gamma) (ix2 i q)
      * (r (ix2 i q) - broadcastInDim S50000x256 ![0, 1] bcast_S1x256_S50000x256_0_1 (broadcastInDim S1x256 ![1] bcast_S256_S1x256_1 mu) (ix2 i q)))
      * broadcastInDim S50000x256 ![0, 1] bcast_S1x256_S50000x256_0_1 (broadcastInDim S1x256 ![1] bcast_S256_S1x256_1
          (Host.rsqrt (addf v (broadcastInDim S256 ![] bcast_S_S256 (constant (F := Ideal) S_ .f32 0x3727C5AC#32))))) (ix2 i q)
      + broadcastInDim S50000x256 ![0, 1] bcast_S1x256_S50000x256_0_1 (broadcastInDim S1x256 ![1] bcast_S256_S1x256_1 beta) (ix2 i q) = _
  rw [bcast_rows_apply, bcast_rows_apply, bcast_rows_apply, bcast_rows_apply]
  rfl

/-- (R2, layer 2) Batch normalization of the rectified array of reals at (i, q) is the normalised entry against the
    column's two moments. -/
theorem bn2_relu2_apply (g : FVec Ideal S50000x256 .f32) (hg : IsReal g) (gamma beta : FVec Ideal S256 .f32)
    (i : Fin 50000) (q : Fin 256) :
    bn2 (F := Ideal) (relu2 (F := Ideal) g) gamma beta (ix2 i q)
      = normEntry (g (ix2 i q)) (mom1 g q) (mom2 g q) (gamma (ix1 q)) (beta (ix1 q)) := by
  unfold bn2
  rw [norm2_apply, mean2_relu2, var2_relu2 g hg]
  rfl

/-! ## Layer 2: every stage of reals is real -/

/-- (R3) The feature product of arrays of reals is an array of reals. -/
theorem support2_real {x : FVec Ideal S50000x128 .f32} {w : FVec Ideal S128x256 .f32} (hx : IsReal x) (hw : IsReal w) :
    IsReal (support2 (F := Ideal) x w) :=
  IsReal.host_dotGeneral _ _ hx hw

/-- (R3) The edge aggregation of an array of reals with real edge weights is an array of reals, for every pair of
    integer index arrays: a gather, a product with the spread edge weights, and an accumulating scatter into zeros. -/
theorem agg2_real {s : FVec Ideal S50000x256 .f32} (hs : IsReal s) (src dst : IVec S800000 32)
    {w : FVec Ideal S800000 .f32} (hw : IsReal w) : IsReal (agg2 (F := Ideal) s src dst w) :=
  IsReal.host_scatterAdd _ ((isReal_constant_zero S_).broadcastInDim _ _ _) _
    ((hs.gather _ _).mulf ((hw.broadcastInDim _ _ _).broadcastInDim _ _ _))

/-- The rectified array of reals is an array of reals. -/
theorem relu2_real {g : FVec Ideal S50000x256 .f32} (hg : IsReal g) : IsReal (relu2 (F := Ideal) g) :=
  hg.maximumf ((isReal_constant_zero S_).broadcastInDim _ _ _)

/-- (R3) Batch normalization of the rectified array of reals, with real scale and shift, is an array of reals. -/
theorem bn2_relu2_real {g : FVec Ideal S50000x256 .f32} (hg : IsReal g) {gamma beta : FVec Ideal S256 .f32}
    (hγ : IsReal gamma) (hβ : IsReal beta) : IsReal (bn2 (F := Ideal) (relu2 (F := Ideal) g) gamma beta) := by
  intro j
  obtain ⟨i, q, rfl⟩ : ∃ (i : Fin 50000) (q : Fin 256), j = ix2 i q := ⟨j 0, j 1, eq_ix2 j⟩
  rw [bn2_relu2_apply g hg]
  exact normEntry_mom_real hg i q (hγ _) (hβ _)

end Cert.RefIndex

end
-- ==== Proof.Stats1Pay.lean ====
/-
  The statistics kernel's arithmetic at an entry. For a 5000 × 128 block x the body forms r = max(x, 0), sums r and r · r
  down the 5000 rows (one lane sum each), and adds the two 1 × 128 rows of sums to the two rows of the running totals
  it loaded. At the extended reals a lane sum is the plain sum over the 5000 row coordinates.
-/
import proofs.«169836_j481036337853_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Stats1

open Idealize.ShloMosaic Idealize.ShloMosaic.ValueIdx
open Cert.KernelIdeal Cert.KernelIdeal.Gen

/-- The floor of the rectifier, as the body splats it. -/
abbrev c0 : EReal := (Scalar.ofBits (F := Ideal) .f32 0x00000000#32 : Ideal .f32)

/-- Column q's sum of the rectified block. -/
def colsum (x : S5000x128.Idx → EReal) (q : Fin 128) : EReal := ∑ y : Fin 5000, max (x (ix2 y q)) c0
/-- Column q's sum of the squares of the rectified block. -/
def colsq (x : S5000x128.Idx → EReal) (q : Fin 128) : EReal := ∑ y : Fin 5000, max (x (ix2 y q)) c0 * max (x (ix2 y q)) c0

/-- The rectified block at an entry. -/
theorem relu_apply (x : Vec Ideal S5000x128 .f32) (y : Fin 5000) (q : Fin 128) :
    k1_pay2 (F := Ideal) x (ix2 y q) = max (x (ix2 y q)) c0 := by
  unfold k1_pay2
  rw [shapeCast_self]
  rfl

/-- Inserting row coordinate k into the column index q names entry (k, q). -/
theorem lift_eq (q : Fin 128) (k : Fin (S5000x128.size 0)) :
    reduces_S5000x128_S128.lift (ix1 q) k = ix2 (n0 := 5000) (n1 := 128) k q := by
  funext a
  match a with
  | ⟨0, _⟩ => rfl
  | ⟨1, _⟩ => rfl

/-- A 128-vector recast as one row, read at (0, q). -/
theorem row_cast_apply (v : FVec Ideal S128 .f32) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans ?_
  refine congrArg v (funext fun a => ?_)
  match a with
  | ⟨0, _⟩ => rfl

/-- The first running total's update at (0, q): the loaded total plus the column's sum. -/
theorem pay3_apply (x : Vec Ideal S5000x128 .f32) (v12 : Vec Ideal S1x128 .f32) (q : Fin 128) :
    k1_pay3 (F := Ideal) x v12 (ix2 (0 : Fin 1) q) = v12 (ix2 (0 : Fin 1) q) + colsum x q := by
  unfold k1_pay3
  rw [addf_apply, shapeCast_self, row_cast_apply]
  refine congrArg (v12 (ix2 (0 : Fin 1) q) + ·) ?_
  refine (Ideal.multiReduction_add_single (k1_pay2 (F := Ideal) x) _ reduces_S5000x128_S128 _ _ (ix1 q)).trans ?_
  unfold colsum
  refine Finset.sum_congr rfl fun k _ => ?_
  rw [lift_eq]
  exact relu_apply x k q

/-- The second running total's update at (0, q): the loaded total plus the column's sum of squares. -/
theorem pay4_apply (x : Vec Ideal S5000x128 .f32) (v16 : Vec Ideal S1x128 .f32) (q : Fin 128) :
    k1_pay4 (F := Ideal) x v16 (ix2 (0 : Fin 1) q) = v16 (ix2 (0 : Fin 1) q) + colsq x q := by
  unfold k1_pay4
  rw [addf_apply, shapeCast_self, row_cast_apply]
  refine congrArg (v16 (ix2 (0 : Fin 1) q) + ·) ?_
  refine (Ideal.multiReduction_add_single (mulf (k1_pay2 (F := Ideal) x) (k1_pay2 (F := Ideal) x)) _ reduces_S5000x128_S128 _ _ (ix1 q)).trans ?_
  unfold colsq
  refine Finset.sum_congr rfl fun k _ => ?_
  rw [lift_eq, mulf_apply]
  rw [relu_apply x k q]

/-- The reset's zero block at an entry. -/
theorem pay1_apply (j : S2x128.Idx) : k1_pay1 (F := Ideal) j = c0 := rfl

end Cert.KernelIdeal.Stats1

end
-- ==== Proof.Blocks1.lean ====
/-
  The statistics kernel, read as one array. Its 2 × 128 result block never moves and is written back after the last of the
  ten grid points only. At point 0 the body resets the block to zero; at every point it adds, to row 0, the column sums of
  max(x, 0) over the point's 5000 rows of the 50000 × 128 input and, to row 1, the column sums of max(x, 0)². So after
  point n the block holds the two running totals over rows 0 … 5000·(n + 1) − 1 (by induction on the point), and the
  result array ends at the totals over all 50000 rows: the ten blocks' sums regroup to one sum, since addition on the
  extended reals is commutative and associative and 0 is neutral.
-/
import proofs.«169836_j481036337853_1_alg».proof.Proof.KernelIdealFrameP
import Idealize.ShloMosaic.Lib.Pipeline.Value
import Idealize.ShloMosaic.Lib.ValueIdx
import Idealize.ShloMosaic.PureOps.Ideal.Laws
import Idealize.ShloMosaic.Lib.Tactic
import proofs.«169836_j481036337853_1_alg».proof.Proof.Stats1Pay
import proofs.«169836_j481036337853_1_alg».proof.Proof.LibReal
import proofs.«169836_j481036337853_1_alg».proof.Proof.Moments
set_option maxRecDepth 16384

noncomputable section

namespace Cert.KernelIdeal.Blocks1

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.KernelIdeal.GenP Cert.KernelIdeal.Stats1

/-- Row 0 of the 2 × 128 block, as the body's stores and loads name it. -/
abbrev R0 : Rect S2x128 := Rect.unit (s := S2x128) ![0, 0] ![1, 128] inb_S2x128_S1x128_0_0
/-- Row 1 of the block. -/
abbrev R1 : Rect S2x128 := Rect.unit (s := S2x128) ![1, 0] ![1, 128] inb_S2x128_S1x128_1_0

theorem emb0 (q : Fin 128) : R0.emb (ix2 (0 : Fin 1) q) = ix2 (0 : Fin 2) q := by
  funext b; apply Fin.ext
  match b with
  | ⟨0, _⟩ => rfl
  | ⟨1, _⟩ => show 0 + 1 * q.val = q.val; omega
theorem emb1 (q : Fin 128) : R1.emb (ix2 (0 : Fin 1) q) = ix2 (1 : Fin 2) q := by
  funext b; apply Fin.ext
  match b with
  | ⟨0, _⟩ => rfl
  | ⟨1, _⟩ => show 0 + 1 * q.val = q.val; omega
theorem row0_not_mem_R1 (q : Fin 128) : ix2 (0 : Fin 2) q ∉ R1.set := by
  rw [Rect.mem_set_unit]
  intro h
  exact absurd (h (0 : Fin 2)).1 (show ¬ ((1 : ℕ) ≤ 0) by decide)
theorem row1_not_mem_R0 (q : Fin 128) : ix2 (1 : Fin 2) q ∉ R0.set := by
  rw [Rect.mem_set_unit]
  intro h
  exact absurd (h (0 : Fin 2)).2 (show ¬ ((1 : ℕ) < 0 + 1) by decide)

theorem hz : (![0, 0] : Fin 2 → Nat) = fun _ => 0 := funext fun a => by fin_cases a <;> rfl

/-- Two row stores, row 1's last: entry (0, q) is the row-0 store's payload at (0, q), whatever was stored before. -/
theorem canon_row0 (w1 : R1.shape.Idx → Elt Ideal .f32) (w0 : R0.shape.Idx → Elt Ideal .f32) (L : List (View.Piece (Elt Ideal) S2x128 .f32)) (q : Fin 128) :
    View.canon (⟨R1, w1⟩ :: ⟨R0, w0⟩ :: L) (ix2 (0 : Fin 2) q) = w0 (ix2 (0 : Fin 1) q) := by
  refine (View.canon_cons_of_not_mem (⟨R1, w1⟩ : View.Piece (Elt Ideal) S2x128 .f32) (⟨R0, w0⟩ :: L) (row0_not_mem_R1 q)).trans ?_
  exact (congrArg _ (emb0 q).symm).trans (View.canon_cons_emb R0 w0 L (ix2 (0 : Fin 1) q))
/-- … and entry (1, q) is the row-1 store's payload at (0, q). -/
theorem canon_row1 (w1 : R1.shape.Idx → Elt Ideal .f32) (w0 : R0.shape.Idx → Elt Ideal .f32) (L : List (View.Piece (Elt Ideal) S2x128 .f32)) (q : Fin 128) :
    View.canon (⟨R1, w1⟩ :: ⟨R0, w0⟩ :: L) (ix2 (1 : Fin 2) q) = w1 (ix2 (0 : Fin 1) q) :=
  (congrArg _ (emb1 q).symm).trans (View.canon_cons_emb R1 w1 _ (ix2 (0 : Fin 1) q))

/-- A row index of the 2 × 128 block is 0 or 1. -/
theorem row_cases (a : Fin 2) : a = (0 : Fin 2) ∨ a = (1 : Fin 2) := by
  rcases (by have := a.isLt; omega : a.val = 0 ∨ a.val = 1) with h | h
  · exact Or.inl (Fin.ext h)
  · exact Or.inr (Fin.ext h)

/-- What one point leaves: each running total plus the point's block's column sums. -/
def acc (xo : S2x128.Idx → EReal) (x : S5000x128.Idx → EReal) : S2x128.Idx → EReal :=
  fun j => if (j 0).val = 0 then xo (ix2 (0 : Fin 2) (⟨(j 1).val, idx2_lt1 j⟩ : Fin 128)) + colsum x ⟨(j 1).val, idx2_lt1 j⟩
    else xo (ix2 (1 : Fin 2) (⟨(j 1).val, idx2_lt1 j⟩ : Fin 128)) + colsq x ⟨(j 1).val, idx2_lt1 j⟩

theorem acc_row0 (xo : S2x128.Idx → EReal) (x : S5000x128.Idx → EReal) (q : Fin 128) :
    acc xo x (ix2 (0 : Fin 2) q) = xo (ix2 (0 : Fin 2) q) + colsum x q := rfl
theorem acc_row1 (xo : S2x128.Idx → EReal) (x : S5000x128.Idx → EReal) (q : Fin 128) :
    acc xo x (ix2 (1 : Fin 2) q) = xo (ix2 (1 : Fin 2) q) + colsq x q := rfl

/-- CASE B (points 1 … 9): over the carried totals xo the body leaves xo plus the block's sums. -/
theorem out_B (c : Dev nD) (i : grid1.Coords) (a1 : Memref sig .tc .vmem S5000x128 .f32) (h1 : a1.IsWhole)
    (a2 : Memref sig .tc .vmem S2x128 .f32) (h2 : a2.IsWhole) (hc : ¬cond1_0 i) (x : Vec Ideal S5000x128 .f32) (xo : Vec Ideal S2x128 .f32) :
    out1_B_1 (F := Ideal) c i a1 h1 a2 h2 hc x xo = acc xo x := by
  unfold out1_B_1
  rw [View.read_writes_eq_canon _ _ _ (cover1_B_1 c i a1 h1 a2 h2 hc x xo)]
  unfold kernelRun1_B
  dsimp only
  sl_unfold_words
  simp only [View.readAt_eq_ld, h1.read_unread, h2.read_unread, View.ld_unit_zero (S := S5000x128) hz]
  funext j
  obtain ⟨a, q, rfl⟩ : ∃ (a : Fin 2) (q : Fin 128), j = ix2 a q := ⟨j 0, j 1, eq_ix2 j⟩
  have l0 : View.ld xo R0 (ix2 (0 : Fin 1) q) = xo (ix2 (0 : Fin 2) q) := congrArg xo (emb0 q)
  have l1 : View.ld xo R1 (ix2 (0 : Fin 1) q) = xo (ix2 (1 : Fin 2) q) := congrArg xo (emb1 q)
  rcases row_cases a with rfl | rfl
  · refine (canon_row0 _ _ [] q).trans ?_
    rw [acc_row0, pay3_apply]
    exact congrArg (· + colsum x q) l0
  · refine (canon_row1 _ _ [] q).trans ?_
    rw [acc_row1, pay4_apply]
    exact congrArg (· + colsq x q) l1

/-- The whole 2 × 128 block, as the reset's store names it. -/
abbrev RW : Rect S2x128 := Rect.unit (s := S2x128) ![0, 0] S2x128.size inb_S2x128_S2x128_0_0

theorem cover_RW1 (w : RW.shape.Idx → Elt Ideal .f32) (y : S2x128.Idx) :
    ∃ p ∈ ([⟨RW, w⟩] : List (View.Piece (Elt Ideal) S2x128 .f32)), y ∈ p.1.set :=
  ⟨⟨RW, w⟩, List.mem_singleton_self _, View.mem_set_unit_zero hz inb_S2x128_S2x128_0_0 y⟩
theorem cover_RW2 (p0 : View.Piece (Elt Ideal) S2x128 .f32) (w : RW.shape.Idx → Elt Ideal .f32) (y : S2x128.Idx) :
    ∃ p ∈ ([p0, ⟨RW, w⟩] : List (View.Piece (Elt Ideal) S2x128 .f32)), y ∈ p.1.set :=
  ⟨⟨RW, w⟩, by simp, View.mem_set_unit_zero hz inb_S2x128_S2x128_0_0 y⟩

/-- Row 0 read back from the freshly zeroed block. -/
theorem readCov_zero_row0 (v : View sig .tc .vmem S2x128 .f32) (q : Fin 128) :
    v.readCov (Val := Elt Ideal) [⟨RW, k1_pay1 (F := Ideal)⟩] R0.toLoadRect (ix2 (0 : Fin 1) q) = c0 := by
  rw [View.readCov_eq_canon_ld _ _ _ (cover_RW1 _), View.canon_unit_zero hz]
  rfl

/-- Row 1 read back after the reset and the store of row 0: still zero. -/
theorem readCov_zero_row1 (v : View sig .tc .vmem S2x128 .f32) (w : R0.shape.Idx → Elt Ideal .f32) (q : Fin 128) :
    v.readCov (Val := Elt Ideal) [⟨R0, w⟩, ⟨RW, k1_pay1 (F := Ideal)⟩] R1.toLoadRect (ix2 (0 : Fin 1) q) = c0 := by
  rw [View.readCov_eq_canon_ld _ _ _ (cover_RW2 _ _)]
  show View.canon [⟨R0, w⟩, ⟨RW, k1_pay1 (F := Ideal)⟩] (R1.emb (ix2 (0 : Fin 1) q)) = c0
  rw [emb1]
  refine (View.canon_cons_of_not_mem (⟨R0, w⟩ : View.Piece (Elt Ideal) S2x128 .f32) [⟨RW, k1_pay1 (F := Ideal)⟩] (row1_not_mem_R0 q)).trans ?_
  rw [View.canon_unit_zero hz]
  rfl

/-- The zero block. -/
abbrev zero : S2x128.Idx → EReal := fun _ => c0

/-- CASE A (point 0): the body stores the zero block, reads its rows back, and leaves zero plus the block's sums. -/
theorem out_A (c : Dev nD) (i : grid1.Coords) (a1 : Memref sig .tc .vmem S5000x128 .f32) (h1 : a1.IsWhole)
    (a2 : Memref sig .tc .vmem S2x128 .f32) (h2 : a2.IsWhole) (hc : cond1_0 i) (x : Vec Ideal S5000x128 .f32) :
    out1_A_1 (F := Ideal) c i a1 h1 a2 h2 hc x = acc zero x := by
  unfold out1_A_1
  rw [View.read_writes_eq_canon _ _ _ (cover1_A_1 c i a1 h1 a2 h2 hc x)]
  unfold kernelRun1_A
  dsimp only
  sl_unfold_words
  simp only [View.readAt_eq_ld, h1.read_unread, View.ld_unit_zero (S := S5000x128) hz]
  funext j
  obtain ⟨a, q, rfl⟩ : ∃ (a : Fin 2) (q : Fin 128), j = ix2 a q := ⟨j 0, j 1, eq_ix2 j⟩
  rcases row_cases a with rfl | rfl
  · refine (canon_row0 _ _ _ q).trans ?_
    rw [acc_row0, pay3_apply]
    exact congrArg (· + colsum x q) (readCov_zero_row0 _ q)
  · refine (canon_row1 _ _ _ q).trans ?_
    rw [acc_row1, pay4_apply]
    exact congrArg (· + colsq x q) (readCov_zero_row1 _ _ q)

variable (V : (c : Dev nD) → (b : Ref sig .tc) → Buf (Elt Ideal) ((c : Thread nD τ).loc b))

/-- The running totals after point n: zero plus the first block's sums, then plus each later block's. -/
def tot (c : Dev nD) : (n : ℕ) → n < cfg1.N → S2x128.Idx → EReal
  | 0, h => acc zero (iblk1 V c 0 ⟨0, h⟩)
  | n + 1, h => acc (tot c n (Nat.lt_of_succ_lt h)) (iblk1 V c 0 ⟨n + 1, h⟩)

/-- What the result's staging buffer holds after point n is the running totals — by induction on the point. -/
theorem outsAt_eq (c : Dev nD) : ∀ (n : ℕ) (h : n < cfg1.N), outsAt1 (F := Ideal) V c n h = tot V c n h
  | 0, h => (outsAt1_A V c ⟨0, h⟩ rfl).trans (out_A ..)
  | n + 1, h => by
    have hN : cfg1.N = 10 := N_1
    have hB : ¬(⟨n + 1, h⟩ : Fin cfg1.N).val % 10 = 0 := by dsimp only; omega
    rw [outsAt1_B V c ⟨n + 1, h⟩ hB, out_B]
    show acc (outsAt1 V c n _) _ = acc (tot V c n _) _
    rw [outsAt_eq c n]

/-- The totals after the last point, as contents of the result array (its one block is the array). -/
abbrev result (c : Dev nD) : Buf (Elt Ideal) ((c : Thread nD τ).loc main_v16) := tot V c 9 (by rw [show cfg1.N = 10 from N_1]; decide)

/-- The one write-back, at point 9, writes them: block (0, 0) of the 2 × 128 array read through zero offsets is the array. -/
theorem flushed_eq (c : Dev nD) (t : Fin cfg1.N) (hf : (cfg1.win 1).flush t = true) :
    (dat1 V c).flushed 1 t = ((cfg1.win 1).blk t).view.read (Elt Ideal) (result V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, outsAt_eq]
  have hz' : (fun a => win1_1.index t1_9 a * main_v16.ty.shape.size a) = fun _ => 0 := funext fun a => by fin_cases a <;> decide
  exact (Memref.read_access_unit_zero (Elt Ideal) main_v16 hz' (fun a => by rw [congrFun hz' a]; simp) (result V c)).symm

/-- So the result array ends holding the totals after point 9 (that point's block covers it). -/
theorem final_tot (c : Dev nD) : (dat1 V c).arrAt 1 cfg1.N = result V c :=
  (dat1 V c).arrAt_eq_of_cover 1 (result V c) (flushed_eq V c) fun i =>
    ⟨t1_9, (flush1_1 t1_9).mpr rfl, by
      show i ∈ ((View.whole main_v16).slice (win1_1.rect t1_9)).set
      rw [View.set_slice_whole, Rect.mem_set_unit]
      intro a
      have h0 : (i 0 : Nat) < 2 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 2 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-! ## The totals in closed form: the sums over all 50000 rows -/

/-- The input block moves down the rows with the point. -/
theorem idx_facts : ∀ t : Fin cfg1.N, win1_0.index t (0 : Fin 2) = t.val ∧ win1_0.index t (1 : Fin 2) = 0 :=
  (by decide +kernel : ∀ t : Fin grid1.N, _)

/-- Row y of block n of the input array is row 5000·n + y of the array. -/
def rowOf (n : ℕ) (hn : n < 10) (y : Fin 5000) : Fin 50000 := ⟨5000 * n + y.val, by have := y.isLt; omega⟩

theorem iblk_apply (c : Dev nD) (n : ℕ) (h : n < cfg1.N) (hn : n < 10) (y : Fin 5000) (q : Fin 128) :
    iblk1 V c 0 ⟨n, h⟩ (ix2 y q) = V c (Pipeline.arrRef spec1 0) (ix2 (rowOf n hn y) q) := by
  obtain ⟨e0, e1⟩ := idx_facts ⟨n, h⟩
  have hy : y.val < 5000 := y.isLt
  have hq : q.val < 128 := q.isLt
  show V c (Pipeline.arrRef spec1 0) (((cfg1.win 0).blk ⟨n, h⟩).view.emb (ix2 y q)) = _
  refine congrArg _ (funext fun a => Fin.ext ?_)
  match a with
  | ⟨0, _⟩ => show win1_0.index ⟨n, h⟩ (0 : Fin 2) * 5000 + 1 * y.val = 5000 * n + y.val; rw [e0]; show n * 5000 + 1 * y.val = _; omega
  | ⟨1, _⟩ => show win1_0.index ⟨n, h⟩ (1 : Fin 2) * 128 + 1 * q.val = q.val; omega

/-- The two summands of an input entry. -/
abbrev f1 (A : S50000x128.Idx → EReal) (q : Fin 128) : Fin 50000 → EReal := fun i => max (A (ix2 i q)) c0
abbrev f2 (A : S50000x128.Idx → EReal) (q : Fin 128) : Fin 50000 → EReal := fun i => max (A (ix2 i q)) c0 * max (A (ix2 i q)) c0

/-- Block n's column sums, for every natural n (zero past the grid). -/
def B1 (A : S50000x128.Idx → EReal) (q : Fin 128) (n : ℕ) : EReal := if hn : n < 10 then ∑ y : Fin 5000, f1 A q (rowOf n hn y) else 0
def B2 (A : S50000x128.Idx → EReal) (q : Fin 128) (n : ℕ) : EReal := if hn : n < 10 then ∑ y : Fin 5000, f2 A q (rowOf n hn y) else 0

theorem colsum_iblk (c : Dev nD) (n : ℕ) (h : n < cfg1.N) (q : Fin 128) :
    colsum (iblk1 V c 0 ⟨n, h⟩) q = B1 (V c (Pipeline.arrRef spec1 0)) q n := by
  have hn : n < 10 := by have e : cfg1.N = 10 := N_1; omega
  unfold colsum B1
  rw [dif_pos hn]
  exact Finset.sum_congr rfl fun y _ => by rw [iblk_apply V c n h hn y q]
theorem colsq_iblk (c : Dev nD) (n : ℕ) (h : n < cfg1.N) (q : Fin 128) :
    colsq (iblk1 V c 0 ⟨n, h⟩) q = B2 (V c (Pipeline.arrRef spec1 0)) q n := by
  have hn : n < 10 := by have e : cfg1.N = 10 := N_1; omega
  unfold colsq B2
  rw [dif_pos hn]
  exact Finset.sum_congr rfl fun y _ => by rw [iblk_apply V c n h hn y q]

/-- After point n the totals are the sums of the first n + 1 blocks' column sums. -/
theorem tot_eq (c : Dev nD) (q : Fin 128) : ∀ (n : ℕ) (h : n < cfg1.N),
    tot V c n h (ix2 (0 : Fin 2) q) = ∑ t ∈ Finset.range (n + 1), B1 (V c (Pipeline.arrRef spec1 0)) q t
    ∧ tot V c n h (ix2 (1 : Fin 2) q) = ∑ t ∈ Finset.range (n + 1), B2 (V c (Pipeline.arrRef spec1 0)) q t
  | 0, h => by
    have z : (c0 : EReal) = 0 := Ideal.ofBits_zero_f32
    refine ⟨?_, ?_⟩
    · show acc zero (iblk1 V c 0 ⟨0, h⟩) (ix2 (0 : Fin 2) q) = _
      rw [acc_row0, colsum_iblk, Finset.sum_range_one]; show c0 + _ = _; rw [z, zero_add]
    · show acc zero (iblk1 V c 0 ⟨0, h⟩) (ix2 (1 : Fin 2) q) = _
      rw [acc_row1, colsq_iblk, Finset.sum_range_one]; show c0 + _ = _; rw [z, zero_add]
  | n + 1, h => by
    obtain ⟨i0, i1⟩ := tot_eq c q n (Nat.lt_of_succ_lt h)
    refine ⟨?_, ?_⟩
    · show acc (tot V c n _) (iblk1 V c 0 ⟨n + 1, h⟩) (ix2 (0 : Fin 2) q) = _
      rw [acc_row0, colsum_iblk, i0, Finset.sum_range_succ _ (n + 1)]
    · show acc (tot V c n _) (iblk1 V c 0 ⟨n + 1, h⟩) (ix2 (1 : Fin 2) q) = _
      rw [acc_row1, colsq_iblk, i1, Finset.sum_range_succ _ (n + 1)]

/-- THE RESULT ARRAY after the region: row 0 the column sums of max(x, 0) over all 50000 rows of the input array as the
    region finds it, row 1 the column sums of its square. -/
theorem final (c : Dev nD) (q : Fin 128) :
    (dat1 V c).arrAt 1 cfg1.N (ix2 (0 : Fin 2) q) = Cert.Moments.colsumAll (D := 128) (V c (Pipeline.arrRef spec1 0)) q
    ∧ (dat1 V c).arrAt 1 cfg1.N (ix2 (1 : Fin 2) q) = Cert.Moments.colsqAll (D := 128) (V c (Pipeline.arrRef spec1 0)) q := by
  rw [final_tot]
  obtain ⟨i0, i1⟩ := tot_eq V c q 9 (by rw [show cfg1.N = 10 from N_1]; decide)
  refine ⟨i0.trans ?_, i1.trans ?_⟩
  · exact Cert.LibReal.sum_range_blocks_10_5000 (f1 (V c (Pipeline.arrRef spec1 0)) q) (fun t y => rowOf t.val t.isLt y) (fun _ _ => rfl)
      (B1 (V c (Pipeline.arrRef spec1 0)) q) (fun t => by unfold B1; rw [dif_pos t.isLt])
  · exact Cert.LibReal.sum_range_blocks_10_5000 (f2 (V c (Pipeline.arrRef spec1 0)) q) (fun t y => rowOf t.val t.isLt y) (fun _ _ => rfl)
      (B2 (V c (Pipeline.arrRef spec1 0)) q) (fun t => by unfold B2; rw [dif_pos t.isLt])

end Cert.KernelIdeal.Blocks1

end
-- ==== Proof.Blocks2.lean ====
/-
  The normalisation, read as one array. At grid point t the kernel loads rows 5000·t … of the 50000 × 128 array x and the
  four 1 × 128 rows mean, var, gamma, beta, and stores gamma · (max(x, 0) − mean) · rsqrt(var + ε) + beta, each row vector
  laid along every row of the block. The block at t of the result is therefore block t of the whole-array function
  (i, q) ↦ gamma(q) · (max(x(i, q), 0) − mean(q)) · rsqrt(var(q) + ε) + beta(q), and the ten blocks tile the rows.
-/
import proofs.«169836_j481036337853_1_alg».proof.Proof.KernelIdealFrameP
import Idealize.ShloMosaic.Lib.Pipeline.Value
import Idealize.ShloMosaic.Lib.ValueIdx
import Idealize.ShloMosaic.PureOps.Ideal.Laws
import Idealize.ShloMosaic.Lib.ValueLayout
set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-- The floor of the rectifier, as the body splats it. -/
abbrev c0 : EReal := (Scalar.ofBits (F := Ideal) .f32 0x00000000#32 : Ideal .f32)
/-- The variance's offset ε, as the body splats it. -/
abbrev cε : EReal := (Scalar.ofBits (F := Ideal) .f32 0x3727C5AC#32 : Ideal .f32)

/-- One entry of the normalised array from the entry of x and the four column values. -/
def norm1 (x mean var gamma beta : EReal) : EReal := gamma * (max x c0 - mean) * Ideal.rsqrt (var + cε) + beta

/-- The whole normalised array. -/
def norm (x : S50000x128.Idx → EReal) (mean var gamma beta : S1x128.Idx → EReal) : S50000x128.Idx → EReal :=
  fun i => norm1 (x i) (mean (ix2 (0 : Fin 1) (⟨(i 1).val, idx2_lt1 i⟩ : Fin 128))) (var (ix2 (0 : Fin 1) (⟨(i 1).val, idx2_lt1 i⟩ : Fin 128)))
    (gamma (ix2 (0 : Fin 1) (⟨(i 1).val, idx2_lt1 i⟩ : Fin 128))) (beta (ix2 (0 : Fin 1) (⟨(i 1).val, idx2_lt1 i⟩ : Fin 128)))

theorem norm_apply (x : S50000x128.Idx → EReal) (mean var gamma beta : S1x128.Idx → EReal) (r : Fin 50000) (q : Fin 128) :
    norm x mean var gamma beta (ix2 r q)
      = norm1 (x (ix2 r q)) (mean (ix2 (0 : Fin 1) q)) (var (ix2 (0 : Fin 1) q)) (gamma (ix2 (0 : Fin 1) q)) (beta (ix2 (0 : Fin 1) q)) := rfl

/-- The body's arithmetic at an entry of the block. -/
theorem pay_apply (x0 : Vec Ideal S5000x128 .f32) (xvar xgamma xmean xbeta : Vec Ideal S1x128 .f32) (p : Fin 5000) (q : Fin 128) :
    k2_pay1 (F := Ideal) x0 xvar xgamma xmean xbeta (ix2 p q)
      = norm1 (x0 (ix2 p q)) (xmean (ix2 (0 : Fin 1) q)) (xvar (ix2 (0 : Fin 1) q)) (xgamma (ix2 (0 : Fin 1) q)) (xbeta (ix2 (0 : Fin 1) q)) := by
  unfold k2_pay1 norm1
  simp only [shapeCast_self]
  show broadcastTo S5000x128 xgamma broadcasts_S1x128_S5000x128 (ix2 p q)
        * (max (x0 (ix2 p q)) c0 - broadcastTo S5000x128 xmean broadcasts_S1x128_S5000x128 (ix2 p q))
        * broadcastTo S5000x128 (rsqrt (addf xvar (broadcast S1x128 (Scalar.ofBits (F := Ideal) .f32 0x3727C5AC#32)))) broadcasts_S1x128_S5000x128 (ix2 p q)
        + broadcastTo S5000x128 xbeta broadcasts_S1x128_S5000x128 (ix2 p q) = _
  rw [broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid: the x block and the result block move down the rows with the point, the four
    row vectors stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- A row vector's block at any point is the row vector. -/
theorem row_eq (c : Dev nD) (t : Fin cfg2.N) (q : Fin 128) :
    iblk2 V c 1 t (ix2 (0 : Fin 1) q) = V c (Pipeline.arrRef spec2 1) (ix2 (0 : Fin 1) q)
    ∧ iblk2 V c 2 t (ix2 (0 : Fin 1) q) = V c (Pipeline.arrRef spec2 2) (ix2 (0 : Fin 1) q)
    ∧ iblk2 V c 3 t (ix2 (0 : Fin 1) q) = V c (Pipeline.arrRef spec2 3) (ix2 (0 : Fin 1) q)
    ∧ iblk2 V c 4 t (ix2 (0 : Fin 1) q) = V c (Pipeline.arrRef spec2 4) (ix2 (0 : Fin 1) q) := by
  obtain ⟨e0, e1, e2, e3, e4, e5, e6, e7, e8, e9, e10, e11⟩ := idx_facts t
  have hq : q.val < 128 := q.isLt
  refine ⟨?_, ?_, ?_, ?_⟩
  · show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  · show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show V c (Pipeline.arrRef spec2 4) (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

/-- Block t of the normalised array, as a function on the block's own index type. -/
theorem block_eq (c : Dev nD) (t : Fin cfg2.N) :
    k2_pay1 (F := Ideal) (iblk2 V c 0 t) (iblk2 V c 2 t) (iblk2 V c 3 t) (iblk2 V c 1 t) (iblk2 V c 4 t)
      = fun j : S5000x128.Idx => norm (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb j) := by
  obtain ⟨e0, e1, e2, e3, e4, e5, e6, e7, e8, e9, e10, e11⟩ := idx_facts t
  have ht : t.val < 10 := by have h := t.isLt; have e : cfg2.N = 10 := N_2; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  rw [pay_apply]
  have hemb : ((cfg2.win 5).blk t).view.emb (ix2 p q) = ix2 (⟨t.val * 5000 + p.val, by omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [hemb, norm_apply]
  have hx : iblk2 V c 0 t (ix2 p q) = V c (Pipeline.arrRef spec2 0) (ix2 (⟨t.val * 5000 + p.val, by omega⟩ : Fin 50000) q) := by
    show V c (Pipeline.arrRef spec2 0) (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  obtain ⟨h1, h2, h3, h4⟩ := row_eq V c t q
  rw [hx, h1, h2, h3, h4]

/-- What point t writes back is block t of the whole normalised array of the input arrays as the region finds them. -/
theorem flushed_eq (c : Dev nD) (t : Fin cfg2.N) :
    (dat2 V c).flushed 5 t = ((cfg2.win 5).blk t).view.read (Elt Ideal)
      (norm (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  exact block_eq V c t

/-- An index of the result array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v25).slice (win2_5.rect t)).set ↔ _
  rw [View.set_slice_whole, Rect.mem_set_unit]
  exact Iff.rfl

/-- Every block index below ten is some point's. -/
theorem idx_onto : ∀ q : Fin 10, ∃ t : Fin cfg2.N, t.val = q.val :=
  (by decide +kernel : ∀ q : Fin 10, ∃ t : Fin grid2.N, t.val = q.val)

/-- The ten blocks tile the rows: row r lies in block r / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e0, e1, e2, e3, e4, e5, e6, e7, e8, e9, e10, e11⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE RESULT ARRAY after the region: the whole normalised array of the input arrays as the region finds them. -/
theorem final (c : Dev nD) :
    (dat2 V c).arrAt 5 cfg2.N = norm (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed_eq V c t) cover

end Cert.KernelIdeal.Blocks2

end
-- ==== Proof.Stats4Pay.lean ====
/-
  The second layer's statistics kernel's arithmetic at an entry. For a 5000 × 256 block x the body forms r = max(x, 0), sums r and r · r
  down the 5000 rows (one lane sum each), and adds the two 1 × 256 rows of sums to the two rows of the running totals
  it loaded. At the extended reals a lane sum is the plain sum over the 5000 row coordinates.
-/
import proofs.«169836_j481036337853_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Stats4

open Idealize.ShloMosaic Idealize.ShloMosaic.ValueIdx
open Cert.KernelIdeal Cert.KernelIdeal.Gen

/-- The floor of the rectifier, as the body splats it. -/
abbrev c0 : EReal := (Scalar.ofBits (F := Ideal) .f32 0x00000000#32 : Ideal .f32)

/-- Column q's sum of the rectified block. -/
def colsum (x : S5000x256.Idx → EReal) (q : Fin 256) : EReal := ∑ y : Fin 5000, max (x (ix2 y q)) c0
/-- Column q's sum of the squares of the rectified block. -/
def colsq (x : S5000x256.Idx → EReal) (q : Fin 256) : EReal := ∑ y : Fin 5000, max (x (ix2 y q)) c0 * max (x (ix2 y q)) c0

/-- The rectified block at an entry. -/
theorem relu_apply (x : Vec Ideal S5000x256 .f32) (y : Fin 5000) (q : Fin 256) :
    k4_pay2 (F := Ideal) x (ix2 y q) = max (x (ix2 y q)) c0 := by
  unfold k4_pay2
  rw [shapeCast_self]
  rfl

/-- Inserting row coordinate k into the column index q names entry (k, q). -/
theorem lift_eq (q : Fin 256) (k : Fin (S5000x256.size 0)) :
    reduces_S5000x256_S256.lift (ix1 q) k = ix2 (n0 := 5000) (n1 := 256) k q := by
  funext a
  match a with
  | ⟨0, _⟩ => rfl
  | ⟨1, _⟩ => rfl

/-- A 256-vector recast as one row, read at (0, q). -/
theorem row_cast_apply (v : FVec Ideal S256 .f32) (q : Fin 256) :
    shapeCast S1x256 v shapeCasts_S256_S1x256 (ix2 (0 : Fin 1) q) = v (ix1 q) := by
  refine (shapeCast_addUnit_apply ![256] v shapeCasts_S256_S1x256 (ix2 (0 : Fin 1) q)).trans ?_
  refine congrArg v (funext fun a => ?_)
  match a with
  | ⟨0, _⟩ => rfl

/-- The first running total's update at (0, q): the loaded total plus the column's sum. -/
theorem pay3_apply (x : Vec Ideal S5000x256 .f32) (v12 : Vec Ideal S1x256 .f32) (q : Fin 256) :
    k4_pay3 (F := Ideal) x v12 (ix2 (0 : Fin 1) q) = v12 (ix2 (0 : Fin 1) q) + colsum x q := by
  unfold k4_pay3
  rw [addf_apply, shapeCast_self, row_cast_apply]
  refine congrArg (v12 (ix2 (0 : Fin 1) q) + ·) ?_
  refine (Ideal.multiReduction_add_single (k4_pay2 (F := Ideal) x) _ reduces_S5000x256_S256 _ _ (ix1 q)).trans ?_
  unfold colsum
  refine Finset.sum_congr rfl fun k _ => ?_
  rw [lift_eq]
  exact relu_apply x k q

/-- The second running total's update at (0, q): the loaded total plus the column's sum of squares. -/
theorem pay4_apply (x : Vec Ideal S5000x256 .f32) (v16 : Vec Ideal S1x256 .f32) (q : Fin 256) :
    k4_pay4 (F := Ideal) x v16 (ix2 (0 : Fin 1) q) = v16 (ix2 (0 : Fin 1) q) + colsq x q := by
  unfold k4_pay4
  rw [addf_apply, shapeCast_self, row_cast_apply]
  refine congrArg (v16 (ix2 (0 : Fin 1) q) + ·) ?_
  refine (Ideal.multiReduction_add_single (mulf (k4_pay2 (F := Ideal) x) (k4_pay2 (F := Ideal) x)) _ reduces_S5000x256_S256 _ _ (ix1 q)).trans ?_
  unfold colsq
  refine Finset.sum_congr rfl fun k _ => ?_
  rw [lift_eq, mulf_apply]
  rw [relu_apply x k q]

/-- The reset's zero block at an entry. -/
theorem pay1_apply (j : S2x256.Idx) : k4_pay1 (F := Ideal) j = c0 := rfl

end Cert.KernelIdeal.Stats4

end
-- ==== Proof.Blocks4.lean ====
/-
  The second layer's statistics kernel, read as one array. Its 2 × 256 result block never moves and is written back after the last of the
  ten grid points only. At point 0 the body resets the block to zero; at every point it adds, to row 0, the column sums of
  max(x, 0) over the point's 5000 rows of the 50000 × 256 input and, to row 1, the column sums of max(x, 0)². So after
  point n the block holds the two running totals over rows 0 … 5000·(n + 1) − 1 (by induction on the point), and the
  result array ends at the totals over all 50000 rows: the ten blocks' sums regroup to one sum, since addition on the
  extended reals is commutative and associative and 0 is neutral.
-/
import proofs.«169836_j481036337853_1_alg».proof.Proof.KernelIdealFrameP
import Idealize.ShloMosaic.Lib.Pipeline.Value
import Idealize.ShloMosaic.Lib.ValueIdx
import Idealize.ShloMosaic.PureOps.Ideal.Laws
import Idealize.ShloMosaic.Lib.Tactic
import proofs.«169836_j481036337853_1_alg».proof.Proof.Stats4Pay
import proofs.«169836_j481036337853_1_alg».proof.Proof.LibReal
import proofs.«169836_j481036337853_1_alg».proof.Proof.Moments
set_option maxRecDepth 16384

noncomputable section

namespace Cert.KernelIdeal.Blocks4

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.KernelIdeal.GenP Cert.KernelIdeal.Stats4

/-- Row 0 of the 2 × 256 block, as the body's stores and loads name it. -/
abbrev R0 : Rect S2x256 := Rect.unit (s := S2x256) ![0, 0] ![1, 256] inb_S2x256_S1x256_0_0
/-- Row 1 of the block. -/
abbrev R1 : Rect S2x256 := Rect.unit (s := S2x256) ![1, 0] ![1, 256] inb_S2x256_S1x256_1_0

theorem emb0 (q : Fin 256) : R0.emb (ix2 (0 : Fin 1) q) = ix2 (0 : Fin 2) q := by
  funext b; apply Fin.ext
  match b with
  | ⟨0, _⟩ => rfl
  | ⟨1, _⟩ => show 0 + 1 * q.val = q.val; omega
theorem emb1 (q : Fin 256) : R1.emb (ix2 (0 : Fin 1) q) = ix2 (1 : Fin 2) q := by
  funext b; apply Fin.ext
  match b with
  | ⟨0, _⟩ => rfl
  | ⟨1, _⟩ => show 0 + 1 * q.val = q.val; omega
theorem row0_not_mem_R1 (q : Fin 256) : ix2 (0 : Fin 2) q ∉ R1.set := by
  rw [Rect.mem_set_unit]
  intro h
  exact absurd (h (0 : Fin 2)).1 (show ¬ ((1 : ℕ) ≤ 0) by decide)
theorem row1_not_mem_R0 (q : Fin 256) : ix2 (1 : Fin 2) q ∉ R0.set := by
  rw [Rect.mem_set_unit]
  intro h
  exact absurd (h (0 : Fin 2)).2 (show ¬ ((1 : ℕ) < 0 + 1) by decide)

theorem hz : (![0, 0] : Fin 2 → Nat) = fun _ => 0 := funext fun a => by fin_cases a <;> rfl

/-- Two row stores, row 1's last: entry (0, q) is the row-0 store's payload at (0, q), whatever was stored before. -/
theorem canon_row0 (w1 : R1.shape.Idx → Elt Ideal .f32) (w0 : R0.shape.Idx → Elt Ideal .f32) (L : List (View.Piece (Elt Ideal) S2x256 .f32)) (q : Fin 256) :
    View.canon (⟨R1, w1⟩ :: ⟨R0, w0⟩ :: L) (ix2 (0 : Fin 2) q) = w0 (ix2 (0 : Fin 1) q) := by
  refine (View.canon_cons_of_not_mem (⟨R1, w1⟩ : View.Piece (Elt Ideal) S2x256 .f32) (⟨R0, w0⟩ :: L) (row0_not_mem_R1 q)).trans ?_
  exact (congrArg _ (emb0 q).symm).trans (View.canon_cons_emb R0 w0 L (ix2 (0 : Fin 1) q))
/-- … and entry (1, q) is the row-1 store's payload at (0, q). -/
theorem canon_row1 (w1 : R1.shape.Idx → Elt Ideal .f32) (w0 : R0.shape.Idx → Elt Ideal .f32) (L : List (View.Piece (Elt Ideal) S2x256 .f32)) (q : Fin 256) :
    View.canon (⟨R1, w1⟩ :: ⟨R0, w0⟩ :: L) (ix2 (1 : Fin 2) q) = w1 (ix2 (0 : Fin 1) q) :=
  (congrArg _ (emb1 q).symm).trans (View.canon_cons_emb R1 w1 _ (ix2 (0 : Fin 1) q))

/-- A row index of the 2 × 256 block is 0 or 1. -/
theorem row_cases (a : Fin 2) : a = (0 : Fin 2) ∨ a = (1 : Fin 2) := by
  rcases (by have := a.isLt; omega : a.val = 0 ∨ a.val = 1) with h | h
  · exact Or.inl (Fin.ext h)
  · exact Or.inr (Fin.ext h)

/-- What one point leaves: each running total plus the point's block's column sums. -/
def acc (xo : S2x256.Idx → EReal) (x : S5000x256.Idx → EReal) : S2x256.Idx → EReal :=
  fun j => if (j 0).val = 0 then xo (ix2 (0 : Fin 2) (⟨(j 1).val, idx2_lt1 j⟩ : Fin 256)) + colsum x ⟨(j 1).val, idx2_lt1 j⟩
    else xo (ix2 (1 : Fin 2) (⟨(j 1).val, idx2_lt1 j⟩ : Fin 256)) + colsq x ⟨(j 1).val, idx2_lt1 j⟩

theorem acc_row0 (xo : S2x256.Idx → EReal) (x : S5000x256.Idx → EReal) (q : Fin 256) :
    acc xo x (ix2 (0 : Fin 2) q) = xo (ix2 (0 : Fin 2) q) + colsum x q := rfl
theorem acc_row1 (xo : S2x256.Idx → EReal) (x : S5000x256.Idx → EReal) (q : Fin 256) :
    acc xo x (ix2 (1 : Fin 2) q) = xo (ix2 (1 : Fin 2) q) + colsq x q := rfl

/-- CASE B (points 1 … 9): over the carried totals xo the body leaves xo plus the block's sums. -/
theorem out_B (c : Dev nD) (i : grid4.Coords) (a1 : Memref sig .tc .vmem S5000x256 .f32) (h1 : a1.IsWhole)
    (a2 : Memref sig .tc .vmem S2x256 .f32) (h2 : a2.IsWhole) (hc : ¬cond4_0 i) (x : Vec Ideal S5000x256 .f32) (xo : Vec Ideal S2x256 .f32) :
    out4_B_1 (F := Ideal) c i a1 h1 a2 h2 hc x xo = acc xo x := by
  unfold out4_B_1
  rw [View.read_writes_eq_canon _ _ _ (cover4_B_1 c i a1 h1 a2 h2 hc x xo)]
  unfold kernelRun4_B
  dsimp only
  sl_unfold_words
  simp only [View.readAt_eq_ld, h1.read_unread, h2.read_unread, View.ld_unit_zero (S := S5000x256) hz]
  funext j
  obtain ⟨a, q, rfl⟩ : ∃ (a : Fin 2) (q : Fin 256), j = ix2 a q := ⟨j 0, j 1, eq_ix2 j⟩
  have l0 : View.ld xo R0 (ix2 (0 : Fin 1) q) = xo (ix2 (0 : Fin 2) q) := congrArg xo (emb0 q)
  have l1 : View.ld xo R1 (ix2 (0 : Fin 1) q) = xo (ix2 (1 : Fin 2) q) := congrArg xo (emb1 q)
  rcases row_cases a with rfl | rfl
  · refine (canon_row0 _ _ [] q).trans ?_
    rw [acc_row0, pay3_apply]
    exact congrArg (· + colsum x q) l0
  · refine (canon_row1 _ _ [] q).trans ?_
    rw [acc_row1, pay4_apply]
    exact congrArg (· + colsq x q) l1

/-- The whole 2 × 256 block, as the reset's store names it. -/
abbrev RW : Rect S2x256 := Rect.unit (s := S2x256) ![0, 0] S2x256.size inb_S2x256_S2x256_0_0

theorem cover_RW1 (w : RW.shape.Idx → Elt Ideal .f32) (y : S2x256.Idx) :
    ∃ p ∈ ([⟨RW, w⟩] : List (View.Piece (Elt Ideal) S2x256 .f32)), y ∈ p.1.set :=
  ⟨⟨RW, w⟩, List.mem_singleton_self _, View.mem_set_unit_zero hz inb_S2x256_S2x256_0_0 y⟩
theorem cover_RW2 (p0 : View.Piece (Elt Ideal) S2x256 .f32) (w : RW.shape.Idx → Elt Ideal .f32) (y : S2x256.Idx) :
    ∃ p ∈ ([p0, ⟨RW, w⟩] : List (View.Piece (Elt Ideal) S2x256 .f32)), y ∈ p.1.set :=
  ⟨⟨RW, w⟩, by simp, View.mem_set_unit_zero hz inb_S2x256_S2x256_0_0 y⟩

/-- Row 0 read back from the freshly zeroed block. -/
theorem readCov_zero_row0 (v : View sig .tc .vmem S2x256 .f32) (q : Fin 256) :
    v.readCov (Val := Elt Ideal) [⟨RW, k4_pay1 (F := Ideal)⟩] R0.toLoadRect (ix2 (0 : Fin 1) q) = c0 := by
  rw [View.readCov_eq_canon_ld _ _ _ (cover_RW1 _), View.canon_unit_zero hz]
  rfl

/-- Row 1 read back after the reset and the store of row 0: still zero. -/
theorem readCov_zero_row1 (v : View sig .tc .vmem S2x256 .f32) (w : R0.shape.Idx → Elt Ideal .f32) (q : Fin 256) :
    v.readCov (Val := Elt Ideal) [⟨R0, w⟩, ⟨RW, k4_pay1 (F := Ideal)⟩] R1.toLoadRect (ix2 (0 : Fin 1) q) = c0 := by
  rw [View.readCov_eq_canon_ld _ _ _ (cover_RW2 _ _)]
  show View.canon [⟨R0, w⟩, ⟨RW, k4_pay1 (F := Ideal)⟩] (R1.emb (ix2 (0 : Fin 1) q)) = c0
  rw [emb1]
  refine (View.canon_cons_of_not_mem (⟨R0, w⟩ : View.Piece (Elt Ideal) S2x256 .f32) [⟨RW, k4_pay1 (F := Ideal)⟩] (row1_not_mem_R0 q)).trans ?_
  rw [View.canon_unit_zero hz]
  rfl

/-- The zero block. -/
abbrev zero : S2x256.Idx → EReal := fun _ => c0

/-- CASE A (point 0): the body stores the zero block, reads its rows back, and leaves zero plus the block's sums. -/
theorem out_A (c : Dev nD) (i : grid4.Coords) (a1 : Memref sig .tc .vmem S5000x256 .f32) (h1 : a1.IsWhole)
    (a2 : Memref sig .tc .vmem S2x256 .f32) (h2 : a2.IsWhole) (hc : cond4_0 i) (x : Vec Ideal S5000x256 .f32) :
    out4_A_1 (F := Ideal) c i a1 h1 a2 h2 hc x = acc zero x := by
  unfold out4_A_1
  rw [View.read_writes_eq_canon _ _ _ (cover4_A_1 c i a1 h1 a2 h2 hc x)]
  unfold kernelRun4_A
  dsimp only
  sl_unfold_words
  simp only [View.readAt_eq_ld, h1.read_unread, View.ld_unit_zero (S := S5000x256) hz]
  funext j
  obtain ⟨a, q, rfl⟩ : ∃ (a : Fin 2) (q : Fin 256), j = ix2 a q := ⟨j 0, j 1, eq_ix2 j⟩
  rcases row_cases a with rfl | rfl
  · refine (canon_row0 _ _ _ q).trans ?_
    rw [acc_row0, pay3_apply]
    exact congrArg (· + colsum x q) (readCov_zero_row0 _ q)
  · refine (canon_row1 _ _ _ q).trans ?_
    rw [acc_row1, pay4_apply]
    exact congrArg (· + colsq x q) (readCov_zero_row1 _ _ q)

variable (V : (c : Dev nD) → (b : Ref sig .tc) → Buf (Elt Ideal) ((c : Thread nD τ).loc b))

/-- The running totals after point n: zero plus the first block's sums, then plus each later block's. -/
def tot (c : Dev nD) : (n : ℕ) → n < cfg4.N → S2x256.Idx → EReal
  | 0, h => acc zero (iblk4 V c 0 ⟨0, h⟩)
  | n + 1, h => acc (tot c n (Nat.lt_of_succ_lt h)) (iblk4 V c 0 ⟨n + 1, h⟩)

/-- What the result's staging buffer holds after point n is the running totals — by induction on the point. -/
theorem outsAt_eq (c : Dev nD) : ∀ (n : ℕ) (h : n < cfg4.N), outsAt4 (F := Ideal) V c n h = tot V c n h
  | 0, h => (outsAt4_A V c ⟨0, h⟩ rfl).trans (out_A ..)
  | n + 1, h => by
    have hN : cfg4.N = 10 := N_4
    have hB : ¬(⟨n + 1, h⟩ : Fin cfg4.N).val % 10 = 0 := by dsimp only; omega
    rw [outsAt4_B V c ⟨n + 1, h⟩ hB, out_B]
    show acc (outsAt4 V c n _) _ = acc (tot V c n _) _
    rw [outsAt_eq c n]

/-- The totals after the last point, as contents of the result array (its one block is the array). -/
abbrev result (c : Dev nD) : Buf (Elt Ideal) ((c : Thread nD τ).loc main_v42) := tot V c 9 (by rw [show cfg4.N = 10 from N_4]; decide)

/-- The one write-back, at point 9, writes them: block (0, 0) of the 2 × 256 array read through zero offsets is the array. -/
theorem flushed_eq (c : Dev nD) (t : Fin cfg4.N) (hf : (cfg4.win 1).flush t = true) :
    (dat4 V c).flushed 1 t = ((cfg4.win 1).blk t).view.read (Elt Ideal) (result V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1, outsAt_eq]
  have hz' : (fun a => win4_1.index t4_9 a * main_v42.ty.shape.size a) = fun _ => 0 := funext fun a => by fin_cases a <;> decide
  exact (Memref.read_access_unit_zero (Elt Ideal) main_v42 hz' (fun a => by rw [congrFun hz' a]; simp) (result V c)).symm

/-- So the result array ends holding the totals after point 9 (that point's block covers it). -/
theorem final_tot (c : Dev nD) : (dat4 V c).arrAt 1 cfg4.N = result V c :=
  (dat4 V c).arrAt_eq_of_cover 1 (result V c) (flushed_eq V c) fun i =>
    ⟨t4_9, (flush4_1 t4_9).mpr rfl, by
      show i ∈ ((View.whole main_v42).slice (win4_1.rect t4_9)).set
      rw [View.set_slice_whole, Rect.mem_set_unit]
      intro a
      have h0 : (i 0 : Nat) < 2 := (i 0).isLt
      have h1 : (i 1 : Nat) < 256 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 2 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 256 from by decide +kernel]; omega⟩

/-! ## The totals in closed form: the sums over all 50000 rows -/

/-- The input block moves down the rows with the point. -/
theorem idx_facts : ∀ t : Fin cfg4.N, win4_0.index t (0 : Fin 2) = t.val ∧ win4_0.index t (1 : Fin 2) = 0 :=
  (by decide +kernel : ∀ t : Fin grid4.N, _)

/-- Row y of block n of the input array is row 5000·n + y of the array. -/
def rowOf (n : ℕ) (hn : n < 10) (y : Fin 5000) : Fin 50000 := ⟨5000 * n + y.val, by have := y.isLt; omega⟩

theorem iblk_apply (c : Dev nD) (n : ℕ) (h : n < cfg4.N) (hn : n < 10) (y : Fin 5000) (q : Fin 256) :
    iblk4 V c 0 ⟨n, h⟩ (ix2 y q) = V c (Pipeline.arrRef spec4 0) (ix2 (rowOf n hn y) q) := by
  obtain ⟨e0, e1⟩ := idx_facts ⟨n, h⟩
  have hy : y.val < 5000 := y.isLt
  have hq : q.val < 256 := q.isLt
  show V c (Pipeline.arrRef spec4 0) (((cfg4.win 0).blk ⟨n, h⟩).view.emb (ix2 y q)) = _
  refine congrArg _ (funext fun a => Fin.ext ?_)
  match a with
  | ⟨0, _⟩ => show win4_0.index ⟨n, h⟩ (0 : Fin 2) * 5000 + 1 * y.val = 5000 * n + y.val; rw [e0]; show n * 5000 + 1 * y.val = _; omega
  | ⟨1, _⟩ => show win4_0.index ⟨n, h⟩ (1 : Fin 2) * 256 + 1 * q.val = q.val; omega

/-- The two summands of an input entry. -/
abbrev f1 (A : S50000x256.Idx → EReal) (q : Fin 256) : Fin 50000 → EReal := fun i => max (A (ix2 i q)) c0
abbrev f2 (A : S50000x256.Idx → EReal) (q : Fin 256) : Fin 50000 → EReal := fun i => max (A (ix2 i q)) c0 * max (A (ix2 i q)) c0

/-- Block n's column sums, for every natural n (zero past the grid). -/
def B1 (A : S50000x256.Idx → EReal) (q : Fin 256) (n : ℕ) : EReal := if hn : n < 10 then ∑ y : Fin 5000, f1 A q (rowOf n hn y) else 0
def B2 (A : S50000x256.Idx → EReal) (q : Fin 256) (n : ℕ) : EReal := if hn : n < 10 then ∑ y : Fin 5000, f2 A q (rowOf n hn y) else 0

theorem colsum_iblk (c : Dev nD) (n : ℕ) (h : n < cfg4.N) (q : Fin 256) :
    colsum (iblk4 V c 0 ⟨n, h⟩) q = B1 (V c (Pipeline.arrRef spec4 0)) q n := by
  have hn : n < 10 := by have e : cfg4.N = 10 := N_4; omega
  unfold colsum B1
  rw [dif_pos hn]
  exact Finset.sum_congr rfl fun y _ => by rw [iblk_apply V c n h hn y q]
theorem colsq_iblk (c : Dev nD) (n : ℕ) (h : n < cfg4.N) (q : Fin 256) :
    colsq (iblk4 V c 0 ⟨n, h⟩) q = B2 (V c (Pipeline.arrRef spec4 0)) q n := by
  have hn : n < 10 := by have e : cfg4.N = 10 := N_4; omega
  unfold colsq B2
  rw [dif_pos hn]
  exact Finset.sum_congr rfl fun y _ => by rw [iblk_apply V c n h hn y q]

/-- After point n the totals are the sums of the first n + 1 blocks' column sums. -/
theorem tot_eq (c : Dev nD) (q : Fin 256) : ∀ (n : ℕ) (h : n < cfg4.N),
    tot V c n h (ix2 (0 : Fin 2) q) = ∑ t ∈ Finset.range (n + 1), B1 (V c (Pipeline.arrRef spec4 0)) q t
    ∧ tot V c n h (ix2 (1 : Fin 2) q) = ∑ t ∈ Finset.range (n + 1), B2 (V c (Pipeline.arrRef spec4 0)) q t
  | 0, h => by
    have z : (c0 : EReal) = 0 := Ideal.ofBits_zero_f32
    refine ⟨?_, ?_⟩
    · show acc zero (iblk4 V c 0 ⟨0, h⟩) (ix2 (0 : Fin 2) q) = _
      rw [acc_row0, colsum_iblk, Finset.sum_range_one]; show c0 + _ = _; rw [z, zero_add]
    · show acc zero (iblk4 V c 0 ⟨0, h⟩) (ix2 (1 : Fin 2) q) = _
      rw [acc_row1, colsq_iblk, Finset.sum_range_one]; show c0 + _ = _; rw [z, zero_add]
  | n + 1, h => by
    obtain ⟨i0, i1⟩ := tot_eq c q n (Nat.lt_of_succ_lt h)
    refine ⟨?_, ?_⟩
    · show acc (tot V c n _) (iblk4 V c 0 ⟨n + 1, h⟩) (ix2 (0 : Fin 2) q) = _
      rw [acc_row0, colsum_iblk, i0, Finset.sum_range_succ _ (n + 1)]
    · show acc (tot V c n _) (iblk4 V c 0 ⟨n + 1, h⟩) (ix2 (1 : Fin 2) q) = _
      rw [acc_row1, colsq_iblk, i1, Finset.sum_range_succ _ (n + 1)]

/-- THE RESULT ARRAY after the region: row 0 the column sums of max(x, 0) over all 50000 rows of the input array as the
    region finds it, row 1 the column sums of its square. -/
theorem final (c : Dev nD) (q : Fin 256) :
    (dat4 V c).arrAt 1 cfg4.N (ix2 (0 : Fin 2) q) = Cert.Moments.colsumAll (D := 256) (V c (Pipeline.arrRef spec4 0)) q
    ∧ (dat4 V c).arrAt 1 cfg4.N (ix2 (1 : Fin 2) q) = Cert.Moments.colsqAll (D := 256) (V c (Pipeline.arrRef spec4 0)) q := by
  rw [final_tot]
  obtain ⟨i0, i1⟩ := tot_eq V c q 9 (by rw [show cfg4.N = 10 from N_4]; decide)
  refine ⟨i0.trans ?_, i1.trans ?_⟩
  · exact Cert.LibReal.sum_range_blocks_10_5000 (f1 (V c (Pipeline.arrRef spec4 0)) q) (fun t y => rowOf t.val t.isLt y) (fun _ _ => rfl)
      (B1 (V c (Pipeline.arrRef spec4 0)) q) (fun t => by unfold B1; rw [dif_pos t.isLt])
  · exact Cert.LibReal.sum_range_blocks_10_5000 (f2 (V c (Pipeline.arrRef spec4 0)) q) (fun t y => rowOf t.val t.isLt y) (fun _ _ => rfl)
      (B2 (V c (Pipeline.arrRef spec4 0)) q) (fun t => by unfold B2; rw [dif_pos t.isLt])

end Cert.KernelIdeal.Blocks4

end
-- ==== Proof.Blocks5.lean ====
/-
  The second layer's normalisation, read as one array. At grid point t the kernel loads rows 5000·t … of the 50000 × 256 array x and the
  four 1 × 256 rows mean, var, gamma, beta, and stores gamma · (max(x, 0) − mean) · rsqrt(var + ε) + beta, each row vector
  laid along every row of the block. The block at t of the result is therefore block t of the whole-array function
  (i, q) ↦ gamma(q) · (max(x(i, q), 0) − mean(q)) · rsqrt(var(q) + ε) + beta(q), and the ten blocks tile the rows.
-/
import proofs.«169836_j481036337853_1_alg».proof.Proof.KernelIdealFrameP
import Idealize.ShloMosaic.Lib.Pipeline.Value
import Idealize.ShloMosaic.Lib.ValueIdx
import Idealize.ShloMosaic.PureOps.Ideal.Laws
import Idealize.ShloMosaic.Lib.ValueLayout
set_option maxRecDepth 16384

noncomputable section

namespace Cert.KernelIdeal.Blocks5

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-- The floor of the rectifier, as the body splats it. -/
abbrev c0 : EReal := (Scalar.ofBits (F := Ideal) .f32 0x00000000#32 : Ideal .f32)
/-- The variance's offset ε, as the body splats it. -/
abbrev cε : EReal := (Scalar.ofBits (F := Ideal) .f32 0x3727C5AC#32 : Ideal .f32)

/-- One entry of the normalised array from the entry of x and the four column values. -/
def norm1 (x mean var gamma beta : EReal) : EReal := gamma * (max x c0 - mean) * Ideal.rsqrt (var + cε) + beta

/-- The whole normalised array. -/
def norm (x : S50000x256.Idx → EReal) (mean var gamma beta : S1x256.Idx → EReal) : S50000x256.Idx → EReal :=
  fun i => norm1 (x i) (mean (ix2 (0 : Fin 1) (⟨(i 1).val, idx2_lt1 i⟩ : Fin 256))) (var (ix2 (0 : Fin 1) (⟨(i 1).val, idx2_lt1 i⟩ : Fin 256)))
    (gamma (ix2 (0 : Fin 1) (⟨(i 1).val, idx2_lt1 i⟩ : Fin 256))) (beta (ix2 (0 : Fin 1) (⟨(i 1).val, idx2_lt1 i⟩ : Fin 256)))

theorem norm_apply (x : S50000x256.Idx → EReal) (mean var gamma beta : S1x256.Idx → EReal) (r : Fin 50000) (q : Fin 256) :
    norm x mean var gamma beta (ix2 r q)
      = norm1 (x (ix2 r q)) (mean (ix2 (0 : Fin 1) q)) (var (ix2 (0 : Fin 1) q)) (gamma (ix2 (0 : Fin 1) q)) (beta (ix2 (0 : Fin 1) q)) := rfl

/-- The body's arithmetic at an entry of the block. -/
theorem pay_apply (x0 : Vec Ideal S5000x256 .f32) (xvar xgamma xmean xbeta : Vec Ideal S1x256 .f32) (p : Fin 5000) (q : Fin 256) :
    k5_pay1 (F := Ideal) x0 xvar xgamma xmean xbeta (ix2 p q)
      = norm1 (x0 (ix2 p q)) (xmean (ix2 (0 : Fin 1) q)) (xvar (ix2 (0 : Fin 1) q)) (xgamma (ix2 (0 : Fin 1) q)) (xbeta (ix2 (0 : Fin 1) q)) := by
  unfold k5_pay1 norm1
  simp only [shapeCast_self]
  show broadcastTo S5000x256 xgamma broadcasts_S1x256_S5000x256 (ix2 p q)
        * (max (x0 (ix2 p q)) c0 - broadcastTo S5000x256 xmean broadcasts_S1x256_S5000x256 (ix2 p q))
        * broadcastTo S5000x256 (rsqrt (addf xvar (broadcast S1x256 (Scalar.ofBits (F := Ideal) .f32 0x3727C5AC#32)))) broadcasts_S1x256_S5000x256 (ix2 p q)
        + broadcastTo S5000x256 xbeta broadcasts_S1x256_S5000x256 (ix2 p q) = _
  rw [broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid: the x block and the result block move down the rows with the point, the four
    row vectors stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- A row vector's block at any point is the row vector. -/
theorem row_eq (c : Dev nD) (t : Fin cfg5.N) (q : Fin 256) :
    iblk5 V c 1 t (ix2 (0 : Fin 1) q) = V c (Pipeline.arrRef spec5 1) (ix2 (0 : Fin 1) q)
    ∧ iblk5 V c 2 t (ix2 (0 : Fin 1) q) = V c (Pipeline.arrRef spec5 2) (ix2 (0 : Fin 1) q)
    ∧ iblk5 V c 3 t (ix2 (0 : Fin 1) q) = V c (Pipeline.arrRef spec5 3) (ix2 (0 : Fin 1) q)
    ∧ iblk5 V c 4 t (ix2 (0 : Fin 1) q) = V c (Pipeline.arrRef spec5 4) (ix2 (0 : Fin 1) q) := by
  obtain ⟨e0, e1, e2, e3, e4, e5, e6, e7, e8, e9, e10, e11⟩ := idx_facts t
  have hq : q.val < 256 := q.isLt
  refine ⟨?_, ?_, ?_, ?_⟩
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 256 + 1 * q.val = q.val; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 256 + 1 * q.val = q.val; omega
  · show V c (Pipeline.arrRef spec5 3) (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 256 + 1 * q.val = q.val; omega
  · show V c (Pipeline.arrRef spec5 4) (((cfg5.win 4).blk t).view.emb (ix2 (0 : Fin 1) q)) = _
    refine congrArg _ (funext fun a => Fin.ext ?_)
    match a with
    | ⟨0, _⟩ => show win5_4.index t (0 : Fin 2) * 1 + 1 * 0 = 0; omega
    | ⟨1, _⟩ => show win5_4.index t (1 : Fin 2) * 256 + 1 * q.val = q.val; omega

set_option maxHeartbeats 1600000 in
/-- Block t of the normalised array, as a function on the block's own index type. -/
theorem block_eq (c : Dev nD) (t : Fin cfg5.N) :
    k5_pay1 (F := Ideal) (iblk5 V c 0 t) (iblk5 V c 2 t) (iblk5 V c 3 t) (iblk5 V c 1 t) (iblk5 V c 4 t)
      = fun j : S5000x256.Idx => norm (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb j) := by
  obtain ⟨e0, e1, e2, e3, e4, e5, e6, e7, e8, e9, e10, e11⟩ := idx_facts t
  have ht : t.val < 10 := by have h := t.isLt; have e : cfg5.N = 10 := N_5; omega
  funext j
  obtain ⟨p, q, rfl⟩ : ∃ (p : Fin 5000) (q : Fin 256), j = ix2 p q := ⟨j 0, j 1, eq_ix2 j⟩
  have hp : p.val < 5000 := p.isLt
  have hq : q.val < 256 := q.isLt
  rw [pay_apply]
  have hemb : ((cfg5.win 5).blk t).view.emb (ix2 p q) = ix2 (⟨t.val * 5000 + p.val, by omega⟩ : Fin 50000) q := by
    funext a; apply Fin.ext
    match a with
    | ⟨0, _⟩ => show win5_5.index t (0 : Fin 2) * 5000 + 1 * p.val = t.val * 5000 + p.val; omega
    | ⟨1, _⟩ => show win5_5.index t (1 : Fin 2) * 256 + 1 * q.val = q.val; omega
  rw [hemb, norm_apply]
  have hx : iblk5 V c 0 t (ix2 p q) = V c (Pipeline.arrRef spec5 0) (ix2 (⟨t.val * 5000 + p.val, by omega⟩ : Fin 50000) q) := by
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 256 + 1 * q.val = q.val; omega
  obtain ⟨h1, h2, h3, h4⟩ := row_eq V c t q
  rw [hx, h1, h2, h3, h4]

/-- What point t writes back is block t of the whole normalised array of the input arrays as the region finds them. -/
theorem flushed_eq (c : Dev nD) (t : Fin cfg5.N) :
    (dat5 V c).flushed 5 t = ((cfg5.win 5).blk t).view.read (Elt Ideal)
      (norm (V c (Pipeline.arrRef spec5 0)) (V c (Pipeline.arrRef spec5 1)) (V c (Pipeline.arrRef spec5 2))
          (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S5000x256) hz, View.ld_unit_zero (S := S1x256) hz]
  exact block_eq V c t

/-- An index of the result array is in point t's block iff each coordinate is in the block's range on its axis. -/
theorem mem_blk (t : Fin cfg5.N) (i : S50000x256.Idx) :
    i ∈ ((cfg5.win 5).blk t).view.set ↔ ∀ a : Fin 2, win5_5.index t a * S5000x256.size a ≤ (i a).val ∧ (i a).val < win5_5.index t a * S5000x256.size a + S5000x256.size a := by
  show i ∈ ((View.whole main_v51).slice (win5_5.rect t)).set ↔ _
  rw [View.set_slice_whole, Rect.mem_set_unit]
  exact Iff.rfl

/-- Every block index below ten is some point's. -/
theorem idx_onto : ∀ q : Fin 10, ∃ t : Fin cfg5.N, t.val = q.val :=
  (by decide +kernel : ∀ q : Fin 10, ∃ t : Fin grid5.N, t.val = q.val)

/-- The ten blocks tile the rows: row r lies in block r / 5000. -/
theorem cover (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ := idx_onto ⟨(i 0).val / 5000, by omega⟩
  have ht' : t.val = (i 0).val / 5000 := ht
  obtain ⟨e0, e1, e2, e3, e4, e5, e6, e7, e8, e9, e10, e11⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 256 ≤ (i 1).val ∧ (i 1).val < win5_5.index t (1 : Fin 2) * 256 + 256; omega

/-- THE RESULT ARRAY after the region: the whole normalised array of the input arrays as the region finds them. -/
theorem final (c : Dev nD) :
    (dat5 V c).arrAt 5 cfg5.N = norm (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed_eq V c t) cover

end Cert.KernelIdeal.Blocks5

end
-- ==== Proof.KValue.lean ====
/- The kernel program's result, entry by entry.
   @main is two layers. In a layer, a region multiplies the layer's input by a weight matrix; a stretch of host
   operations aggregates the product's rows along the graph's edges (the array `G`); a region sums each column of
   max(G, 0) and of its square over the 50000 rows; a stretch divides the sums by the row count into the column mean
   and variance; a region forms gamma · (max(G, 0) − mean) · rsqrt(var + ε) + beta. Each region's result array is
   known as a function of what the region finds in its input arrays, and what it finds there is known from the fold
   of buffer contents through @main's segments. Composed: the first layer's result is the normalised entry of `G1`
   against its own column moments, `G1` the aggregation of features · W1; the program's result is the same with `G2`,
   the aggregation of (first layer's result) · W2. `G1`, `H1`, `G2` stay folded: each step rewrites with one equation
   between named arrays. -/
import proofs.«169836_j481036337853_1_alg».proof.Proof.KFold
import proofs.«169836_j481036337853_1_alg».proof.Proof.Blocks0
import proofs.«169836_j481036337853_1_alg».proof.Proof.Blocks1
import proofs.«169836_j481036337853_1_alg».proof.Proof.Blocks2
import proofs.«169836_j481036337853_1_alg».proof.Proof.Blocks3
import proofs.«169836_j481036337853_1_alg».proof.Proof.Blocks4
import proofs.«169836_j481036337853_1_alg».proof.Proof.Blocks5
import proofs.«169836_j481036337853_1_alg».proof.Proof.Moments
import Idealize.ShloMosaic.Lib.IdealHost
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.KFold
open Cert.Moments

/-! ## The statistics stretches and the reshapes read at an index -/

/-- The row of column means at (0, q): the first row of the sums at (0, q), over the row count. -/
theorem meanOf1_apply (st : Vec Ideal S2x128 .f32) (q : Fin 128) :
    meanOf1 st (ix2 (0 : Fin 1) q) = Ideal.div (st (ix2 (0 : Fin 2) q)) cN := by
  unfold meanOf1
  rw [hostDivf_apply, broadcastInDim_scalar_apply, constant_apply]
  refine congrArg (fun z => Ideal.div z cN) ?_
  refine extractStridedSlice_apply _ st _ _ (ix2 (0 : Fin 2) q) fun a => ?_
  match a with
  | ⟨0, _⟩ => rfl
  | ⟨1, _⟩ => exact (Nat.zero_add _).symm

/-- The row of column variances at (0, q): the second row of the sums at (1, q) over the row count, minus the
    square of the mean at (0, q). -/
theorem varOf1_apply (st : Vec Ideal S2x128 .f32) (q : Fin 128) :
    varOf1 st (ix2 (0 : Fin 1) q)
      = Ideal.div (st (ix2 (1 : Fin 2) q)) cN - meanOf1 st (ix2 (0 : Fin 1) q) * meanOf1 st (ix2 (0 : Fin 1) q) := by
  unfold varOf1
  rw [subf_apply, mulf_apply, hostDivf_apply, broadcastInDim_scalar_apply, constant_apply]
  refine congrArg (fun z => Ideal.div z cN - meanOf1 st (ix2 (0 : Fin 1) q) * meanOf1 st (ix2 (0 : Fin 1) q)) ?_
  refine extractStridedSlice_apply _ st _ _ (ix2 (1 : Fin 2) q) fun a => ?_
  match a with
  | ⟨0, _⟩ => rfl
  | ⟨1, _⟩ => exact (Nat.zero_add _).symm

/-- A vector recast as one row, read at (0, q), is the vector at q. -/
theorem row128_apply (g : Vec Ideal S128 .f32) (q : Fin 128) : row128 g (ix2 (0 : Fin 1) q) = g (ix1 q) := by
  unfold row128
  refine (shapeCast_addUnit_apply ![128] g shapeCasts_S128_S1x128 (ix2 (0 : Fin 1) q)).trans ?_
  refine congrArg g (funext fun a => ?_)
  match a with
  | ⟨0, _⟩ => rfl

/-- The row of column means at (0, q): the first row of the sums at (0, q), over the row count. -/
theorem meanOf2_apply (st : Vec Ideal S2x256 .f32) (q : Fin 256) :
    meanOf2 st (ix2 (0 : Fin 1) q) = Ideal.div (st (ix2 (0 : Fin 2) q)) cN := by
  unfold meanOf2
  rw [hostDivf_apply, broadcastInDim_scalar_apply, constant_apply]
  refine congrArg (fun z => Ideal.div z cN) ?_
  refine extractStridedSlice_apply _ st _ _ (ix2 (0 : Fin 2) q) fun a => ?_
  match a with
  | ⟨0, _⟩ => rfl
  | ⟨1, _⟩ => exact (Nat.zero_add _).symm

/-- The row of column variances at (0, q): the second row of the sums at (1, q) over the row count, minus the
    square of the mean at (0, q). -/
theorem varOf2_apply (st : Vec Ideal S2x256 .f32) (q : Fin 256) :
    varOf2 st (ix2 (0 : Fin 1) q)
      = Ideal.div (st (ix2 (1 : Fin 2) q)) cN - meanOf2 st (ix2 (0 : Fin 1) q) * meanOf2 st (ix2 (0 : Fin 1) q) := by
  unfold varOf2
  rw [subf_apply, mulf_apply, hostDivf_apply, broadcastInDim_scalar_apply, constant_apply]
  refine congrArg (fun z => Ideal.div z cN - meanOf2 st (ix2 (0 : Fin 1) q) * meanOf2 st (ix2 (0 : Fin 1) q)) ?_
  refine extractStridedSlice_apply _ st _ _ (ix2 (1 : Fin 2) q) fun a => ?_
  match a with
  | ⟨0, _⟩ => rfl
  | ⟨1, _⟩ => exact (Nat.zero_add _).symm

/-- A vector recast as one row, read at (0, q), is the vector at q. -/
theorem row256_apply (g : Vec Ideal S256 .f32) (q : Fin 256) : row256 g (ix2 (0 : Fin 1) q) = g (ix1 q) := by
  unfold row256
  refine (shapeCast_addUnit_apply ![256] g shapeCasts_S256_S1x256 (ix2 (0 : Fin 1) q)).trans ?_
  refine congrArg g (funext fun a => ?_)
  match a with
  | ⟨0, _⟩ => rfl

variable (m : (ℓ : Loc nD τ sig) → Buf (Elt Ideal) ℓ) (ρ : Dev nD → PrngReg)

/-! ## Layer 1 -/

/-- The first layer's aggregated array: the aggregation, along the launched edges, of the product of the launched
    features and first weight matrix. -/
def G1 (c : Dev nD) : S50000x128.Idx → EReal :=
  glue1 (F := Ideal) (Blocks0.prod (m ((c : Thread nD τ).loc main_arg0)) (m ((c : Thread nD τ).loc main_arg4)))
    (m ((c : Thread nD τ).loc main_arg1)) (m ((c : Thread nD τ).loc main_arg2)) (m ((c : Thread nD τ).loc main_arg3))

theorem G1_eq (c : Dev nD) :
    G1 m c = glue1 (F := Ideal) (Blocks0.prod (m ((c : Thread nD τ).loc main_arg0)) (m ((c : Thread nD τ).loc main_arg4)))
      (m ((c : Thread nD τ).loc main_arg1)) (m ((c : Thread nD τ).loc main_arg2)) (m ((c : Thread nD τ).loc main_arg3)) := rfl

/-- What region 1 finds in its input array is the first layer's aggregated array. -/
theorem x1_eq (c : Dev nD) : V2 m ρ c (Pipeline.arrRef spec1 0) = G1 m c := by
  rw [in1_0 m ρ c, Blocks0.final (V0 m ρ) c, in0_0 m ρ c, in0_1 m ρ c]
  exact (G1_eq m c).symm

/-- Region 2 finds the same array. -/
theorem x2_eq (c : Dev nD) : V4 m ρ c (Pipeline.arrRef spec2 0) = G1 m c := by
  rw [in2_0 m ρ c, Blocks0.final (V0 m ρ) c, in0_0 m ρ c, in0_1 m ρ c]
  exact (G1_eq m c).symm

/-- The two rows of sums region 1 leaves, at column q: the column's sum and sum of squares of the rectified
    aggregated array. -/
theorem stats1 (c : Dev nD) (q : Fin 128) :
    (dat1 (V2 m ρ) c).arrAt 1 cfg1.N (ix2 (0 : Fin 2) q) = colsumAll (G1 m c) q
    ∧ (dat1 (V2 m ρ) c).arrAt 1 cfg1.N (ix2 (1 : Fin 2) q) = colsqAll (G1 m c) q := by
  have h := Blocks1.final (V2 m ρ) c q
  rw [x1_eq m ρ c] at h
  exact h

/-- The normalization's per-entry formula is the normalised entry of the moments' module: the same constants. -/
theorem norm1_eq_128 : Blocks2.norm1 = Cert.Moments.normEntry := rfl

/-- The column mean region 2 finds, at (0, q), is the first moment of the aggregated array's column q. -/
theorem mean1_eq (c : Dev nD) (q : Fin 128) :
    V4 m ρ c (Pipeline.arrRef spec2 1) (ix2 (0 : Fin 1) q) = mom1 (G1 m c) q := by
  rw [in2_1 m ρ c, meanOf1_apply, (stats1 m ρ c q).1]
  rfl

/-- The column variance region 2 finds, at (0, q), is the second moment of the aggregated array's column q. -/
theorem var1_eq (c : Dev nD) (q : Fin 128) :
    V4 m ρ c (Pipeline.arrRef spec2 2) (ix2 (0 : Fin 1) q) = mom2 (G1 m c) q := by
  rw [in2_2 m ρ c, varOf1_apply, meanOf1_apply, (stats1 m ρ c q).1, (stats1 m ρ c q).2]
  rfl

/-- (K1) The first layer's normalised array, entry by entry. -/
theorem h1_entry (c : Dev nD) (i : Fin 50000) (q : Fin 128) :
    (dat2 (V4 m ρ) c).arrAt 5 cfg2.N (ix2 i q)
      = normEntry (G1 m c (ix2 i q)) (mom1 (G1 m c) q) (mom2 (G1 m c) q)
          (m ((c : Thread nD τ).loc main_arg5) (ix1 q)) (m ((c : Thread nD τ).loc main_arg6) (ix1 q)) := by
  rw [Blocks2.final (V4 m ρ) c, Blocks2.norm_apply, x2_eq m ρ c, mean1_eq m ρ c q, var1_eq m ρ c q,
    in2_3 m ρ c, in2_4 m ρ c, row128_apply, row128_apply, norm1_eq_128]

/-! ## Layer 2 -/

/-- The first layer's normalised array in closed form: entry (i, q) is the normalised entry of the aggregated array's
    entry against its column's two moments, scaled and shifted by the launched vectors at q. -/
def H1 (c : Dev nD) : S50000x128.Idx → EReal := fun j =>
  normEntry (G1 m c j) (mom1 (G1 m c) (⟨(j 1).val, idx2_lt1 j⟩ : Fin 128)) (mom2 (G1 m c) (⟨(j 1).val, idx2_lt1 j⟩ : Fin 128))
    (m ((c : Thread nD τ).loc main_arg5) (ix1 (⟨(j 1).val, idx2_lt1 j⟩ : Fin 128))) (m ((c : Thread nD τ).loc main_arg6) (ix1 (⟨(j 1).val, idx2_lt1 j⟩ : Fin 128)))

theorem H1_apply (c : Dev nD) (i : Fin 50000) (q : Fin 128) :
    H1 m c (ix2 i q) = normEntry (G1 m c (ix2 i q)) (mom1 (G1 m c) q) (mom2 (G1 m c) q)
      (m ((c : Thread nD τ).loc main_arg5) (ix1 q)) (m ((c : Thread nD τ).loc main_arg6) (ix1 q)) := rfl

/-- Region 2's result array is the closed form. -/
theorem h1_array (c : Dev nD) : (dat2 (V4 m ρ) c).arrAt 5 cfg2.N = H1 m c := by
  refine funext fun (j : S50000x128.Idx) => ?_
  obtain ⟨i, q, rfl⟩ : ∃ (i : Fin 50000) (q : Fin 128), j = ix2 i q := ⟨j 0, j 1, eq_ix2 j⟩
  rw [H1_apply]
  exact h1_entry m ρ c i q

/-- The second layer's aggregated array: the aggregation, along the launched edges, of the product of the first
    layer's normalised array and the launched second weight matrix. -/
def G2 (c : Dev nD) : S50000x256.Idx → EReal :=
  glue2 (F := Ideal) (Blocks3.prod (H1 m c) (m ((c : Thread nD τ).loc main_arg7)))
    (m ((c : Thread nD τ).loc main_arg1)) (m ((c : Thread nD τ).loc main_arg2)) (m ((c : Thread nD τ).loc main_arg3))

theorem G2_eq (c : Dev nD) :
    G2 m c = glue2 (F := Ideal) (Blocks3.prod (H1 m c) (m ((c : Thread nD τ).loc main_arg7)))
      (m ((c : Thread nD τ).loc main_arg1)) (m ((c : Thread nD τ).loc main_arg2)) (m ((c : Thread nD τ).loc main_arg3)) := rfl

/-- What region 4 finds in its input array is the second layer's aggregated array. -/
theorem x4_eq (c : Dev nD) : V7 m ρ c (Pipeline.arrRef spec4 0) = G2 m c := by
  rw [in4_0 m ρ c, Blocks3.final (V5 m ρ) c, in3_0 m ρ c, in3_1 m ρ c, h1_array m ρ c]
  exact (G2_eq m c).symm

/-- Region 5 finds the same array. -/
theorem x5_eq (c : Dev nD) : V9 m ρ c (Pipeline.arrRef spec5 0) = G2 m c := by
  rw [in5_0 m ρ c, Blocks3.final (V5 m ρ) c, in3_0 m ρ c, in3_1 m ρ c, h1_array m ρ c]
  exact (G2_eq m c).symm

/-- The two rows of sums region 4 leaves, at column q: the column's sum and sum of squares of the rectified
    aggregated array. -/
theorem stats4 (c : Dev nD) (q : Fin 256) :
    (dat4 (V7 m ρ) c).arrAt 1 cfg4.N (ix2 (0 : Fin 2) q) = colsumAll (G2 m c) q
    ∧ (dat4 (V7 m ρ) c).arrAt 1 cfg4.N (ix2 (1 : Fin 2) q) = colsqAll (G2 m c) q := by
  have h := Blocks4.final (V7 m ρ) c q
  rw [x4_eq m ρ c] at h
  exact h

theorem norm1_eq_256 : Blocks5.norm1 = Cert.Moments.normEntry := rfl

/-- The column mean region 5 finds, at (0, q), is the first moment of the aggregated array's column q. -/
theorem mean2_eq (c : Dev nD) (q : Fin 256) :
    V9 m ρ c (Pipeline.arrRef spec5 1) (ix2 (0 : Fin 1) q) = mom1 (G2 m c) q := by
  rw [in5_1 m ρ c, meanOf2_apply, (stats4 m ρ c q).1]
  rfl

/-- The column variance region 5 finds, at (0, q), is the second moment of the aggregated array's column q. -/
theorem var2_eq (c : Dev nD) (q : Fin 256) :
    V9 m ρ c (Pipeline.arrRef spec5 2) (ix2 (0 : Fin 1) q) = mom2 (G2 m c) q := by
  rw [in5_2 m ρ c, varOf2_apply, meanOf2_apply, (stats4 m ρ c q).1, (stats4 m ρ c q).2]
  rfl

/-- (K2) The kernel program's result, entry by entry. -/
theorem out_entry (c : Dev nD) (i : Fin 50000) (q : Fin 256) :
    W10 m ρ c (Proc.devRef .tc main_v51) (ix2 i q)
      = normEntry (G2 m c (ix2 i q)) (mom1 (G2 m c) q) (mom2 (G2 m c) q)
          (m ((c : Thread nD τ).loc main_arg8) (ix1 q)) (m ((c : Thread nD τ).loc main_arg9) (ix1 q)) := by
  rw [result_eq m ρ c, Blocks5.final (V9 m ρ) c, Blocks5.norm_apply, x5_eq m ρ c, mean2_eq m ρ c q, var2_eq m ρ c q,
    in5_3 m ρ c, in5_4 m ρ c, row256_apply, row256_apply, norm1_eq_256]

end Cert.KernelIdeal.KValue

end
-- ==== Proof.Bridge.lean ====
/-
  The two programs' results are one array, on the kernel program's memory: the statement over the kernel program's
  own arrays, from the reference's stages read at an index and the kernel program's arrays read at an index.
-/
import proofs.«169836_j481036337853_1_alg».proof.Proof.BridgeCore
import proofs.«169836_j481036337853_1_alg».proof.Proof.PreReal
import proofs.«169836_j481036337853_1_alg».proof.Proof.RefIndex
import proofs.«169836_j481036337853_1_alg».proof.Proof.KValue

noncomputable section

namespace Cert.Bridge

open Idealize.ShloMosaic Idealize.ShloMosaic.ValueIdx Idealize.SL.Sem
open Cert.LibReal Cert.Moments
open Cert.KernelIdeal Cert.KernelIdeal.Gen Cert.KernelIdeal.GenP Cert.KernelIdeal.KFold
open Cert.ReferenceIdeal.RefRun (support1 agg1 relu1 bn1 support2 agg2 relu2 bn2 refOut)
open scoped BigOperators

/-- Under the finiteness precondition the reference's result function of the kernel program's argument arrays is
    the kernel program's result array. -/
theorem bridge_of
    (hR1a : ∀ (x : S50000x64.Idx → EReal) (w : S64x128.Idx → EReal) (i : Fin 50000) (q : Fin 128),
      support1 (F := Ideal) x w (ix2 i q) = ∑ k : Fin 64, x (ix2 i k) * w (ix2 k q))
    (hR1b : ∀ (x : S50000x128.Idx → EReal) (w : S128x256.Idx → EReal) (i : Fin 50000) (q : Fin 256),
      support2 (F := Ideal) x w (ix2 i q) = ∑ k : Fin 128, x (ix2 i k) * w (ix2 k q))
    (hR2a : ∀ (g : S50000x128.Idx → EReal) (gamma beta : S128.Idx → EReal), IsReal g → ∀ (i : Fin 50000) (q : Fin 128),
      bn1 (F := Ideal) (relu1 (F := Ideal) g) gamma beta (ix2 i q)
        = normEntry (g (ix2 i q)) (mom1 g q) (mom2 g q) (gamma (ix1 q)) (beta (ix1 q)))
    (hR2b : ∀ (g : S50000x256.Idx → EReal) (gamma beta : S256.Idx → EReal), IsReal g → ∀ (i : Fin 50000) (q : Fin 256),
      bn2 (F := Ideal) (relu2 (F := Ideal) g) gamma beta (ix2 i q)
        = normEntry (g (ix2 i q)) (mom1 g q) (mom2 g q) (gamma (ix1 q)) (beta (ix1 q)))
    (hR3s1 : ∀ (x : S50000x64.Idx → EReal) (w : S64x128.Idx → EReal), IsReal x → IsReal w → IsReal (support1 (F := Ideal) x w))
    (hR3g1 : ∀ (s : S50000x128.Idx → EReal) (src dst : IVec S800000 32) (w : S800000.Idx → EReal), IsReal s → IsReal w →
      IsReal (agg1 (F := Ideal) s src dst w))
    (hR3b1 : ∀ (g : S50000x128.Idx → EReal) (gamma beta : S128.Idx → EReal), IsReal g → IsReal gamma → IsReal beta →
      IsReal (bn1 (F := Ideal) (relu1 (F := Ideal) g) gamma beta))
    (hR3s2 : ∀ (x : S50000x128.Idx → EReal) (w : S128x256.Idx → EReal), IsReal x → IsReal w → IsReal (support2 (F := Ideal) x w))
    (hR3g2 : ∀ (s : S50000x256.Idx → EReal) (src dst : IVec S800000 32) (w : S800000.Idx → EReal), IsReal s → IsReal w →
      IsReal (agg2 (F := Ideal) s src dst w))
    (m : (ℓ : Loc nD τ sig) → Buf (Elt Ideal) ℓ) (ρ : Dev nD → PrngReg) (c : Dev nD)
    (hK1 : ∀ (i : Fin 50000) (q : Fin 128), ((dat2 (V4 m ρ) c).arrAt 5 cfg2.N) (ix2 i q)
      = normEntry ((glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) (ix2 i q)) (mom1 (glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) q) (mom2 (glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) q) ((m ((c.tc : Thread nD τ).loc main_arg5)) (ix1 q)) ((m ((c.tc : Thread nD τ).loc main_arg6)) (ix1 q)))
    (hK2 : ∀ (i : Fin 50000) (q : Fin 256), W10 m ρ c (Proc.devRef .tc main_v51) (ix2 i q)
      = normEntry ((glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) (ix2 i q)) (mom1 (glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) q) (mom2 (glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) q) ((m ((c.tc : Thread nD τ).loc main_arg8)) (ix1 q)) ((m ((c.tc : Thread nD τ).loc main_arg9)) (ix1 q)))
    (hpre : Cert.Pre_KernelIdeal m) :
    refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      = W10 m ρ c (Proc.devRef .tc main_v51) :=
  bridge_core hR1a hR1b hR2a hR2b hR3s1 hR3g1 hR3b1 hR3s2 hR3g2
    _ _ _ _ _ _ _ _ _ _ ((dat2 (V4 m ρ) c).arrAt 5 cfg2.N) _
    (Cert.PreReal.arg0_real m hpre c) (Cert.PreReal.arg3_real m hpre c) (Cert.PreReal.arg4_real m hpre c)
    (Cert.PreReal.arg5_real m hpre c) (Cert.PreReal.arg6_real m hpre c) (Cert.PreReal.arg7_real m hpre c)
    hK1 hK2

/-- The same with the reference's stages read at an index as proved: what is left to supply is the kernel
    program's two normalized arrays read at an index. -/
theorem bridge_ofK
    (m : (ℓ : Loc nD τ sig) → Buf (Elt Ideal) ℓ) (ρ : Dev nD → PrngReg) (c : Dev nD)
    (hK1 : ∀ (i : Fin 50000) (q : Fin 128), ((dat2 (V4 m ρ) c).arrAt 5 cfg2.N) (ix2 i q)
      = normEntry ((glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) (ix2 i q)) (mom1 (glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) q) (mom2 (glue1 (F := Ideal) (Blocks0.prod (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) q) ((m ((c.tc : Thread nD τ).loc main_arg5)) (ix1 q)) ((m ((c.tc : Thread nD τ).loc main_arg6)) (ix1 q)))
    (hK2 : ∀ (i : Fin 50000) (q : Fin 256), W10 m ρ c (Proc.devRef .tc main_v51) (ix2 i q)
      = normEntry ((glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) (ix2 i q)) (mom1 (glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) q) (mom2 (glue2 (F := Ideal) (Blocks3.prod ((dat2 (V4 m ρ) c).arrAt 5 cfg2.N) (m ((c.tc : Thread nD τ).loc main_arg7))) (m ((c.tc : Thread nD τ).loc main_arg1)) (m ((c.tc : Thread nD τ).loc main_arg2)) (m ((c.tc : Thread nD τ).loc main_arg3))) q) ((m ((c.tc : Thread nD τ).loc main_arg8)) (ix1 q)) ((m ((c.tc : Thread nD τ).loc main_arg9)) (ix1 q)))
    (hpre : Cert.Pre_KernelIdeal m) :
    refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      = W10 m ρ c (Proc.devRef .tc main_v51) :=
  bridge_of
    (fun x w i q => Cert.RefIndex.support1_apply x w i q)
    (fun x w i q => Cert.RefIndex.support2_apply x w i q)
    (fun g gamma beta hg i q => Cert.RefIndex.bn1_relu1_apply g hg gamma beta i q)
    (fun g gamma beta hg i q => Cert.RefIndex.bn2_relu2_apply g hg gamma beta i q)
    (fun x w hx hw => Cert.RefIndex.support1_real hx hw)
    (fun s src dst w hs hw => Cert.RefIndex.agg1_real hs src dst hw)
    (fun g gamma beta hg hγ hβ => Cert.RefIndex.bn1_relu1_real hg hγ hβ)
    (fun x w hx hw => Cert.RefIndex.support2_real hx hw)
    (fun s src dst w hs hw => Cert.RefIndex.agg2_real hs src dst hw)
    m ρ c hK1 hK2 hpre

/-- THE BRIDGE. Under the finiteness precondition, on every device, the reference's result function of the kernel
    program's argument arrays is the kernel program's result array: the kernel program's layer-1 output in closed
    form (the normalized entries of its first aggregate) and its result read at an index (the normalized entries of
    the second aggregate, taken of that closed form) are what `bridge_core` asks of the two normalized arrays. -/
theorem bridge
    (m : (ℓ : Loc nD τ sig) → Buf (Elt Ideal) ℓ) (ρ : Dev nD → PrngReg) (c : Dev nD)
    (hpre : Cert.Pre_KernelIdeal m) :
    refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      = W10 m ρ c (Proc.devRef .tc main_v51) :=
  bridge_core
    (fun x w i q => Cert.RefIndex.support1_apply x w i q)
    (fun x w i q => Cert.RefIndex.support2_apply x w i q)
    (fun g gamma beta hg i q => Cert.RefIndex.bn1_relu1_apply g hg gamma beta i q)
    (fun g gamma beta hg i q => Cert.RefIndex.bn2_relu2_apply g hg gamma beta i q)
    (fun x w hx hw => Cert.RefIndex.support1_real hx hw)
    (fun s src dst w hs hw => Cert.RefIndex.agg1_real hs src dst hw)
    (fun g gamma beta hg hγ hβ => Cert.RefIndex.bn1_relu1_real hg hγ hβ)
    (fun x w hx hw => Cert.RefIndex.support2_real hx hw)
    (fun s src dst w hs hw => Cert.RefIndex.agg2_real hs src dst hw)
    _ _ _ _ _ _ _ _ _ _ (Cert.KernelIdeal.KValue.H1 m c) _
    (Cert.PreReal.arg0_real m hpre c) (Cert.PreReal.arg3_real m hpre c) (Cert.PreReal.arg4_real m hpre c)
    (Cert.PreReal.arg5_real m hpre c) (Cert.PreReal.arg6_real m hpre c) (Cert.PreReal.arg7_real m hpre c)
    (Cert.KernelIdeal.KValue.H1_apply m c) (Cert.KernelIdeal.KValue.out_entry m ρ c)

end Cert.Bridge

end
-- ==== Proof.lean ====
/-
  Two graph-convolution layers with batch normalisation: the kernel program against its plain reference, at the exact
  (extended) reals.

  Each layer computes support = X · W, gathers the rows of support at the edges' sources, scales them by the edge
  weights and adds them up at the edges' destinations (agg), rectifies, r = max(agg, 0), and normalises every column of r
  over the 50000 nodes: γ · (r − μ) · (v + ε)^(−1/2) + β, with μ the column's mean and v its variance.

  The kernel program forms X · W ten row blocks at a time (a block's product is the sum over the contracted index, and the
  ten blocks tile the rows), runs the same gather / scatter-add on the host, accumulates the column sums of r and of r²
  over the ten blocks in a two-row block that is reset at the first grid point and written back after the last, takes
  μ = (Σ r) / 50000 and v = (Σ r²) / 50000 − μ · μ on the host, and normalises block by block. The reference takes
  μ = (Σ r) / 50000 and v = (Σ (r − μ)²) / 50000. The two variances are the same number because every entry of r is a
  real number: the float inputs are finite by the precondition, and products, finite sums, gathers, scatter-adds,
  maxima with 0, quotients by 50000 and (v + ε)^(−1/2) at v ≥ 0, ε > 0 keep that — for every value of the integer edge
  arrays. With μ and v equal column by column the two results agree entry by entry in the first layer, hence the second
  layer's inputs agree and are again real, and the same argument closes the second layer.

  The three frames: the kernel programs' are the generated frame certificates, the reference's is its run with the
  result dropped. The idealisation rewrote no operation, so what it must preserve is nothing.
-/
import proofs.«169836_j481036337853_1_alg».proof.Defs
import proofs.«169836_j481036337853_1_alg».proof.Proof.Gen.Kernel
import proofs.«169836_j481036337853_1_alg».proof.Proof.Gen.KernelIdeal
import proofs.«169836_j481036337853_1_alg».proof.Proof.Gen.ReferenceIdeal
import proofs.«169836_j481036337853_1_alg».proof.Proof.Gen.Pre_finite_inputs
import proofs.«169836_j481036337853_1_alg».proof.Proof.KernelFrameP
import proofs.«169836_j481036337853_1_alg».proof.Proof.KernelIdealFrameP
import proofs.«169836_j481036337853_1_alg».proof.Proof.KRun
import proofs.«169836_j481036337853_1_alg».proof.Proof.RefRun
import proofs.«169836_j481036337853_1_alg».proof.Proof.Bridge
import Idealize.ShloMosaic.Adequacy
import Idealize.ShloMosaic.Init
import Idealize.ShloMosaic.PureOps.Ideal

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.RefRun.run (F := Ideal) m ρ),
  trivial,
  fun m ρ m' ρ' hpre hagree => ⟨fun c => Cert.KernelIdeal.GenP.W10 m ρ c (Proc.devRef .tc Cert.KernelIdeal.main_v51),
    Cert.KernelIdeal.KRun.run_value (F := Ideal) m ρ,
    (θ_run Cert.ReferenceIdeal.defs _ _).mono (fun _ h c => ⟨(h c).1.trans (by
        obtain ⟨e0, e1, e2, e3, e4, e5, e6, e7, e8, e9⟩ := hagree c
        rw [e0, e1, e2, e3, e4, e5, e6, e7, e8, e9]
        exact Cert.Bridge.bridge m ρ c hpre), (h c).2⟩)
      (Cert.ReferenceIdeal.RefRun.run (F := Ideal) m' ρ')⟩⟩

end Cert.Proof

end
